-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 102
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S50000x128, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x1, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x64, .f32⟩
  | .hbm, ⟨94, _⟩ => ⟨S850000x1, .f32⟩
  | .hbm, ⟨95, _⟩ => ⟨S850000x64, .f32⟩
  | .hbm, ⟨96, _⟩ => ⟨S850000x64, .f32⟩
  | .hbm, ⟨97, _⟩ => ⟨S_, .f32⟩
  | .hbm, ⟨98, _⟩ => ⟨S50000x64, .f32⟩
  | .hbm, ⟨99, _⟩ => ⟨S850000x1, .i32⟩
  | .hbm, ⟨100, _⟩ => ⟨S50000x64, .f32⟩
  | .hbm, ⟨101, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v44) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x64, .f32⟩
  | .hbm, ⟨101, _⟩ => ⟨S850000x1, .f32⟩
  | .hbm, ⟨102, _⟩ => ⟨S850000x64, .f32⟩
  | .hbm, ⟨103, _⟩ => ⟨S850000x64, .f32⟩
  | .hbm, ⟨104, _⟩ => ⟨S_, .f32⟩
  | .hbm, ⟨105, _⟩ => ⟨S50000x64, .f32⟩
  | .hbm, ⟨106, _⟩ => ⟨S850000x1, .i32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its two result arrays named.

  @main is twelve segments: six stretches of host operations and six regions. The contents of every buffer at
  each segment boundary are a fold from the launch memory (the generated frame's `W0`, …, `W12`). The run of the
  segments ends with every unscoped buffer at `W12`; read at the two result arrays and at the eight argument
  arrays this is the statement below. The argument arrays walk back through the fold to the launch memory,
  since nothing writes them.
-/
import proofs.«116998_j46694884442219_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, with the two result arrays at the last
    boundary's contents and the argument arrays as launched. -/
theorem run : θ_run defs (onTc (τ := τ) (main (F := F))) ⟨m, fun _ => 0, ρ⟩ (fun r => ∀ c : Dev nD,
      r.2.mem ((c.tc : Thread nD τ).loc main_v59) = W12 m ρ c (Proc.devRef .tc main_v59)
      ∧ r.2.mem ((c.tc : Thread nD τ).loc main_v74) = W12 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v59 (by decide)),
       h c _ (mem_uc main_v74 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Named

end
-- ==== Proof.Glue.lean ====
/-
  The graph-convolution pipeline as plain functions of arrays over the extended reals.

  A graph of 50000 nodes is given by 800000 edges (a source row and a target row of node numbers); every node
  also gets a loop to itself, which makes 850000 edges. The degree of a node is the number of edges that end
  in it, its weight is 1/sqrt(degree) (0 where the degree is not positive), and an edge's coefficient is the
  product of the weights of its two ends. One convolution takes a feature matrix h (one row per node),
  reads the row of each edge's source, scales it by the edge's coefficient and adds it into the row of the
  edge's target; a dense layer h = x · w goes before it and a bias (and, in the first layer, a clamp at 0)
  after it. The encoder is one such layer of width 128 followed by two of width 64 that share its output.

  Everything here is a definition; the two programs are later each shown to compute these functions.
-/
import proofs.«116998_j46694884442219_1_alg».proof.Proof.Gen.ReferenceIdeal
import Idealize.ShloMosaic.PureOps.Ideal

noncomputable section

namespace Cert.Glue

open Cert.ReferenceIdeal Cert.ReferenceIdeal.Gen Idealize.ShloMosaic

/-- Node numbers 0 … 49999: the targets (and sources) of the added loops. -/
def loops : IVec S50000 32 := iotaInDim S50000 32 0

/-- The sources of the 850000 edges: row 0 of the edge list, then the loops. -/
def src (e : IVec S2x800000 32) : IVec S850000 32 :=
  concatenate S850000 0
    [⟨S800000, shapeCast S800000 (extractStridedSlice S1x800000 ![0, 0] e slices_S2x800000_S1x800000_0_0) shapeCasts_S1x800000_S800000⟩,
     ⟨S50000, loops⟩] concatenates_S800000_S50000_S850000_d0

/-- The targets of the 850000 edges: row 1 of the edge list, then the loops. -/
def dst (e : IVec S2x800000 32) : IVec S850000 32 :=
  concatenate S850000 0
    [⟨S800000, shapeCast S800000 (extractStridedSlice S1x800000 ![1, 0] e slices_S2x800000_S1x800000_1_0) shapeCasts_S1x800000_S800000⟩,
     ⟨S50000, loops⟩] concatenates_S800000_S50000_S850000_d0

/-- A list of node numbers as a column of start indices. -/
def col (i : IVec S850000 32) : IVec S850000x1 32 :=
  broadcastInDim S850000x1 ![0] bcast_S850000_S850000x1_0 i

/-- Node numbers read from the end when negative: i + 50000 where i < 0, i elsewhere. -/
def wrap (i : IVec S850000 32) : IVec S850000 32 :=
  select (cmpi .slt i (broadcastInDim S850000 ![] bcast_S_S850000 (constantI S_ 32 0#32)))
    (addi i (broadcastInDim S850000 ![] bcast_S_S850000 (constantI S_ 32 50000#32))) i

/-- The degree of every node: a 1 added at the target of every edge. -/
def deg (d : IVec S850000 32) : FVec Ideal S50000 .f32 :=
  Host.scatterAdd (F := Ideal) scatter_S50000_S850000x1_S850000_n_0_0_1
    (broadcastInDim S50000 ![] bcast_S_S50000 (constant (F := Ideal) S_ .f32 0x00000000#32)) (col d)
    (broadcastInDim S850000 ![] bcast_S_S850000 (constant (F := Ideal) S_ .f32 0x3F800000#32))

/-- Where the degree is positive. -/
def degPos (d : IVec S850000 32) : IVec S50000 1 :=
  cmpf (F := Ideal) .ogt (deg d) (broadcastInDim S50000 ![] bcast_S_S50000 (constant (F := Ideal) S_ .f32 0x00000000#32))

/-- 1/sqrt of the degree. -/
def degRsqrt (d : IVec S850000 32) : FVec Ideal S50000 .f32 :=
  Host.rsqrt (F := Ideal) (deg d)

/-- The choice between two arrays by a mask, the second given as one value spread over the nodes. -/
def whereOf (p : IVec S50000 1) (r : FVec Ideal S50000 .f32) (z : FVec Ideal S_ .f32) : FVec Ideal S50000 .f32 :=
  select p r (broadcastInDim S50000 ![] bcast_S_S50000 z)

/-- A node's weight: 1/sqrt(degree) where the degree is positive, 0 elsewhere. -/
def weight (d : IVec S850000 32) : FVec Ideal S50000 .f32 :=
  whereOf (degPos d) (degRsqrt d) (constant (F := Ideal) S_ .f32 0x00000000#32)

/-- An edge's coefficient: the weight of its source times the weight of its target, both looked up in `w`. -/
def coeffOf (w : FVec Ideal S50000 .f32) (s d : IVec S850000 32) :
    FVec Ideal S850000 .f32 :=
  mulf (Host.gather gather_S50000_S850000x1_S850000_n_0_n_n_0_1_1 w (col (wrap s)))
    (Host.gather gather_S50000_S850000x1_S850000_n_0_n_n_0_1_1 w (col (wrap d)))

/-- The coefficients of the graph's edges. -/
def coeff (e : IVec S2x800000 32) : FVec Ideal S850000 .f32 :=
  coeffOf (weight (dst e)) (src e) (dst e)

/-- One aggregation over 128 columns: each edge adds its source's row of `h`, scaled by its coefficient, into its
    target's row. -/
def agg128 (h : FVec Ideal S50000x128 .f32) (s d : IVec S850000 32)
    (n : FVec Ideal S850000 .f32) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32)) (col d)
    (mulf (Host.gather gather_S50000x128_S850000x1_S850000x128_1_0_n_n_0_1_1128 h (col (wrap s)))
      (broadcastInDim S850000x128 ![0, 1] bcast_S850000x1_S850000x128_0_1
        (broadcastInDim S850000x1 ![0] bcast_S850000_S850000x1_0 n)))

/-- The same over 64 columns. -/
def agg64 (h : FVec Ideal S50000x64 .f32) (s d : IVec S850000 32)
    (n : FVec Ideal S850000 .f32) : FVec Ideal S50000x64 .f32 :=
  Host.scatterAdd (F := Ideal) scatter_S50000x64_S850000x1_S850000x64_1_0_0_1
    (broadcastInDim S50000x64 ![] bcast_S_S50000x64 (constant (F := Ideal) S_ .f32 0x00000000#32)) (col d)
    (mulf (Host.gather gather_S50000x64_S850000x1_S850000x64_1_0_n_n_0_1_164 h (col (wrap s)))
      (broadcastInDim S850000x64 ![0, 1] bcast_S850000x1_S850000x64_0_1
        (broadcastInDim S850000x1 ![0] bcast_S850000_S850000x1_0 n)))

/-- The dense layer into 128 columns: x · w. -/
def lin128 (x : FVec Ideal S50000x128 .f32) (w : FVec Ideal S128x128 .f32) :
    FVec Ideal S50000x128 .f32 :=
  Host.dotGeneral (F := Ideal) dot_S50000x128_S128x128_S50000x128_1_0_0_1_n_n none x w

/-- The dense layer into 64 columns: x · w. -/
def lin64 (x : FVec Ideal S50000x128 .f32) (w : FVec Ideal S128x64 .f32) :
    FVec Ideal S50000x64 .f32 :=
  Host.dotGeneral (F := Ideal) dot_S50000x128_S128x64_S50000x64_1_0_0_1_n_n none x w

/-- A bias of 128 entries added to every row. -/
def bias128 (a : FVec Ideal S50000x128 .f32) (b : FVec Ideal S128 .f32) :
    FVec Ideal S50000x128 .f32 :=
  addf a (broadcastInDim S50000x128 ![0, 1] bcast_S1x128_S50000x128_0_1 (broadcastInDim S1x128 ![1] bcast_S128_S1x128_1 b))

/-- A bias of 64 entries added to every row. -/
def bias64 (a : FVec Ideal S50000x64 .f32) (b : FVec Ideal S64 .f32) :
    FVec Ideal S50000x64 .f32 :=
  addf a (broadcastInDim S50000x64 ![0, 1] bcast_S1x64_S50000x64_0_1 (broadcastInDim S1x64 ![1] bcast_S64_S1x64_1 b))

/-- The clamp at 0 from below. -/
def relu128 (a : FVec Ideal S50000x128 .f32) : FVec Ideal S50000x128 .f32 :=
  maximumf a (broadcastInDim S50000x128 ![] bcast_S_S50000x128 (constant (F := Ideal) S_ .f32 0x00000000#32))

/-- The hidden layer: clamp (aggregate (x · w1) + b1). -/
def hidden (x : FVec Ideal S50000x128 .f32) (e : IVec S2x800000 32)
    (w1 : FVec Ideal S128x128 .f32) (b1 : FVec Ideal S128 .f32) :
    FVec Ideal S50000x128 .f32 :=
  relu128 (bias128 (agg128 (lin128 x w1) (src e) (dst e) (coeff e)) b1)

/-- An output layer over the hidden one: aggregate (hidden · w) + b. -/
def head (x : FVec Ideal S50000x128 .f32) (e : IVec S2x800000 32)
    (w1 : FVec Ideal S128x128 .f32) (b1 : FVec Ideal S128 .f32)
    (w : FVec Ideal S128x64 .f32) (b : FVec Ideal S64 .f32) :
    FVec Ideal S50000x64 .f32 :=
  bias64 (agg64 (lin64 (hidden x e w1 b1) w) (src e) (dst e) (coeff e)) b

end Cert.Glue

end
-- ==== Proof.KernelStretchA.lean ====
/-
  The kernel's host stretches before its first region, read from the contents they are entered with.

  The first stretch builds the two edge lists (a row of the edge list, then the loops), the degree of every node,
  where it is positive, and its inverse square root; the second picks the weight (the inverse square root where
  the degree is positive, 0 elsewhere); the third looks the weights up at both ends of every edge and multiplies
  them. Each result is the pipeline's own function of the buffers the stretch reads; every other live buffer is
  left as it was.
-/
import proofs.«116998_j46694884442219_1_alg».proof.Proof.Gen.KernelIdeal.Launch
import proofs.«116998_j46694884442219_1_alg».proof.Proof.Glue
import Idealize.ShloMosaic.Lib.StableHlo.Run

set_option maxRecDepth 16384

noncomputable section

namespace Cert.KernelIdeal.Stretch

open Cert.KernelIdeal Cert.KernelIdeal.Gen Idealize.ShloMosaic Idealize.ShloMosaic.StableHlo Idealize.ShloMosaic.TcCoe

variable (W : Valuation τ sig (Elt Ideal))

/-! ## What a stretch computes, from the contents it is entered with

Each proof reads the result buffer off the fold one operation at a time, from the last operation back: at the
operation that writes a buffer the buffer holds that operation's function of its operands, at any other operation
it holds what it held before. -/

set_option maxHeartbeats 1000000 in
/-- The edges' sources. -/
theorem src_at : after (hostOps0 (F := Ideal)) W (Proc.devRef .tc main_v3)
    = Cert.Glue.src (W (Proc.devRef .tc main_arg1)) := by
  generalize hR : Cert.Glue.src (W (Proc.devRef .tc main_arg1)) = R
  unfold hostOps0
  simp only [after_cons, after_nil]
  rw [nullary_result_ne (y := main_cst_2) (r := main_v3) (h := by decide),
    unary_result_ne (x := main_v10) (y := main_v13) (r := main_v3) (h := by decide),
    binary_result_ne (a := main_v10) (b := main_v11) (y := main_v12) (r := main_v3) (h := by decide)]
  rw [unary_result_ne (x := main_cst_1) (y := main_v11) (r := main_v3) (h := by decide),
    nullary_result_ne (y := main_cst_1) (r := main_v3) (h := by decide),
    ternary_result_ne (c := main_v8) (a := main_v9) (b := main_v7) (y := main_v10) (r := main_v3) (h := by decide)]
  rw [unary_result_ne (x := main_v6) (y := main_v9) (r := main_v3) (h := by decide),
    unary_result_ne (x := main_cst_0) (y := main_v8) (r := main_v3) (h := by decide),
    nullary_result_ne (y := main_cst_0) (r := main_v3) (h := by decide)]
  rw [unary_result_ne (x := main_cst) (y := main_v7) (r := main_v3) (h := by decide),
    nullary_result_ne (y := main_cst) (r := main_v3) (h := by decide),
    binary_result_ne (a := main_v5) (b := main_v0) (y := main_v6) (r := main_v3) (h := by decide)]
  rw [reshape_result_ne (x := main_v4) (y := main_v5) (r := main_v3) (h := by decide),
    unary_result_ne (x := main_arg1) (y := main_v4) (r := main_v3) (h := by decide),
    binary_result (a := main_v2) (b := main_v0) (y := main_v3)]
  rw [reshape_result (x := main_v1) (y := main_v2),
    reshape_result_ne (x := main_v1) (y := main_v2) (r := main_v0) (h := by decide),
    unary_result (x := main_arg1) (y := main_v1)]
  rw [unary_result_ne (x := main_arg1) (y := main_v1) (r := main_v0) (h := by decide),
    nullary_result_ne (y := main_v0) (r := main_arg1) (h := by decide),
    nullary_result (y := main_v0)]
  exact hR

set_option maxHeartbeats 1000000 in
/-- The edges' targets. -/
theorem dst_at : after (hostOps0 (F := Ideal)) W (Proc.devRef .tc main_v6)
    = Cert.Glue.dst (W (Proc.devRef .tc main_arg1)) := by
  generalize hR : Cert.Glue.dst (W (Proc.devRef .tc main_arg1)) = R
  unfold hostOps0
  simp only [after_cons, after_nil]
  rw [nullary_result_ne (y := main_cst_2) (r := main_v6) (h := by decide),
    unary_result_ne (x := main_v10) (y := main_v13) (r := main_v6) (h := by decide),
    binary_result_ne (a := main_v10) (b := main_v11) (y := main_v12) (r := main_v6) (h := by decide)]
  rw [unary_result_ne (x := main_cst_1) (y := main_v11) (r := main_v6) (h := by decide),
    nullary_result_ne (y := main_cst_1) (r := main_v6) (h := by decide),
    ternary_result_ne (c := main_v8) (a := main_v9) (b := main_v7) (y := main_v10) (r := main_v6) (h := by decide)]
  rw [unary_result_ne (x := main_v6) (y := main_v9) (r := main_v6) (h := by decide),
    unary_result_ne (x := main_cst_0) (y := main_v8) (r := main_v6) (h := by decide),
    nullary_result_ne (y := main_cst_0) (r := main_v6) (h := by decide)]
  rw [unary_result_ne (x := main_cst) (y := main_v7) (r := main_v6) (h := by decide),
    nullary_result_ne (y := main_cst) (r := main_v6) (h := by decide),
    binary_result (a := main_v5) (b := main_v0) (y := main_v6)]
  rw [reshape_result (x := main_v4) (y := main_v5),
    reshape_result_ne (x := main_v4) (y := main_v5) (r := main_v0) (h := by decide),
    unary_result (x := main_arg1) (y := main_v4)]
  rw [unary_result_ne (x := main_arg1) (y := main_v4) (r := main_v0) (h := by decide),
    binary_result_ne (a := main_v2) (b := main_v0) (y := main_v3) (r := main_arg1) (h := by decide),
    binary_result_ne (a := main_v2) (b := main_v0) (y := main_v3) (r := main_v0) (h := by decide)]
  rw [reshape_result_ne (x := main_v1) (y := main_v2) (r := main_arg1) (h := by decide),
    reshape_result_ne (x := main_v1) (y := main_v2) (r := main_v0) (h := by decide),
    unary_result_ne (x := main_arg1) (y := main_v1) (r := main_arg1) (h := by decide)]
  rw [unary_result_ne (x := main_arg1) (y := main_v1) (r := main_v0) (h := by decide),
    nullary_result_ne (y := main_v0) (r := main_arg1) (h := by decide),
    nullary_result (y := main_v0)]
  exact hR

set_option maxHeartbeats 1000000 in
/-- Where the degree is positive. -/
theorem degPos_at : after (hostOps0 (F := Ideal)) W (Proc.devRef .tc main_v12)
    = Cert.Glue.degPos (Cert.Glue.dst (W (Proc.devRef .tc main_arg1))) := by
  generalize hR : Cert.Glue.degPos (Cert.Glue.dst (W (Proc.devRef .tc main_arg1))) = R
  unfold hostOps0
  simp only [after_cons, after_nil]
  rw [nullary_result_ne (y := main_cst_2) (r := main_v12) (h := by decide),
    unary_result_ne (x := main_v10) (y := main_v13) (r := main_v12) (h := by decide),
    binary_result (a := main_v10) (b := main_v11) (y := main_v12)]
  rw [unary_result_ne (x := main_cst_1) (y := main_v11) (r := main_v10) (h := by decide),
    unary_result (x := main_cst_1) (y := main_v11),
    nullary_result_ne (y := main_cst_1) (r := main_v10) (h := by decide)]
  rw [nullary_result (y := main_cst_1),
    ternary_result (c := main_v8) (a := main_v9) (b := main_v7) (y := main_v10),
    unary_result_ne (x := main_v6) (y := main_v9) (r := main_v8) (h := by decide)]
  rw [unary_result (x := main_v6) (y := main_v9),
    unary_result_ne (x := main_v6) (y := main_v9) (r := main_v7) (h := by decide),
    unary_result (x := main_cst_0) (y := main_v8)]
  rw [unary_result_ne (x := main_cst_0) (y := main_v8) (r := main_v6) (h := by decide),
    unary_result_ne (x := main_cst_0) (y := main_v8) (r := main_v7) (h := by decide),
    nullary_result (y := main_cst_0)]
  rw [nullary_result_ne (y := main_cst_0) (r := main_v6) (h := by decide),
    nullary_result_ne (y := main_cst_0) (r := main_v7) (h := by decide),
    unary_result_ne (x := main_cst) (y := main_v7) (r := main_v6) (h := by decide)]
  rw [unary_result (x := main_cst) (y := main_v7),
    nullary_result_ne (y := main_cst) (r := main_v6) (h := by decide),
    nullary_result (y := main_cst)]
  rw [binary_result (a := main_v5) (b := main_v0) (y := main_v6),
    reshape_result (x := main_v4) (y := main_v5),
    reshape_result_ne (x := main_v4) (y := main_v5) (r := main_v0) (h := by decide)]
  rw [unary_result (x := main_arg1) (y := main_v4),
    unary_result_ne (x := main_arg1) (y := main_v4) (r := main_v0) (h := by decide),
    binary_result_ne (a := main_v2) (b := main_v0) (y := main_v3) (r := main_arg1) (h := by decide)]
  rw [binary_result_ne (a := main_v2) (b := main_v0) (y := main_v3) (r := main_v0) (h := by decide),
    reshape_result_ne (x := main_v1) (y := main_v2) (r := main_arg1) (h := by decide),
    reshape_result_ne (x := main_v1) (y := main_v2) (r := main_v0) (h := by decide)]
  rw [unary_result_ne (x := main_arg1) (y := main_v1) (r := main_arg1) (h := by decide),
    unary_result_ne (x := main_arg1) (y := main_v1) (r := main_v0) (h := by decide),
    nullary_result_ne (y := main_v0) (r := main_arg1) (h := by decide)]
  rw [nullary_result (y := main_v0)]
  exact hR

set_option maxHeartbeats 1000000 in
/-- The inverse square root of the degree. -/
theorem degRsqrt_at : after (hostOps0 (F := Ideal)) W (Proc.devRef .tc main_v13)
    = Cert.Glue.degRsqrt (Cert.Glue.dst (W (Proc.devRef .tc main_arg1))) := by
  generalize hR : Cert.Glue.degRsqrt (Cert.Glue.dst (W (Proc.devRef .tc main_arg1))) = R
  unfold hostOps0
  simp only [after_cons, after_nil]
  rw [nullary_result_ne (y := main_cst_2) (r := main_v13) (h := by decide),
    unary_result (x := main_v10) (y := main_v13),
    binary_result_ne (a := main_v10) (b := main_v11) (y := main_v12) (r := main_v10) (h := by decide)]
  rw [unary_result_ne (x := main_cst_1) (y := main_v11) (r := main_v10) (h := by decide),
    nullary_result_ne (y := main_cst_1) (r := main_v10) (h := by decide),
    ternary_result (c := main_v8) (a := main_v9) (b := main_v7) (y := main_v10)]
  rw [unary_result_ne (x := main_v6) (y := main_v9) (r := main_v8) (h := by decide),
    unary_result (x := main_v6) (y := main_v9),
    unary_result_ne (x := main_v6) (y := main_v9) (r := main_v7) (h := by decide)]
  rw [unary_result (x := main_cst_0) (y := main_v8),
    unary_result_ne (x := main_cst_0) (y := main_v8) (r := main_v6) (h := by decide),
    unary_result_ne (x := main_cst_0) (y := main_v8) (r := main_v7) (h := by decide)]
  rw [nullary_result (y := main_cst_0),
    nullary_result_ne (y := main_cst_0) (r := main_v6) (h := by decide),
    nullary_result_ne (y := main_cst_0) (r := main_v7) (h := by decide)]
  rw [unary_result_ne (x := main_cst) (y := main_v7) (r := main_v6) (h := by decide),
    unary_result (x := main_cst) (y := main_v7),
    nullary_result_ne (y := main_cst) (r := main_v6) (h := by decide)]
  rw [nullary_result (y := main_cst),
    binary_result (a := main_v5) (b := main_v0) (y := main_v6),
    reshape_result (x := main_v4) (y := main_v5)]
  rw [reshape_result_ne (x := main_v4) (y := main_v5) (r := main_v0) (h := by decide),
    unary_result (x := main_arg1) (y := main_v4),
    unary_result_ne (x := main_arg1) (y := main_v4) (r := main_v0) (h := by decide)]
  rw [binary_result_ne (a := main_v2) (b := main_v0) (y := main_v3) (r := main_arg1) (h := by decide),
    binary_result_ne (a := main_v2) (b := main_v0) (y := main_v3) (r := main_v0) (h := by decide),
    reshape_result_ne (x := main_v1) (y := main_v2) (r := main_arg1) (h := by decide)]
  rw [reshape_result_ne (x := main_v1) (y := main_v2) (r := main_v0) (h := by decide),
    unary_result_ne (x := main_arg1) (y := main_v1) (r := main_arg1) (h := by decide),
    unary_result_ne (x := main_arg1) (y := main_v1) (r := main_v0) (h := by decide)]
  rw [nullary_result_ne (y := main_v0) (r := main_arg1) (h := by decide),
    nullary_result (y := main_v0)]
  exact hR

set_option maxHeartbeats 1000000 in
/-- The constant 0 the weights fall back to. -/
theorem zero_at : after (hostOps0 (F := Ideal)) W (Proc.devRef .tc main_cst_2)
    = constant (F := Ideal) Cert.ReferenceIdeal.S_ .f32 0x00000000#32 := by
  generalize hR : constant (F := Ideal) Cert.ReferenceIdeal.S_ .f32 0x00000000#32 = R
  unfold hostOps0
  simp only [after_cons, after_nil]
  rw [nullary_result (y := main_cst_2)]
  exact hR

set_option maxHeartbeats 1000000 in
/-- The node weights. -/
theorem weight_at : after (hostOps0_1 (F := Ideal)) W (Proc.devRef .tc main_v14)
    = Cert.Glue.whereOf (W (Proc.devRef .tc main_v12)) (W (Proc.devRef .tc main_v13)) (W (Proc.devRef .tc main_cst_2)) := by
  generalize hR : Cert.Glue.whereOf (W (Proc.devRef .tc main_v12)) (W (Proc.devRef .tc main_v13)) (W (Proc.devRef .tc main_cst_2)) = R
  unfold hostOps0_1
  simp only [after_cons, after_nil]
  rw [ternary_result (c := main_v12) (a := main_v13) (b := main_call0_v1) (y := main_v14),
    unary_result_ne (x := main_call0_v0) (y := main_call0_v1) (r := main_v12) (h := by decide),
    unary_result_ne (x := main_call0_v0) (y := main_call0_v1) (r := main_v13) (h := by decide)]
  rw [unary_result (x := main_call0_v0) (y := main_call0_v1),
    unary_result_ne (x := main_cst_2) (y := main_call0_v0) (r := main_v12) (h := by decide),
    unary_result_ne (x := main_cst_2) (y := main_call0_v0) (r := main_v13) (h := by decide)]
  rw [unary_result (x := main_cst_2) (y := main_call0_v0)]
  exact hR

set_option maxHeartbeats 1000000 in
/-- The edge coefficients. -/
theorem coeff_at : after (hostOps0_2 (F := Ideal)) W (Proc.devRef .tc main_v29)
    = Cert.Glue.coeffOf (W (Proc.devRef .tc main_v14)) (W (Proc.devRef .tc main_v3)) (W (Proc.devRef .tc main_v6)) := by
  generalize hR : Cert.Glue.coeffOf (W (Proc.devRef .tc main_v14)) (W (Proc.devRef .tc main_v3)) (W (Proc.devRef .tc main_v6)) = R
  unfold hostOps0_2
  simp only [after_cons, after_nil]
  rw [binary_result (a := main_v21) (b := main_v28) (y := main_v29),
    binary_result_ne (a := main_v14) (b := main_v27) (y := main_v28) (r := main_v21) (h := by decide),
    binary_result (a := main_v14) (b := main_v27) (y := main_v28)]
  rw [unary_result_ne (x := main_v26) (y := main_v27) (r := main_v21) (h := by decide),
    unary_result_ne (x := main_v26) (y := main_v27) (r := main_v14) (h := by decide),
    unary_result (x := main_v26) (y := main_v27)]
  rw [ternary_result_ne (c := main_v23) (a := main_v25) (b := main_v6) (y := main_v26) (r := main_v21) (h := by decide),
    ternary_result_ne (c := main_v23) (a := main_v25) (b := main_v6) (y := main_v26) (r := main_v14) (h := by decide),
    ternary_result (c := main_v23) (a := main_v25) (b := main_v6) (y := main_v26)]
  rw [binary_result_ne (a := main_v6) (b := main_v24) (y := main_v25) (r := main_v21) (h := by decide),
    binary_result_ne (a := main_v6) (b := main_v24) (y := main_v25) (r := main_v14) (h := by decide),
    binary_result_ne (a := main_v6) (b := main_v24) (y := main_v25) (r := main_v23) (h := by decide)]
  rw [binary_result (a := main_v6) (b := main_v24) (y := main_v25),
    binary_result_ne (a := main_v6) (b := main_v24) (y := main_v25) (r := main_v6) (h := by decide),
    unary_result_ne (x := main_c_5) (y := main_v24) (r := main_v21) (h := by decide)]
  rw [unary_result_ne (x := main_c_5) (y := main_v24) (r := main_v14) (h := by decide),
    unary_result_ne (x := main_c_5) (y := main_v24) (r := main_v23) (h := by decide),
    unary_result_ne (x := main_c_5) (y := main_v24) (r := main_v6) (h := by decide)]
  rw [unary_result (x := main_c_5) (y := main_v24),
    nullary_result_ne (y := main_c_5) (r := main_v21) (h := by decide),
    nullary_result_ne (y := main_c_5) (r := main_v14) (h := by decide)]
  rw [nullary_result_ne (y := main_c_5) (r := main_v23) (h := by decide),
    nullary_result_ne (y := main_c_5) (r := main_v6) (h := by decide),
    nullary_result (y := main_c_5)]
  rw [binary_result_ne (a := main_v6) (b := main_v22) (y := main_v23) (r := main_v21) (h := by decide),
    binary_result_ne (a := main_v6) (b := main_v22) (y := main_v23) (r := main_v14) (h := by decide),
    binary_result (a := main_v6) (b := main_v22) (y := main_v23)]
  rw [binary_result_ne (a := main_v6) (b := main_v22) (y := main_v23) (r := main_v6) (h := by decide),
    unary_result_ne (x := main_c_4) (y := main_v22) (r := main_v21) (h := by decide),
    unary_result_ne (x := main_c_4) (y := main_v22) (r := main_v14) (h := by decide)]
  rw [unary_result_ne (x := main_c_4) (y := main_v22) (r := main_v6) (h := by decide),
    unary_result (x := main_c_4) (y := main_v22),
    nullary_result_ne (y := main_c_4) (r := main_v21) (h := by decide)]
  rw [nullary_result_ne (y := main_c_4) (r := main_v14) (h := by decide),
    nullary_result_ne (y := main_c_4) (r := main_v6) (h := by decide),
    nullary_result (y := main_c_4)]
  rw [binary_result (a := main_v14) (b := main_v20) (y := main_v21),
    binary_result_ne (a := main_v14) (b := main_v20) (y := main_v21) (r := main_v14) (h := by decide),
    binary_result_ne (a := main_v14) (b := main_v20) (y := main_v21) (r := main_v6) (h := by decide)]
  rw [unary_result_ne (x := main_v19) (y := main_v20) (r := main_v14) (h := by decide),
    unary_result (x := main_v19) (y := main_v20),
    unary_result_ne (x := main_v19) (y := main_v20) (r := main_v6) (h := by decide)]
  rw [ternary_result_ne (c := main_v16) (a := main_v18) (b := main_v3) (y := main_v19) (r := main_v14) (h := by decide),
    ternary_result (c := main_v16) (a := main_v18) (b := main_v3) (y := main_v19),
    ternary_result_ne (c := main_v16) (a := main_v18) (b := main_v3) (y := main_v19) (r := main_v6) (h := by decide)]
  rw [binary_result_ne (a := main_v3) (b := main_v17) (y := main_v18) (r := main_v14) (h := by decide),
    binary_result_ne (a := main_v3) (b := main_v17) (y := main_v18) (r := main_v16) (h := by decide),
    binary_result (a := main_v3) (b := main_v17) (y := main_v18)]
  rw [binary_result_ne (a := main_v3) (b := main_v17) (y := main_v18) (r := main_v3) (h := by decide),
    binary_result_ne (a := main_v3) (b := main_v17) (y := main_v18) (r := main_v6) (h := by decide),
    unary_result_ne (x := main_c_3) (y := main_v17) (r := main_v14) (h := by decide)]
  rw [unary_result_ne (x := main_c_3) (y := main_v17) (r := main_v16) (h := by decide),
    unary_result_ne (x := main_c_3) (y := main_v17) (r := main_v3) (h := by decide),
    unary_result (x := main_c_3) (y := main_v17)]
  rw [unary_result_ne (x := main_c_3) (y := main_v17) (r := main_v6) (h := by decide),
    nullary_result_ne (y := main_c_3) (r := main_v14) (h := by decide),
    nullary_result_ne (y := main_c_3) (r := main_v16) (h := by decide)]
  rw [nullary_result_ne (y := main_c_3) (r := main_v3) (h := by decide),
    nullary_result (y := main_c_3),
    nullary_result_ne (y := main_c_3) (r := main_v6) (h := by decide)]
  rw [binary_result_ne (a := main_v3) (b := main_v15) (y := main_v16) (r := main_v14) (h := by decide),
    binary_result (a := main_v3) (b := main_v15) (y := main_v16),
    binary_result_ne (a := main_v3) (b := main_v15) (y := main_v16) (r := main_v3) (h := by decide)]
  rw [binary_result_ne (a := main_v3) (b := main_v15) (y := main_v16) (r := main_v6) (h := by decide),
    unary_result_ne (x := main_c) (y := main_v15) (r := main_v14) (h := by decide),
    unary_result_ne (x := main_c) (y := main_v15) (r := main_v3) (h := by decide)]
  rw [unary_result (x := main_c) (y := main_v15),
    unary_result_ne (x := main_c) (y := main_v15) (r := main_v6) (h := by decide),
    nullary_result_ne (y := main_c) (r := main_v14) (h := by decide)]
  rw [nullary_result_ne (y := main_c) (r := main_v3) (h := by decide),
    nullary_result (y := main_c),
    nullary_result_ne (y := main_c) (r := main_v6) (h := by decide)]
  exact hR

/-! ## What a stretch leaves alone -/

theorem keep0_arg0 : after (hostOps0 (F := Ideal)) W (Proc.devRef .tc main_arg0) = W (Proc.devRef .tc main_arg0) := by
  unfold hostOps0
  simp only [after_cons, after_nil]
  rw [nullary_result_ne (y := main_cst_2) (r := main_arg0) (h := by decide),
    unary_result_ne (x := main_v10) (y := main_v13) (r := main_arg0) (h := by decide),
    binary_result_ne (a := main_v10) (b := main_v11) (y := main_v12) (r := main_arg0) (h := by decide),
    unary_result_ne (x := main_cst_1) (y := main_v11) (r := main_arg0) (h := by decide)]
  rw [nullary_result_ne (y := main_cst_1) (r := main_arg0) (h := by decide),
    ternary_result_ne (c := main_v8) (a := main_v9) (b := main_v7) (y := main_v10) (r := main_arg0) (h := by decide),
    unary_result_ne (x := main_v6) (y := main_v9) (r := main_arg0) (h := by decide),
    unary_result_ne (x := main_cst_0) (y := main_v8) (r := main_arg0) (h := by decide)]
  rw [nullary_result_ne (y := main_cst_0) (r := main_arg0) (h := by decide),
    unary_result_ne (x := main_cst) (y := main_v7) (r := main_arg0) (h := by decide),
    nullary_result_ne (y := main_cst) (r := main_arg0) (h := by decide),
    binary_result_ne (a := main_v5) (b := main_v0) (y := main_v6) (r := main_arg0) (h := by decide)]
  rw [reshape_result_ne (x := main_v4) (y := main_v5) (r := main_arg0) (h := by decide),
    unary_result_ne (x := main_arg1) (y := main_v4) (r := main_arg0) (h := by decide),
    binary_result_ne (a := main_v2) (b := main_v0) (y := main_v3) (r := main_arg0) (h := by decide),
    reshape_result_ne (x := main_v1) (y := main_v2) (r := main_arg0) (h := by decide)]
  rw [unary_result_ne (x := main_arg1) (y := main_v1) (r := main_arg0) (h := by decide),
    nullary_result_ne (y := main_v0) (r := main_arg0) (h := by decide)]

theorem keep0_arg2 : after (hostOps0 (F := Ideal)) W (Proc.devRef .tc main_arg2) = W (Proc.devRef .tc main_arg2) := by
  unfold hostOps0
  simp only [after_cons, after_nil]
  rw [nullary_result_ne (y := main_cst_2) (r := main_arg2) (h := by decide),
    unary_result_ne (x := main_v10) (y := main_v13) (r := main_arg2) (h := by decide),
    binary_result_ne (a := main_v10) (b := main_v11) (y := main_v12) (r := main_arg2) (h := by decide),
    unary_result_ne (x := main_cst_1) (y := main_v11) (r := main_arg2) (h := by decide)]
  rw [nullary_result_ne (y := main_cst_1) (r := main_arg2) (h := by decide),
    ternary_result_ne (c := main_v8) (a := main_v9) (b := main_v7) (y := main_v10) (r := main_arg2) (h := by decide),
    unary_result_ne (x := main_v6) (y := main_v9) (r := main_arg2) (h := by decide),
    unary_result_ne (x := main_cst_0) (y := main_v8) (r := main_arg2) (h := by decide)]
  rw [nullary_result_ne (y := main_cst_0) (r := main_arg2) (h := by decide),
    unary_result_ne (x := main_cst) (y := main_v7) (r := main_arg2) (h := by decide),
    nullary_result_ne (y := main_cst) (r := main_arg2) (h := by decide),
    binary_result_ne (a := main_v5) (b := main_v0) (y := main_v6) (r := main_arg2) (h := by decide)]
  rw [reshape_result_ne (x := main_v4) (y := main_v5) (r := main_arg2) (h := by decide),
    unary_result_ne (x := main_arg1) (y := main_v4) (r := main_arg2) (h := by decide),
    binary_result_ne (a := main_v2) (b := main_v0) (y := main_v3) (r := main_arg2) (h := by decide),
    reshape_result_ne (x := main_v1) (y := main_v2) (r := main_arg2) (h := by decide)]
  rw [unary_result_ne (x := main_arg1) (y := main_v1) (r := main_arg2) (h := by decide),
    nullary_result_ne (y := main_v0) (r := main_arg2) (h := by decide)]

theorem keep0_arg3 : after (hostOps0 (F := Ideal)) W (Proc.devRef .tc main_arg3) = W (Proc.devRef .tc main_arg3) := by
  unfold hostOps0
  simp only [after_cons, after_nil]
  rw [nullary_result_ne (y := main_cst_2) (r := main_arg3) (h := by decide),
    unary_result_ne (x := main_v10) (y := main_v13) (r := main_arg3) (h := by decide),
    binary_result_ne (a := main_v10) (b := main_v11) (y := main_v12) (r := main_arg3) (h := by decide),
    unary_result_ne (x := main_cst_1) (y := main_v11) (r := main_arg3) (h := by decide)]
  rw [nullary_result_ne (y := main_cst_1) (r := main_arg3) (h := by decide),
    ternary_result_ne (c := main_v8) (a := main_v9) (b := main_v7) (y := main_v10) (r := main_arg3) (h := by decide),
    unary_result_ne (x := main_v6) (y := main_v9) (r := main_arg3) (h := by decide),
    unary_result_ne (x := main_cst_0) (y := main_v8) (r := main_arg3) (h := by decide)]
  rw [nullary_result_ne (y := main_cst_0) (r := main_arg3) (h := by decide),
    unary_result_ne (x := main_cst) (y := main_v7) (r := main_arg3) (h := by decide),
    nullary_result_ne (y := main_cst) (r := main_arg3) (h := by decide),
    binary_result_ne (a := main_v5) (b := main_v0) (y := main_v6) (r := main_arg3) (h := by decide)]
  rw [reshape_result_ne (x := main_v4) (y := main_v5) (r := main_arg3) (h := by decide),
    unary_result_ne (x := main_arg1) (y := main_v4) (r := main_arg3) (h := by decide),
    binary_result_ne (a := main_v2) (b := main_v0) (y := main_v3) (r := main_arg3) (h := by decide),
    reshape_result_ne (x := main_v1) (y := main_v2) (r := main_arg3) (h := by decide)]
  rw [unary_result_ne (x := main_arg1) (y := main_v1) (r := main_arg3) (h := by decide),
    nullary_result_ne (y := main_v0) (r := main_arg3) (h := by decide)]

theorem keep0_arg4 : after (hostOps0 (F := Ideal)) W (Proc.devRef .tc main_arg4) = W (Proc.devRef .tc main_arg4) := by
  unfold hostOps0
  simp only [after_cons, after_nil]
  rw [nullary_result_ne (y := main_cst_2) (r := main_arg4) (h := by decide),
    unary_result_ne (x := main_v10) (y := main_v13) (r := main_arg4) (h := by decide),
    binary_result_ne (a := main_v10) (b := main_v11) (y := main_v12) (r := main_arg4) (h := by decide),
    unary_result_ne (x := main_cst_1) (y := main_v11) (r := main_arg4) (h := by decide)]
  rw [nullary_result_ne (y := main_cst_1) (r := main_arg4) (h := by decide),
    ternary_result_ne (c := main_v8) (a := main_v9) (b := main_v7) (y := main_v10) (r := main_arg4) (h := by decide),
    unary_result_ne (x := main_v6) (y := main_v9) (r := main_arg4) (h := by decide),
    unary_result_ne (x := main_cst_0) (y := main_v8) (r := main_arg4) (h := by decide)]
  rw [nullary_result_ne (y := main_cst_0) (r := main_arg4) (h := by decide),
    unary_result_ne (x := main_cst) (y := main_v7) (r := main_arg4) (h := by decide),
    nullary_result_ne (y := main_cst) (r := main_arg4) (h := by decide),
    binary_result_ne (a := main_v5) (b := main_v0) (y := main_v6) (r := main_arg4) (h := by decide)]
  rw [reshape_result_ne (x := main_v4) (y := main_v5) (r := main_arg4) (h := by decide),
    unary_result_ne (x := main_arg1) (y := main_v4) (r := main_arg4) (h := by decide),
    binary_result_ne (a := main_v2) (b := main_v0) (y := main_v3) (r := main_arg4) (h := by decide),
    reshape_result_ne (x := main_v1) (y := main_v2) (r := main_arg4) (h := by decide)]
  rw [unary_result_ne (x := main_arg1) (y := main_v1) (r := main_arg4) (h := by decide),
    nullary_result_ne (y := main_v0) (r := main_arg4) (h := by decide)]

theorem keep0_arg5 : after (hostOps0 (F := Ideal)) W (Proc.devRef .tc main_arg5) = W (Proc.devRef .tc main_arg5) := by
  unfold hostOps0
  simp only [after_cons, after_nil]
  rw [nullary_result_ne (y := main_cst_2) (r := main_arg5) (h := by decide),
    unary_result_ne (x := main_v10) (y := main_v13) (r := main_arg5) (h := by decide),
    binary_result_ne (a := main_v10) (b := main_v11) (y := main_v12) (r := main_arg5) (h := by decide),
    unary_result_ne (x := main_cst_1) (y := main_v11) (r := main_arg5) (h := by decide)]
  rw [nullary_result_ne (y := main_cst_1) (r := main_arg5) (h := by decide),
    ternary_result_ne (c := main_v8) (a := main_v9) (b := main_v7) (y := main_v10) (r := main_arg5) (h := by decide),
    unary_result_ne (x := main_v6) (y := main_v9) (r := main_arg5) (h := by decide),
    unary_result_ne (x := main_cst_0) (y := main_v8) (r := main_arg5) (h := by decide)]
  rw [nullary_result_ne (y := main_cst_0) (r := main_arg5) (h := by decide),
    unary_result_ne (x := main_cst) (y := main_v7) (r := main_arg5) (h := by decide),
    nullary_result_ne (y := main_cst) (r := main_arg5) (h := by decide),
    binary_result_ne (a := main_v5) (b := main_v0) (y := main_v6) (r := main_arg5) (h := by decide)]
  rw [reshape_result_ne (x := main_v4) (y := main_v5) (r := main_arg5) (h := by decide),
    unary_result_ne (x := main_arg1) (y := main_v4) (r := main_arg5) (h := by decide),
    binary_result_ne (a := main_v2) (b := main_v0) (y := main_v3) (r := main_arg5) (h := by decide),
    reshape_result_ne (x := main_v1) (y := main_v2) (r := main_arg5) (h := by decide)]
  rw [unary_result_ne (x := main_arg1) (y := main_v1) (r := main_arg5) (h := by decide),
    nullary_result_ne (y := main_v0) (r := main_arg5) (h := by decide)]

theorem keep0_arg6 : after (hostOps0 (F := Ideal)) W (Proc.devRef .tc main_arg6) = W (Proc.devRef .tc main_arg6) := by
  unfold hostOps0
  simp only [after_cons, after_nil]
  rw [nullary_result_ne (y := main_cst_2) (r := main_arg6) (h := by decide),
    unary_result_ne (x := main_v10) (y := main_v13) (r := main_arg6) (h := by decide),
    binary_result_ne (a := main_v10) (b := main_v11) (y := main_v12) (r := main_arg6) (h := by decide),
    unary_result_ne (x := main_cst_1) (y := main_v11) (r := main_arg6) (h := by decide)]
  rw [nullary_result_ne (y := main_cst_1) (r := main_arg6) (h := by decide),
    ternary_result_ne (c := main_v8) (a := main_v9) (b := main_v7) (y := main_v10) (r := main_arg6) (h := by decide),
    unary_result_ne (x := main_v6) (y := main_v9) (r := main_arg6) (h := by decide),
    unary_result_ne (x := main_cst_0) (y := main_v8) (r := main_arg6) (h := by decide)]
  rw [nullary_result_ne (y := main_cst_0) (r := main_arg6) (h := by decide),
    unary_result_ne (x := main_cst) (y := main_v7) (r := main_arg6) (h := by decide),
    nullary_result_ne (y := main_cst) (r := main_arg6) (h := by decide),
    binary_result_ne (a := main_v5) (b := main_v0) (y := main_v6) (r := main_arg6) (h := by decide)]
  rw [reshape_result_ne (x := main_v4) (y := main_v5) (r := main_arg6) (h := by decide),
    unary_result_ne (x := main_arg1) (y := main_v4) (r := main_arg6) (h := by decide),
    binary_result_ne (a := main_v2) (b := main_v0) (y := main_v3) (r := main_arg6) (h := by decide),
    reshape_result_ne (x := main_v1) (y := main_v2) (r := main_arg6) (h := by decide)]
  rw [unary_result_ne (x := main_arg1) (y := main_v1) (r := main_arg6) (h := by decide),
    nullary_result_ne (y := main_v0) (r := main_arg6) (h := by decide)]

theorem keep0_arg7 : after (hostOps0 (F := Ideal)) W (Proc.devRef .tc main_arg7) = W (Proc.devRef .tc main_arg7) := by
  unfold hostOps0
  simp only [after_cons, after_nil]
  rw [nullary_result_ne (y := main_cst_2) (r := main_arg7) (h := by decide),
    unary_result_ne (x := main_v10) (y := main_v13) (r := main_arg7) (h := by decide),
    binary_result_ne (a := main_v10) (b := main_v11) (y := main_v12) (r := main_arg7) (h := by decide),
    unary_result_ne (x := main_cst_1) (y := main_v11) (r := main_arg7) (h := by decide)]
  rw [nullary_result_ne (y := main_cst_1) (r := main_arg7) (h := by decide),
    ternary_result_ne (c := main_v8) (a := main_v9) (b := main_v7) (y := main_v10) (r := main_arg7) (h := by decide),
    unary_result_ne (x := main_v6) (y := main_v9) (r := main_arg7) (h := by decide),
    unary_result_ne (x := main_cst_0) (y := main_v8) (r := main_arg7) (h := by decide)]
  rw [nullary_result_ne (y := main_cst_0) (r := main_arg7) (h := by decide),
    unary_result_ne (x := main_cst) (y := main_v7) (r := main_arg7) (h := by decide),
    nullary_result_ne (y := main_cst) (r := main_arg7) (h := by decide),
    binary_result_ne (a := main_v5) (b := main_v0) (y := main_v6) (r := main_arg7) (h := by decide)]
  rw [reshape_result_ne (x := main_v4) (y := main_v5) (r := main_arg7) (h := by decide),
    unary_result_ne (x := main_arg1) (y := main_v4) (r := main_arg7) (h := by decide),
    binary_result_ne (a := main_v2) (b := main_v0) (y := main_v3) (r := main_arg7) (h := by decide),
    reshape_result_ne (x := main_v1) (y := main_v2) (r := main_arg7) (h := by decide)]
  rw [unary_result_ne (x := main_arg1) (y := main_v1) (r := main_arg7) (h := by decide),
    nullary_result_ne (y := main_v0) (r := main_arg7) (h := by decide)]

theorem keep01_v3 : after (hostOps0_1 (F := Ideal)) W (Proc.devRef .tc main_v3) = W (Proc.devRef .tc main_v3) := by
  unfold hostOps0_1
  simp only [after_cons, after_nil]
  rw [ternary_result_ne (c := main_v12) (a := main_v13) (b := main_call0_v1) (y := main_v14) (r := main_v3) (h := by decide),
    unary_result_ne (x := main_call0_v0) (y := main_call0_v1) (r := main_v3) (h := by decide),
    unary_result_ne (x := main_cst_2) (y := main_call0_v0) (r := main_v3) (h := by decide)]

theorem keep01_v6 : after (hostOps0_1 (F := Ideal)) W (Proc.devRef .tc main_v6) = W (Proc.devRef .tc main_v6) := by
  unfold hostOps0_1
  simp only [after_cons, after_nil]
  rw [ternary_result_ne (c := main_v12) (a := main_v13) (b := main_call0_v1) (y := main_v14) (r := main_v6) (h := by decide),
    unary_result_ne (x := main_call0_v0) (y := main_call0_v1) (r := main_v6) (h := by decide),
    unary_result_ne (x := main_cst_2) (y := main_call0_v0) (r := main_v6) (h := by decide)]

theorem keep01_arg0 : after (hostOps0_1 (F := Ideal)) W (Proc.devRef .tc main_arg0) = W (Proc.devRef .tc main_arg0) := by
  unfold hostOps0_1
  simp only [after_cons, after_nil]
  rw [ternary_result_ne (c := main_v12) (a := main_v13) (b := main_call0_v1) (y := main_v14) (r := main_arg0) (h := by decide),
    unary_result_ne (x := main_call0_v0) (y := main_call0_v1) (r := main_arg0) (h := by decide),
    unary_result_ne (x := main_cst_2) (y := main_call0_v0) (r := main_arg0) (h := by decide)]

theorem keep01_arg2 : after (hostOps0_1 (F := Ideal)) W (Proc.devRef .tc main_arg2) = W (Proc.devRef .tc main_arg2) := by
  unfold hostOps0_1
  simp only [after_cons, after_nil]
  rw [ternary_result_ne (c := main_v12) (a := main_v13) (b := main_call0_v1) (y := main_v14) (r := main_arg2) (h := by decide),
    unary_result_ne (x := main_call0_v0) (y := main_call0_v1) (r := main_arg2) (h := by decide),
    unary_result_ne (x := main_cst_2) (y := main_call0_v0) (r := main_arg2) (h := by decide)]

theorem keep01_arg3 : after (hostOps0_1 (F := Ideal)) W (Proc.devRef .tc main_arg3) = W (Proc.devRef .tc main_arg3) := by
  unfold hostOps0_1
  simp only [after_cons, after_nil]
  rw [ternary_result_ne (c := main_v12) (a := main_v13) (b := main_call0_v1) (y := main_v14) (r := main_arg3) (h := by decide),
    unary_result_ne (x := main_call0_v0) (y := main_call0_v1) (r := main_arg3) (h := by decide),
    unary_result_ne (x := main_cst_2) (y := main_call0_v0) (r := main_arg3) (h := by decide)]

theorem keep01_arg4 : after (hostOps0_1 (F := Ideal)) W (Proc.devRef .tc main_arg4) = W (Proc.devRef .tc main_arg4) := by
  unfold hostOps0_1
  simp only [after_cons, after_nil]
  rw [ternary_result_ne (c := main_v12) (a := main_v13) (b := main_call0_v1) (y := main_v14) (r := main_arg4) (h := by decide),
    unary_result_ne (x := main_call0_v0) (y := main_call0_v1) (r := main_arg4) (h := by decide),
    unary_result_ne (x := main_cst_2) (y := main_call0_v0) (r := main_arg4) (h := by decide)]

theorem keep01_arg5 : after (hostOps0_1 (F := Ideal)) W (Proc.devRef .tc main_arg5) = W (Proc.devRef .tc main_arg5) := by
  unfold hostOps0_1
  simp only [after_cons, after_nil]
  rw [ternary_result_ne (c := main_v12) (a := main_v13) (b := main_call0_v1) (y := main_v14) (r := main_arg5) (h := by decide),
    unary_result_ne (x := main_call0_v0) (y := main_call0_v1) (r := main_arg5) (h := by decide),
    unary_result_ne (x := main_cst_2) (y := main_call0_v0) (r := main_arg5) (h := by decide)]

theorem keep01_arg6 : after (hostOps0_1 (F := Ideal)) W (Proc.devRef .tc main_arg6) = W (Proc.devRef .tc main_arg6) := by
  unfold hostOps0_1
  simp only [after_cons, after_nil]
  rw [ternary_result_ne (c := main_v12) (a := main_v13) (b := main_call0_v1) (y := main_v14) (r := main_arg6) (h := by decide),
    unary_result_ne (x := main_call0_v0) (y := main_call0_v1) (r := main_arg6) (h := by decide),
    unary_result_ne (x := main_cst_2) (y := main_call0_v0) (r := main_arg6) (h := by decide)]

theorem keep01_arg7 : after (hostOps0_1 (F := Ideal)) W (Proc.devRef .tc main_arg7) = W (Proc.devRef .tc main_arg7) := by
  unfold hostOps0_1
  simp only [after_cons, after_nil]
  rw [ternary_result_ne (c := main_v12) (a := main_v13) (b := main_call0_v1) (y := main_v14) (r := main_arg7) (h := by decide),
    unary_result_ne (x := main_call0_v0) (y := main_call0_v1) (r := main_arg7) (h := by decide),
    unary_result_ne (x := main_cst_2) (y := main_call0_v0) (r := main_arg7) (h := by decide)]

theorem keep02_v3 : after (hostOps0_2 (F := Ideal)) W (Proc.devRef .tc main_v3) = W (Proc.devRef .tc main_v3) := by
  unfold hostOps0_2
  simp only [after_cons, after_nil]
  rw [binary_result_ne (a := main_v21) (b := main_v28) (y := main_v29) (r := main_v3) (h := by decide),
    binary_result_ne (a := main_v14) (b := main_v27) (y := main_v28) (r := main_v3) (h := by decide),
    unary_result_ne (x := main_v26) (y := main_v27) (r := main_v3) (h := by decide),
    ternary_result_ne (c := main_v23) (a := main_v25) (b := main_v6) (y := main_v26) (r := main_v3) (h := by decide)]
  rw [binary_result_ne (a := main_v6) (b := main_v24) (y := main_v25) (r := main_v3) (h := by decide),
    unary_result_ne (x := main_c_5) (y := main_v24) (r := main_v3) (h := by decide),
    nullary_result_ne (y := main_c_5) (r := main_v3) (h := by decide),
    binary_result_ne (a := main_v6) (b := main_v22) (y := main_v23) (r := main_v3) (h := by decide)]
  rw [unary_result_ne (x := main_c_4) (y := main_v22) (r := main_v3) (h := by decide),
    nullary_result_ne (y := main_c_4) (r := main_v3) (h := by decide),
    binary_result_ne (a := main_v14) (b := main_v20) (y := main_v21) (r := main_v3) (h := by decide),
    unary_result_ne (x := main_v19) (y := main_v20) (r := main_v3) (h := by decide)]
  rw [ternary_result_ne (c := main_v16) (a := main_v18) (b := main_v3) (y := main_v19) (r := main_v3) (h := by decide),
    binary_result_ne (a := main_v3) (b := main_v17) (y := main_v18) (r := main_v3) (h := by decide),
    unary_result_ne (x := main_c_3) (y := main_v17) (r := main_v3) (h := by decide),
    nullary_result_ne (y := main_c_3) (r := main_v3) (h := by decide)]
  rw [binary_result_ne (a := main_v3) (b := main_v15) (y := main_v16) (r := main_v3) (h := by decide),
    unary_result_ne (x := main_c) (y := main_v15) (r := main_v3) (h := by decide),
    nullary_result_ne (y := main_c) (r := main_v3) (h := by decide)]

theorem keep02_v6 : after (hostOps0_2 (F := Ideal)) W (Proc.devRef .tc main_v6) = W (Proc.devRef .tc main_v6) := by
  unfold hostOps0_2
  simp only [after_cons, after_nil]
  rw [binary_result_ne (a := main_v21) (b := main_v28) (y := main_v29) (r := main_v6) (h := by decide),
    binary_result_ne (a := main_v14) (b := main_v27) (y := main_v28) (r := main_v6) (h := by decide),
    unary_result_ne (x := main_v26) (y := main_v27) (r := main_v6) (h := by decide),
    ternary_result_ne (c := main_v23) (a := main_v25) (b := main_v6) (y := main_v26) (r := main_v6) (h := by decide)]
  rw [binary_result_ne (a := main_v6) (b := main_v24) (y := main_v25) (r := main_v6) (h := by decide),
    unary_result_ne (x := main_c_5) (y := main_v24) (r := main_v6) (h := by decide),
    nullary_result_ne (y := main_c_5) (r := main_v6) (h := by decide),
    binary_result_ne (a := main_v6) (b := main_v22) (y := main_v23) (r := main_v6) (h := by decide)]
  rw [unary_result_ne (x := main_c_4) (y := main_v22) (r := main_v6) (h := by decide),
    nullary_result_ne (y := main_c_4) (r := main_v6) (h := by decide),
    binary_result_ne (a := main_v14) (b := main_v20) (y := main_v21) (r := main_v6) (h := by decide),
    unary_result_ne (x := main_v19) (y := main_v20) (r := main_v6) (h := by decide)]
  rw [ternary_result_ne (c := main_v16) (a := main_v18) (b := main_v3) (y := main_v19) (r := main_v6) (h := by decide),
    binary_result_ne (a := main_v3) (b := main_v17) (y := main_v18) (r := main_v6) (h := by decide),
    unary_result_ne (x := main_c_3) (y := main_v17) (r := main_v6) (h := by decide),
    nullary_result_ne (y := main_c_3) (r := main_v6) (h := by decide)]
  rw [binary_result_ne (a := main_v3) (b := main_v15) (y := main_v16) (r := main_v6) (h := by decide),
    unary_result_ne (x := main_c) (y := main_v15) (r := main_v6) (h := by decide),
    nullary_result_ne (y := main_c) (r := main_v6) (h := by decide)]

theorem keep02_arg0 : after (hostOps0_2 (F := Ideal)) W (Proc.devRef .tc main_arg0) = W (Proc.devRef .tc main_arg0) := by
  unfold hostOps0_2
  simp only [after_cons, after_nil]
  rw [binary_result_ne (a := main_v21) (b := main_v28) (y := main_v29) (r := main_arg0) (h := by decide),
    binary_result_ne (a := main_v14) (b := main_v27) (y := main_v28) (r := main_arg0) (h := by decide),
    unary_result_ne (x := main_v26) (y := main_v27) (r := main_arg0) (h := by decide),
    ternary_result_ne (c := main_v23) (a := main_v25) (b := main_v6) (y := main_v26) (r := main_arg0) (h := by decide)]
  rw [binary_result_ne (a := main_v6) (b := main_v24) (y := main_v25) (r := main_arg0) (h := by decide),
    unary_result_ne (x := main_c_5) (y := main_v24) (r := main_arg0) (h := by decide),
    nullary_result_ne (y := main_c_5) (r := main_arg0) (h := by decide),
    binary_result_ne (a := main_v6) (b := main_v22) (y := main_v23) (r := main_arg0) (h := by decide)]
  rw [unary_result_ne (x := main_c_4) (y := main_v22) (r := main_arg0) (h := by decide),
    nullary_result_ne (y := main_c_4) (r := main_arg0) (h := by decide),
    binary_result_ne (a := main_v14) (b := main_v20) (y := main_v21) (r := main_arg0) (h := by decide),
    unary_result_ne (x := main_v19) (y := main_v20) (r := main_arg0) (h := by decide)]
  rw [ternary_result_ne (c := main_v16) (a := main_v18) (b := main_v3) (y := main_v19) (r := main_arg0) (h := by decide),
    binary_result_ne (a := main_v3) (b := main_v17) (y := main_v18) (r := main_arg0) (h := by decide),
    unary_result_ne (x := main_c_3) (y := main_v17) (r := main_arg0) (h := by decide),
    nullary_result_ne (y := main_c_3) (r := main_arg0) (h := by decide)]
  rw [binary_result_ne (a := main_v3) (b := main_v15) (y := main_v16) (r := main_arg0) (h := by decide),
    unary_result_ne (x := main_c) (y := main_v15) (r := main_arg0) (h := by decide),
    nullary_result_ne (y := main_c) (r := main_arg0) (h := by decide)]

theorem keep02_arg2 : after (hostOps0_2 (F := Ideal)) W (Proc.devRef .tc main_arg2) = W (Proc.devRef .tc main_arg2) := by
  unfold hostOps0_2
  simp only [after_cons, after_nil]
  rw [binary_result_ne (a := main_v21) (b := main_v28) (y := main_v29) (r := main_arg2) (h := by decide),
    binary_result_ne (a := main_v14) (b := main_v27) (y := main_v28) (r := main_arg2) (h := by decide),
    unary_result_ne (x := main_v26) (y := main_v27) (r := main_arg2) (h := by decide),
    ternary_result_ne (c := main_v23) (a := main_v25) (b := main_v6) (y := main_v26) (r := main_arg2) (h := by decide)]
  rw [binary_result_ne (a := main_v6) (b := main_v24) (y := main_v25) (r := main_arg2) (h := by decide),
    unary_result_ne (x := main_c_5) (y := main_v24) (r := main_arg2) (h := by decide),
    nullary_result_ne (y := main_c_5) (r := main_arg2) (h := by decide),
    binary_result_ne (a := main_v6) (b := main_v22) (y := main_v23) (r := main_arg2) (h := by decide)]
  rw [unary_result_ne (x := main_c_4) (y := main_v22) (r := main_arg2) (h := by decide),
    nullary_result_ne (y := main_c_4) (r := main_arg2) (h := by decide),
    binary_result_ne (a := main_v14) (b := main_v20) (y := main_v21) (r := main_arg2) (h := by decide),
    unary_result_ne (x := main_v19) (y := main_v20) (r := main_arg2) (h := by decide)]
  rw [ternary_result_ne (c := main_v16) (a := main_v18) (b := main_v3) (y := main_v19) (r := main_arg2) (h := by decide),
    binary_result_ne (a := main_v3) (b := main_v17) (y := main_v18) (r := main_arg2) (h := by decide),
    unary_result_ne (x := main_c_3) (y := main_v17) (r := main_arg2) (h := by decide),
    nullary_result_ne (y := main_c_3) (r := main_arg2) (h := by decide)]
  rw [binary_result_ne (a := main_v3) (b := main_v15) (y := main_v16) (r := main_arg2) (h := by decide),
    unary_result_ne (x := main_c) (y := main_v15) (r := main_arg2) (h := by decide),
    nullary_result_ne (y := main_c) (r := main_arg2) (h := by decide)]

theorem keep02_arg3 : after (hostOps0_2 (F := Ideal)) W (Proc.devRef .tc main_arg3) = W (Proc.devRef .tc main_arg3) := by
  unfold hostOps0_2
  simp only [after_cons, after_nil]
  rw [binary_result_ne (a := main_v21) (b := main_v28) (y := main_v29) (r := main_arg3) (h := by decide),
    binary_result_ne (a := main_v14) (b := main_v27) (y := main_v28) (r := main_arg3) (h := by decide),
    unary_result_ne (x := main_v26) (y := main_v27) (r := main_arg3) (h := by decide),
    ternary_result_ne (c := main_v23) (a := main_v25) (b := main_v6) (y := main_v26) (r := main_arg3) (h := by decide)]
  rw [binary_result_ne (a := main_v6) (b := main_v24) (y := main_v25) (r := main_arg3) (h := by decide),
    unary_result_ne (x := main_c_5) (y := main_v24) (r := main_arg3) (h := by decide),
    nullary_result_ne (y := main_c_5) (r := main_arg3) (h := by decide),
    binary_result_ne (a := main_v6) (b := main_v22) (y := main_v23) (r := main_arg3) (h := by decide)]
  rw [unary_result_ne (x := main_c_4) (y := main_v22) (r := main_arg3) (h := by decide),
    nullary_result_ne (y := main_c_4) (r := main_arg3) (h := by decide),
    binary_result_ne (a := main_v14) (b := main_v20) (y := main_v21) (r := main_arg3) (h := by decide),
    unary_result_ne (x := main_v19) (y := main_v20) (r := main_arg3) (h := by decide)]
  rw [ternary_result_ne (c := main_v16) (a := main_v18) (b := main_v3) (y := main_v19) (r := main_arg3) (h := by decide),
    binary_result_ne (a := main_v3) (b := main_v17) (y := main_v18) (r := main_arg3) (h := by decide),
    unary_result_ne (x := main_c_3) (y := main_v17) (r := main_arg3) (h := by decide),
    nullary_result_ne (y := main_c_3) (r := main_arg3) (h := by decide)]
  rw [binary_result_ne (a := main_v3) (b := main_v15) (y := main_v16) (r := main_arg3) (h := by decide),
    unary_result_ne (x := main_c) (y := main_v15) (r := main_arg3) (h := by decide),
    nullary_result_ne (y := main_c) (r := main_arg3) (h := by decide)]

theorem keep02_arg4 : after (hostOps0_2 (F := Ideal)) W (Proc.devRef .tc main_arg4) = W (Proc.devRef .tc main_arg4) := by
  unfold hostOps0_2
  simp only [after_cons, after_nil]
  rw [binary_result_ne (a := main_v21) (b := main_v28) (y := main_v29) (r := main_arg4) (h := by decide),
    binary_result_ne (a := main_v14) (b := main_v27) (y := main_v28) (r := main_arg4) (h := by decide),
    unary_result_ne (x := main_v26) (y := main_v27) (r := main_arg4) (h := by decide),
    ternary_result_ne (c := main_v23) (a := main_v25) (b := main_v6) (y := main_v26) (r := main_arg4) (h := by decide)]
  rw [binary_result_ne (a := main_v6) (b := main_v24) (y := main_v25) (r := main_arg4) (h := by decide),
    unary_result_ne (x := main_c_5) (y := main_v24) (r := main_arg4) (h := by decide),
    nullary_result_ne (y := main_c_5) (r := main_arg4) (h := by decide),
    binary_result_ne (a := main_v6) (b := main_v22) (y := main_v23) (r := main_arg4) (h := by decide)]
  rw [unary_result_ne (x := main_c_4) (y := main_v22) (r := main_arg4) (h := by decide),
    nullary_result_ne (y := main_c_4) (r := main_arg4) (h := by decide),
    binary_result_ne (a := main_v14) (b := main_v20) (y := main_v21) (r := main_arg4) (h := by decide),
    unary_result_ne (x := main_v19) (y := main_v20) (r := main_arg4) (h := by decide)]
  rw [ternary_result_ne (c := main_v16) (a := main_v18) (b := main_v3) (y := main_v19) (r := main_arg4) (h := by decide),
    binary_result_ne (a := main_v3) (b := main_v17) (y := main_v18) (r := main_arg4) (h := by decide),
    unary_result_ne (x := main_c_3) (y := main_v17) (r := main_arg4) (h := by decide),
    nullary_result_ne (y := main_c_3) (r := main_arg4) (h := by decide)]
  rw [binary_result_ne (a := main_v3) (b := main_v15) (y := main_v16) (r := main_arg4) (h := by decide),
    unary_result_ne (x := main_c) (y := main_v15) (r := main_arg4) (h := by decide),
    nullary_result_ne (y := main_c) (r := main_arg4) (h := by decide)]

theorem keep02_arg5 : after (hostOps0_2 (F := Ideal)) W (Proc.devRef .tc main_arg5) = W (Proc.devRef .tc main_arg5) := by
  unfold hostOps0_2
  simp only [after_cons, after_nil]
  rw [binary_result_ne (a := main_v21) (b := main_v28) (y := main_v29) (r := main_arg5) (h := by decide),
    binary_result_ne (a := main_v14) (b := main_v27) (y := main_v28) (r := main_arg5) (h := by decide),
    unary_result_ne (x := main_v26) (y := main_v27) (r := main_arg5) (h := by decide),
    ternary_result_ne (c := main_v23) (a := main_v25) (b := main_v6) (y := main_v26) (r := main_arg5) (h := by decide)]
  rw [binary_result_ne (a := main_v6) (b := main_v24) (y := main_v25) (r := main_arg5) (h := by decide),
    unary_result_ne (x := main_c_5) (y := main_v24) (r := main_arg5) (h := by decide),
    nullary_result_ne (y := main_c_5) (r := main_arg5) (h := by decide),
    binary_result_ne (a := main_v6) (b := main_v22) (y := main_v23) (r := main_arg5) (h := by decide)]
  rw [unary_result_ne (x := main_c_4) (y := main_v22) (r := main_arg5) (h := by decide),
    nullary_result_ne (y := main_c_4) (r := main_arg5) (h := by decide),
    binary_result_ne (a := main_v14) (b := main_v20) (y := main_v21) (r := main_arg5) (h := by decide),
    unary_result_ne (x := main_v19) (y := main_v20) (r := main_arg5) (h := by decide)]
  rw [ternary_result_ne (c := main_v16) (a := main_v18) (b := main_v3) (y := main_v19) (r := main_arg5) (h := by decide),
    binary_result_ne (a := main_v3) (b := main_v17) (y := main_v18) (r := main_arg5) (h := by decide),
    unary_result_ne (x := main_c_3) (y := main_v17) (r := main_arg5) (h := by decide),
    nullary_result_ne (y := main_c_3) (r := main_arg5) (h := by decide)]
  rw [binary_result_ne (a := main_v3) (b := main_v15) (y := main_v16) (r := main_arg5) (h := by decide),
    unary_result_ne (x := main_c) (y := main_v15) (r := main_arg5) (h := by decide),
    nullary_result_ne (y := main_c) (r := main_arg5) (h := by decide)]

theorem keep02_arg6 : after (hostOps0_2 (F := Ideal)) W (Proc.devRef .tc main_arg6) = W (Proc.devRef .tc main_arg6) := by
  unfold hostOps0_2
  simp only [after_cons, after_nil]
  rw [binary_result_ne (a := main_v21) (b := main_v28) (y := main_v29) (r := main_arg6) (h := by decide),
    binary_result_ne (a := main_v14) (b := main_v27) (y := main_v28) (r := main_arg6) (h := by decide),
    unary_result_ne (x := main_v26) (y := main_v27) (r := main_arg6) (h := by decide),
    ternary_result_ne (c := main_v23) (a := main_v25) (b := main_v6) (y := main_v26) (r := main_arg6) (h := by decide)]
  rw [binary_result_ne (a := main_v6) (b := main_v24) (y := main_v25) (r := main_arg6) (h := by decide),
    unary_result_ne (x := main_c_5) (y := main_v24) (r := main_arg6) (h := by decide),
    nullary_result_ne (y := main_c_5) (r := main_arg6) (h := by decide),
    binary_result_ne (a := main_v6) (b := main_v22) (y := main_v23) (r := main_arg6) (h := by decide)]
  rw [unary_result_ne (x := main_c_4) (y := main_v22) (r := main_arg6) (h := by decide),
    nullary_result_ne (y := main_c_4) (r := main_arg6) (h := by decide),
    binary_result_ne (a := main_v14) (b := main_v20) (y := main_v21) (r := main_arg6) (h := by decide),
    unary_result_ne (x := main_v19) (y := main_v20) (r := main_arg6) (h := by decide)]
  rw [ternary_result_ne (c := main_v16) (a := main_v18) (b := main_v3) (y := main_v19) (r := main_arg6) (h := by decide),
    binary_result_ne (a := main_v3) (b := main_v17) (y := main_v18) (r := main_arg6) (h := by decide),
    unary_result_ne (x := main_c_3) (y := main_v17) (r := main_arg6) (h := by decide),
    nullary_result_ne (y := main_c_3) (r := main_arg6) (h := by decide)]
  rw [binary_result_ne (a := main_v3) (b := main_v15) (y := main_v16) (r := main_arg6) (h := by decide),
    unary_result_ne (x := main_c) (y := main_v15) (r := main_arg6) (h := by decide),
    nullary_result_ne (y := main_c) (r := main_arg6) (h := by decide)]

theorem keep02_arg7 : after (hostOps0_2 (F := Ideal)) W (Proc.devRef .tc main_arg7) = W (Proc.devRef .tc main_arg7) := by
  unfold hostOps0_2
  simp only [after_cons, after_nil]
  rw [binary_result_ne (a := main_v21) (b := main_v28) (y := main_v29) (r := main_arg7) (h := by decide),
    binary_result_ne (a := main_v14) (b := main_v27) (y := main_v28) (r := main_arg7) (h := by decide),
    unary_result_ne (x := main_v26) (y := main_v27) (r := main_arg7) (h := by decide),
    ternary_result_ne (c := main_v23) (a := main_v25) (b := main_v6) (y := main_v26) (r := main_arg7) (h := by decide)]
  rw [binary_result_ne (a := main_v6) (b := main_v24) (y := main_v25) (r := main_arg7) (h := by decide),
    unary_result_ne (x := main_c_5) (y := main_v24) (r := main_arg7) (h := by decide),
    nullary_result_ne (y := main_c_5) (r := main_arg7) (h := by decide),
    binary_result_ne (a := main_v6) (b := main_v22) (y := main_v23) (r := main_arg7) (h := by decide)]
  rw [unary_result_ne (x := main_c_4) (y := main_v22) (r := main_arg7) (h := by decide),
    nullary_result_ne (y := main_c_4) (r := main_arg7) (h := by decide),
    binary_result_ne (a := main_v14) (b := main_v20) (y := main_v21) (r := main_arg7) (h := by decide),
    unary_result_ne (x := main_v19) (y := main_v20) (r := main_arg7) (h := by decide)]
  rw [ternary_result_ne (c := main_v16) (a := main_v18) (b := main_v3) (y := main_v19) (r := main_arg7) (h := by decide),
    binary_result_ne (a := main_v3) (b := main_v17) (y := main_v18) (r := main_arg7) (h := by decide),
    unary_result_ne (x := main_c_3) (y := main_v17) (r := main_arg7) (h := by decide),
    nullary_result_ne (y := main_c_3) (r := main_arg7) (h := by decide)]
  rw [binary_result_ne (a := main_v3) (b := main_v15) (y := main_v16) (r := main_arg7) (h := by decide),
    unary_result_ne (x := main_c) (y := main_v15) (r := main_arg7) (h := by decide),
    nullary_result_ne (y := main_c) (r := main_arg7) (h := by decide)]

end Cert.KernelIdeal.Stretch

end
-- ==== Proof.KernelStretchB.lean ====
/-
  The kernel's host stretches between its regions, read from the contents they are entered with.

  Each of the three stretches is one aggregation: it reads a dense layer's output, the two edge lists and the
  edge coefficients, and leaves the aggregated array. Every other live buffer is left as it was.
-/
import proofs.«116998_j46694884442219_1_alg».proof.Proof.Gen.KernelIdeal.Launch
import proofs.«116998_j46694884442219_1_alg».proof.Proof.Glue
import Idealize.ShloMosaic.Lib.StableHlo.Run

set_option maxRecDepth 16384

noncomputable section

namespace Cert.KernelIdeal.Stretch

open Cert.KernelIdeal Cert.KernelIdeal.Gen Idealize.ShloMosaic Idealize.ShloMosaic.StableHlo Idealize.ShloMosaic.TcCoe

variable (W : Valuation τ sig (Elt Ideal))

/-! ## What a stretch computes, from the contents it is entered with

Each proof reads the result buffer off the fold one operation at a time, from the last operation back: at the
operation that writes a buffer the buffer holds that operation's function of its operands, at any other operation
it holds what it held before. -/

set_option maxHeartbeats 1000000 in
/-- The hidden layer's aggregation. -/
theorem agg128_at : after (hostOps1 (F := Ideal)) W (Proc.devRef .tc main_v43)
    = Cert.Glue.agg128 (W (Proc.devRef .tc main_v30)) (W (Proc.devRef .tc main_v3)) (W (Proc.devRef .tc main_v6)) (W (Proc.devRef .tc main_v29)) := by
  generalize hR : Cert.Glue.agg128 (W (Proc.devRef .tc main_v30)) (W (Proc.devRef .tc main_v3)) (W (Proc.devRef .tc main_v6)) (W (Proc.devRef .tc main_v29)) = R
  unfold hostOps1
  simp only [after_cons, after_nil]
  rw [ternary_result (c := main_v41) (a := main_v42) (b := main_v40) (y := main_v43),
    unary_result_ne (x := main_v6) (y := main_v42) (r := main_v41) (h := by decide),
    unary_result (x := main_v6) (y := main_v42)]
  rw [unary_result_ne (x := main_v6) (y := main_v42) (r := main_v40) (h := by decide),
    unary_result (x := main_cst_8) (y := main_v41),
    unary_result_ne (x := main_cst_8) (y := main_v41) (r := main_v6) (h := by decide)]
  rw [unary_result_ne (x := main_cst_8) (y := main_v41) (r := main_v40) (h := by decide),
    nullary_result (y := main_cst_8),
    nullary_result_ne (y := main_cst_8) (r := main_v6) (h := by decide)]
  rw [nullary_result_ne (y := main_cst_8) (r := main_v40) (h := by decide),
    binary_result_ne (a := main_v37) (b := main_v39) (y := main_v40) (r := main_v6) (h := by decide),
    binary_result (a := main_v37) (b := main_v39) (y := main_v40)]
  rw [unary_result_ne (x := main_v38) (y := main_v39) (r := main_v6) (h := by decide),
    unary_result_ne (x := main_v38) (y := main_v39) (r := main_v37) (h := by decide),
    unary_result (x := main_v38) (y := main_v39)]
  rw [unary_result_ne (x := main_v29) (y := main_v38) (r := main_v6) (h := by decide),
    unary_result_ne (x := main_v29) (y := main_v38) (r := main_v37) (h := by decide),
    unary_result (x := main_v29) (y := main_v38)]
  rw [binary_result_ne (a := main_v30) (b := main_v36) (y := main_v37) (r := main_v6) (h := by decide),
    binary_result (a := main_v30) (b := main_v36) (y := main_v37),
    binary_result_ne (a := main_v30) (b := main_v36) (y := main_v37) (r := main_v29) (h := by decide)]
  rw [unary_result_ne (x := main_v35) (y := main_v36) (r := main_v6) (h := by decide),
    unary_result_ne (x := main_v35) (y := main_v36) (r := main_v30) (h := by decide),
    unary_result (x := main_v35) (y := main_v36)]
  rw [unary_result_ne (x := main_v35) (y := main_v36) (r := main_v29) (h := by decide),
    ternary_result_ne (c := main_v32) (a := main_v34) (b := main_v3) (y := main_v35) (r := main_v6) (h := by decide),
    ternary_result_ne (c := main_v32) (a := main_v34) (b := main_v3) (y := main_v35) (r := main_v30) (h := by decide)]
  rw [ternary_result (c := main_v32) (a := main_v34) (b := main_v3) (y := main_v35),
    ternary_result_ne (c := main_v32) (a := main_v34) (b := main_v3) (y := main_v35) (r := main_v29) (h := by decide),
    binary_result_ne (a := main_v3) (b := main_v33) (y := main_v34) (r := main_v6) (h := by decide)]
  rw [binary_result_ne (a := main_v3) (b := main_v33) (y := main_v34) (r := main_v30) (h := by decide),
    binary_result_ne (a := main_v3) (b := main_v33) (y := main_v34) (r := main_v32) (h := by decide),
    binary_result (a := main_v3) (b := main_v33) (y := main_v34)]
  rw [binary_result_ne (a := main_v3) (b := main_v33) (y := main_v34) (r := main_v3) (h := by decide),
    binary_result_ne (a := main_v3) (b := main_v33) (y := main_v34) (r := main_v29) (h := by decide),
    unary_result_ne (x := main_c_7) (y := main_v33) (r := main_v6) (h := by decide)]
  rw [unary_result_ne (x := main_c_7) (y := main_v33) (r := main_v30) (h := by decide),
    unary_result_ne (x := main_c_7) (y := main_v33) (r := main_v32) (h := by decide),
    unary_result_ne (x := main_c_7) (y := main_v33) (r := main_v3) (h := by decide)]
  rw [unary_result (x := main_c_7) (y := main_v33),
    unary_result_ne (x := main_c_7) (y := main_v33) (r := main_v29) (h := by decide),
    nullary_result_ne (y := main_c_7) (r := main_v6) (h := by decide)]
  rw [nullary_result_ne (y := main_c_7) (r := main_v30) (h := by decide),
    nullary_result_ne (y := main_c_7) (r := main_v32) (h := by decide),
    nullary_result_ne (y := main_c_7) (r := main_v3) (h := by decide)]
  rw [nullary_result (y := main_c_7),
    nullary_result_ne (y := main_c_7) (r := main_v29) (h := by decide),
    binary_result_ne (a := main_v3) (b := main_v31) (y := main_v32) (r := main_v6) (h := by decide)]
  rw [binary_result_ne (a := main_v3) (b := main_v31) (y := main_v32) (r := main_v30) (h := by decide),
    binary_result (a := main_v3) (b := main_v31) (y := main_v32),
    binary_result_ne (a := main_v3) (b := main_v31) (y := main_v32) (r := main_v3) (h := by decide)]
  rw [binary_result_ne (a := main_v3) (b := main_v31) (y := main_v32) (r := main_v29) (h := by decide),
    unary_result_ne (x := main_c_6) (y := main_v31) (r := main_v6) (h := by decide),
    unary_result_ne (x := main_c_6) (y := main_v31) (r := main_v30) (h := by decide)]
  rw [unary_result_ne (x := main_c_6) (y := main_v31) (r := main_v3) (h := by decide),
    unary_result (x := main_c_6) (y := main_v31),
    unary_result_ne (x := main_c_6) (y := main_v31) (r := main_v29) (h := by decide)]
  rw [nullary_result_ne (y := main_c_6) (r := main_v6) (h := by decide),
    nullary_result_ne (y := main_c_6) (r := main_v30) (h := by decide),
    nullary_result_ne (y := main_c_6) (r := main_v3) (h := by decide)]
  rw [nullary_result (y := main_c_6),
    nullary_result_ne (y := main_c_6) (r := main_v29) (h := by decide)]
  exact hR

set_option maxHeartbeats 1000000 in
/-- The first output layer's aggregation. -/
theorem aggMu_at : after (hostOps3 (F := Ideal)) W (Proc.devRef .tc main_v58)
    = Cert.Glue.agg64 (W (Proc.devRef .tc main_v45)) (W (Proc.devRef .tc main_v3)) (W (Proc.devRef .tc main_v6)) (W (Proc.devRef .tc main_v29)) := by
  generalize hR : Cert.Glue.agg64 (W (Proc.devRef .tc main_v45)) (W (Proc.devRef .tc main_v3)) (W (Proc.devRef .tc main_v6)) (W (Proc.devRef .tc main_v29)) = R
  unfold hostOps3
  simp only [after_cons, after_nil]
  rw [ternary_result (c := main_v56) (a := main_v57) (b := main_v55) (y := main_v58),
    unary_result_ne (x := main_v6) (y := main_v57) (r := main_v56) (h := by decide),
    unary_result (x := main_v6) (y := main_v57)]
  rw [unary_result_ne (x := main_v6) (y := main_v57) (r := main_v55) (h := by decide),
    unary_result (x := main_cst_11) (y := main_v56),
    unary_result_ne (x := main_cst_11) (y := main_v56) (r := main_v6) (h := by decide)]
  rw [unary_result_ne (x := main_cst_11) (y := main_v56) (r := main_v55) (h := by decide),
    nullary_result (y := main_cst_11),
    nullary_result_ne (y := main_cst_11) (r := main_v6) (h := by decide)]
  rw [nullary_result_ne (y := main_cst_11) (r := main_v55) (h := by decide),
    binary_result_ne (a := main_v52) (b := main_v54) (y := main_v55) (r := main_v6) (h := by decide),
    binary_result (a := main_v52) (b := main_v54) (y := main_v55)]
  rw [unary_result_ne (x := main_v53) (y := main_v54) (r := main_v6) (h := by decide),
    unary_result_ne (x := main_v53) (y := main_v54) (r := main_v52) (h := by decide),
    unary_result (x := main_v53) (y := main_v54)]
  rw [unary_result_ne (x := main_v29) (y := main_v53) (r := main_v6) (h := by decide),
    unary_result_ne (x := main_v29) (y := main_v53) (r := main_v52) (h := by decide),
    unary_result (x := main_v29) (y := main_v53)]
  rw [binary_result_ne (a := main_v45) (b := main_v51) (y := main_v52) (r := main_v6) (h := by decide),
    binary_result (a := main_v45) (b := main_v51) (y := main_v52),
    binary_result_ne (a := main_v45) (b := main_v51) (y := main_v52) (r := main_v29) (h := by decide)]
  rw [unary_result_ne (x := main_v50) (y := main_v51) (r := main_v6) (h := by decide),
    unary_result_ne (x := main_v50) (y := main_v51) (r := main_v45) (h := by decide),
    unary_result (x := main_v50) (y := main_v51)]
  rw [unary_result_ne (x := main_v50) (y := main_v51) (r := main_v29) (h := by decide),
    ternary_result_ne (c := main_v47) (a := main_v49) (b := main_v3) (y := main_v50) (r := main_v6) (h := by decide),
    ternary_result_ne (c := main_v47) (a := main_v49) (b := main_v3) (y := main_v50) (r := main_v45) (h := by decide)]
  rw [ternary_result (c := main_v47) (a := main_v49) (b := main_v3) (y := main_v50),
    ternary_result_ne (c := main_v47) (a := main_v49) (b := main_v3) (y := main_v50) (r := main_v29) (h := by decide),
    binary_result_ne (a := main_v3) (b := main_v48) (y := main_v49) (r := main_v6) (h := by decide)]
  rw [binary_result_ne (a := main_v3) (b := main_v48) (y := main_v49) (r := main_v45) (h := by decide),
    binary_result_ne (a := main_v3) (b := main_v48) (y := main_v49) (r := main_v47) (h := by decide),
    binary_result (a := main_v3) (b := main_v48) (y := main_v49)]
  rw [binary_result_ne (a := main_v3) (b := main_v48) (y := main_v49) (r := main_v3) (h := by decide),
    binary_result_ne (a := main_v3) (b := main_v48) (y := main_v49) (r := main_v29) (h := by decide),
    unary_result_ne (x := main_c_10) (y := main_v48) (r := main_v6) (h := by decide)]
  rw [unary_result_ne (x := main_c_10) (y := main_v48) (r := main_v45) (h := by decide),
    unary_result_ne (x := main_c_10) (y := main_v48) (r := main_v47) (h := by decide),
    unary_result_ne (x := main_c_10) (y := main_v48) (r := main_v3) (h := by decide)]
  rw [unary_result (x := main_c_10) (y := main_v48),
    unary_result_ne (x := main_c_10) (y := main_v48) (r := main_v29) (h := by decide),
    nullary_result_ne (y := main_c_10) (r := main_v6) (h := by decide)]
  rw [nullary_result_ne (y := main_c_10) (r := main_v45) (h := by decide),
    nullary_result_ne (y := main_c_10) (r := main_v47) (h := by decide),
    nullary_result_ne (y := main_c_10) (r := main_v3) (h := by decide)]
  rw [nullary_result (y := main_c_10),
    nullary_result_ne (y := main_c_10) (r := main_v29) (h := by decide),
    binary_result_ne (a := main_v3) (b := main_v46) (y := main_v47) (r := main_v6) (h := by decide)]
  rw [binary_result_ne (a := main_v3) (b := main_v46) (y := main_v47) (r := main_v45) (h := by decide),
    binary_result (a := main_v3) (b := main_v46) (y := main_v47),
    binary_result_ne (a := main_v3) (b := main_v46) (y := main_v47) (r := main_v3) (h := by decide)]
  rw [binary_result_ne (a := main_v3) (b := main_v46) (y := main_v47) (r := main_v29) (h := by decide),
    unary_result_ne (x := main_c_9) (y := main_v46) (r := main_v6) (h := by decide),
    unary_result_ne (x := main_c_9) (y := main_v46) (r := main_v45) (h := by decide)]
  rw [unary_result_ne (x := main_c_9) (y := main_v46) (r := main_v3) (h := by decide),
    unary_result (x := main_c_9) (y := main_v46),
    unary_result_ne (x := main_c_9) (y := main_v46) (r := main_v29) (h := by decide)]
  rw [nullary_result_ne (y := main_c_9) (r := main_v6) (h := by decide),
    nullary_result_ne (y := main_c_9) (r := main_v45) (h := by decide),
    nullary_result_ne (y := main_c_9) (r := main_v3) (h := by decide)]
  rw [nullary_result (y := main_c_9),
    nullary_result_ne (y := main_c_9) (r := main_v29) (h := by decide)]
  exact hR

set_option maxHeartbeats 1000000 in
/-- The second output layer's aggregation. -/
theorem aggLv_at : after (hostOps5 (F := Ideal)) W (Proc.devRef .tc main_v73)
    = Cert.Glue.agg64 (W (Proc.devRef .tc main_v60)) (W (Proc.devRef .tc main_v3)) (W (Proc.devRef .tc main_v6)) (W (Proc.devRef .tc main_v29)) := by
  generalize hR : Cert.Glue.agg64 (W (Proc.devRef .tc main_v60)) (W (Proc.devRef .tc main_v3)) (W (Proc.devRef .tc main_v6)) (W (Proc.devRef .tc main_v29)) = R
  unfold hostOps5
  simp only [after_cons, after_nil]
  rw [ternary_result (c := main_v71) (a := main_v72) (b := main_v70) (y := main_v73),
    unary_result_ne (x := main_v6) (y := main_v72) (r := main_v71) (h := by decide),
    unary_result (x := main_v6) (y := main_v72)]
  rw [unary_result_ne (x := main_v6) (y := main_v72) (r := main_v70) (h := by decide),
    unary_result (x := main_cst_14) (y := main_v71),
    unary_result_ne (x := main_cst_14) (y := main_v71) (r := main_v6) (h := by decide)]
  rw [unary_result_ne (x := main_cst_14) (y := main_v71) (r := main_v70) (h := by decide),
    nullary_result (y := main_cst_14),
    nullary_result_ne (y := main_cst_14) (r := main_v6) (h := by decide)]
  rw [nullary_result_ne (y := main_cst_14) (r := main_v70) (h := by decide),
    binary_result_ne (a := main_v67) (b := main_v69) (y := main_v70) (r := main_v6) (h := by decide),
    binary_result (a := main_v67) (b := main_v69) (y := main_v70)]
  rw [unary_result_ne (x := main_v68) (y := main_v69) (r := main_v6) (h := by decide),
    unary_result_ne (x := main_v68) (y := main_v69) (r := main_v67) (h := by decide),
    unary_result (x := main_v68) (y := main_v69)]
  rw [unary_result_ne (x := main_v29) (y := main_v68) (r := main_v6) (h := by decide),
    unary_result_ne (x := main_v29) (y := main_v68) (r := main_v67) (h := by decide),
    unary_result (x := main_v29) (y := main_v68)]
  rw [binary_result_ne (a := main_v60) (b := main_v66) (y := main_v67) (r := main_v6) (h := by decide),
    binary_result (a := main_v60) (b := main_v66) (y := main_v67),
    binary_result_ne (a := main_v60) (b := main_v66) (y := main_v67) (r := main_v29) (h := by decide)]
  rw [unary_result_ne (x := main_v65) (y := main_v66) (r := main_v6) (h := by decide),
    unary_result_ne (x := main_v65) (y := main_v66) (r := main_v60) (h := by decide),
    unary_result (x := main_v65) (y := main_v66)]
  rw [unary_result_ne (x := main_v65) (y := main_v66) (r := main_v29) (h := by decide),
    ternary_result_ne (c := main_v62) (a := main_v64) (b := main_v3) (y := main_v65) (r := main_v6) (h := by decide),
    ternary_result_ne (c := main_v62) (a := main_v64) (b := main_v3) (y := main_v65) (r := main_v60) (h := by decide)]
  rw [ternary_result (c := main_v62) (a := main_v64) (b := main_v3) (y := main_v65),
    ternary_result_ne (c := main_v62) (a := main_v64) (b := main_v3) (y := main_v65) (r := main_v29) (h := by decide),
    binary_result_ne (a := main_v3) (b := main_v63) (y := main_v64) (r := main_v6) (h := by decide)]
  rw [binary_result_ne (a := main_v3) (b := main_v63) (y := main_v64) (r := main_v60) (h := by decide),
    binary_result_ne (a := main_v3) (b := main_v63) (y := main_v64) (r := main_v62) (h := by decide),
    binary_result (a := main_v3) (b := main_v63) (y := main_v64)]
  rw [binary_result_ne (a := main_v3) (b := main_v63) (y := main_v64) (r := main_v3) (h := by decide),
    binary_result_ne (a := main_v3) (b := main_v63) (y := main_v64) (r := main_v29) (h := by decide),
    unary_result_ne (x := main_c_13) (y := main_v63) (r := main_v6) (h := by decide)]
  rw [unary_result_ne (x := main_c_13) (y := main_v63) (r := main_v60) (h := by decide),
    unary_result_ne (x := main_c_13) (y := main_v63) (r := main_v62) (h := by decide),
    unary_result_ne (x := main_c_13) (y := main_v63) (r := main_v3) (h := by decide)]
  rw [unary_result (x := main_c_13) (y := main_v63),
    unary_result_ne (x := main_c_13) (y := main_v63) (r := main_v29) (h := by decide),
    nullary_result_ne (y := main_c_13) (r := main_v6) (h := by decide)]
  rw [nullary_result_ne (y := main_c_13) (r := main_v60) (h := by decide),
    nullary_result_ne (y := main_c_13) (r := main_v62) (h := by decide),
    nullary_result_ne (y := main_c_13) (r := main_v3) (h := by decide)]
  rw [nullary_result (y := main_c_13),
    nullary_result_ne (y := main_c_13) (r := main_v29) (h := by decide),
    binary_result_ne (a := main_v3) (b := main_v61) (y := main_v62) (r := main_v6) (h := by decide)]
  rw [binary_result_ne (a := main_v3) (b := main_v61) (y := main_v62) (r := main_v60) (h := by decide),
    binary_result (a := main_v3) (b := main_v61) (y := main_v62),
    binary_result_ne (a := main_v3) (b := main_v61) (y := main_v62) (r := main_v3) (h := by decide)]
  rw [binary_result_ne (a := main_v3) (b := main_v61) (y := main_v62) (r := main_v29) (h := by decide),
    unary_result_ne (x := main_c_12) (y := main_v61) (r := main_v6) (h := by decide),
    unary_result_ne (x := main_c_12) (y := main_v61) (r := main_v60) (h := by decide)]
  rw [unary_result_ne (x := main_c_12) (y := main_v61) (r := main_v3) (h := by decide),
    unary_result (x := main_c_12) (y := main_v61),
    unary_result_ne (x := main_c_12) (y := main_v61) (r := main_v29) (h := by decide)]
  rw [nullary_result_ne (y := main_c_12) (r := main_v6) (h := by decide),
    nullary_result_ne (y := main_c_12) (r := main_v60) (h := by decide),
    nullary_result_ne (y := main_c_12) (r := main_v3) (h := by decide)]
  rw [nullary_result (y := main_c_12),
    nullary_result_ne (y := main_c_12) (r := main_v29) (h := by decide)]
  exact hR

/-! ## What a stretch leaves alone -/

theorem keep1_v3 : after (hostOps1 (F := Ideal)) W (Proc.devRef .tc main_v3) = W (Proc.devRef .tc main_v3) := by
  unfold hostOps1
  simp only [after_cons, after_nil]
  rw [ternary_result_ne (c := main_v41) (a := main_v42) (b := main_v40) (y := main_v43) (r := main_v3) (h := by decide),
    unary_result_ne (x := main_v6) (y := main_v42) (r := main_v3) (h := by decide),
    unary_result_ne (x := main_cst_8) (y := main_v41) (r := main_v3) (h := by decide),
    nullary_result_ne (y := main_cst_8) (r := main_v3) (h := by decide)]
  rw [binary_result_ne (a := main_v37) (b := main_v39) (y := main_v40) (r := main_v3) (h := by decide),
    unary_result_ne (x := main_v38) (y := main_v39) (r := main_v3) (h := by decide),
    unary_result_ne (x := main_v29) (y := main_v38) (r := main_v3) (h := by decide),
    binary_result_ne (a := main_v30) (b := main_v36) (y := main_v37) (r := main_v3) (h := by decide)]
  rw [unary_result_ne (x := main_v35) (y := main_v36) (r := main_v3) (h := by decide),
    ternary_result_ne (c := main_v32) (a := main_v34) (b := main_v3) (y := main_v35) (r := main_v3) (h := by decide),
    binary_result_ne (a := main_v3) (b := main_v33) (y := main_v34) (r := main_v3) (h := by decide),
    unary_result_ne (x := main_c_7) (y := main_v33) (r := main_v3) (h := by decide)]
  rw [nullary_result_ne (y := main_c_7) (r := main_v3) (h := by decide),
    binary_result_ne (a := main_v3) (b := main_v31) (y := main_v32) (r := main_v3) (h := by decide),
    unary_result_ne (x := main_c_6) (y := main_v31) (r := main_v3) (h := by decide),
    nullary_result_ne (y := main_c_6) (r := main_v3) (h := by decide)]

theorem keep1_v6 : after (hostOps1 (F := Ideal)) W (Proc.devRef .tc main_v6) = W (Proc.devRef .tc main_v6) := by
  unfold hostOps1
  simp only [after_cons, after_nil]
  rw [ternary_result_ne (c := main_v41) (a := main_v42) (b := main_v40) (y := main_v43) (r := main_v6) (h := by decide),
    unary_result_ne (x := main_v6) (y := main_v42) (r := main_v6) (h := by decide),
    unary_result_ne (x := main_cst_8) (y := main_v41) (r := main_v6) (h := by decide),
    nullary_result_ne (y := main_cst_8) (r := main_v6) (h := by decide)]
  rw [binary_result_ne (a := main_v37) (b := main_v39) (y := main_v40) (r := main_v6) (h := by decide),
    unary_result_ne (x := main_v38) (y := main_v39) (r := main_v6) (h := by decide),
    unary_result_ne (x := main_v29) (y := main_v38) (r := main_v6) (h := by decide),
    binary_result_ne (a := main_v30) (b := main_v36) (y := main_v37) (r := main_v6) (h := by decide)]
  rw [unary_result_ne (x := main_v35) (y := main_v36) (r := main_v6) (h := by decide),
    ternary_result_ne (c := main_v32) (a := main_v34) (b := main_v3) (y := main_v35) (r := main_v6) (h := by decide),
    binary_result_ne (a := main_v3) (b := main_v33) (y := main_v34) (r := main_v6) (h := by decide),
    unary_result_ne (x := main_c_7) (y := main_v33) (r := main_v6) (h := by decide)]
  rw [nullary_result_ne (y := main_c_7) (r := main_v6) (h := by decide),
    binary_result_ne (a := main_v3) (b := main_v31) (y := main_v32) (r := main_v6) (h := by decide),
    unary_result_ne (x := main_c_6) (y := main_v31) (r := main_v6) (h := by decide),
    nullary_result_ne (y := main_c_6) (r := main_v6) (h := by decide)]

theorem keep1_v29 : after (hostOps1 (F := Ideal)) W (Proc.devRef .tc main_v29) = W (Proc.devRef .tc main_v29) := by
  unfold hostOps1
  simp only [after_cons, after_nil]
  rw [ternary_result_ne (c := main_v41) (a := main_v42) (b := main_v40) (y := main_v43) (r := main_v29) (h := by decide),
    unary_result_ne (x := main_v6) (y := main_v42) (r := main_v29) (h := by decide),
    unary_result_ne (x := main_cst_8) (y := main_v41) (r := main_v29) (h := by decide),
    nullary_result_ne (y := main_cst_8) (r := main_v29) (h := by decide)]
  rw [binary_result_ne (a := main_v37) (b := main_v39) (y := main_v40) (r := main_v29) (h := by decide),
    unary_result_ne (x := main_v38) (y := main_v39) (r := main_v29) (h := by decide),
    unary_result_ne (x := main_v29) (y := main_v38) (r := main_v29) (h := by decide),
    binary_result_ne (a := main_v30) (b := main_v36) (y := main_v37) (r := main_v29) (h := by decide)]
  rw [unary_result_ne (x := main_v35) (y := main_v36) (r := main_v29) (h := by decide),
    ternary_result_ne (c := main_v32) (a := main_v34) (b := main_v3) (y := main_v35) (r := main_v29) (h := by decide),
    binary_result_ne (a := main_v3) (b := main_v33) (y := main_v34) (r := main_v29) (h := by decide),
    unary_result_ne (x := main_c_7) (y := main_v33) (r := main_v29) (h := by decide)]
  rw [nullary_result_ne (y := main_c_7) (r := main_v29) (h := by decide),
    binary_result_ne (a := main_v3) (b := main_v31) (y := main_v32) (r := main_v29) (h := by decide),
    unary_result_ne (x := main_c_6) (y := main_v31) (r := main_v29) (h := by decide),
    nullary_result_ne (y := main_c_6) (r := main_v29) (h := by decide)]

theorem keep1_arg3 : after (hostOps1 (F := Ideal)) W (Proc.devRef .tc main_arg3) = W (Proc.devRef .tc main_arg3) := by
  unfold hostOps1
  simp only [after_cons, after_nil]
  rw [ternary_result_ne (c := main_v41) (a := main_v42) (b := main_v40) (y := main_v43) (r := main_arg3) (h := by decide),
    unary_result_ne (x := main_v6) (y := main_v42) (r := main_arg3) (h := by decide),
    unary_result_ne (x := main_cst_8) (y := main_v41) (r := main_arg3) (h := by decide),
    nullary_result_ne (y := main_cst_8) (r := main_arg3) (h := by decide)]
  rw [binary_result_ne (a := main_v37) (b := main_v39) (y := main_v40) (r := main_arg3) (h := by decide),
    unary_result_ne (x := main_v38) (y := main_v39) (r := main_arg3) (h := by decide),
    unary_result_ne (x := main_v29) (y := main_v38) (r := main_arg3) (h := by decide),
    binary_result_ne (a := main_v30) (b := main_v36) (y := main_v37) (r := main_arg3) (h := by decide)]
  rw [unary_result_ne (x := main_v35) (y := main_v36) (r := main_arg3) (h := by decide),
    ternary_result_ne (c := main_v32) (a := main_v34) (b := main_v3) (y := main_v35) (r := main_arg3) (h := by decide),
    binary_result_ne (a := main_v3) (b := main_v33) (y := main_v34) (r := main_arg3) (h := by decide),
    unary_result_ne (x := main_c_7) (y := main_v33) (r := main_arg3) (h := by decide)]
  rw [nullary_result_ne (y := main_c_7) (r := main_arg3) (h := by decide),
    binary_result_ne (a := main_v3) (b := main_v31) (y := main_v32) (r := main_arg3) (h := by decide),
    unary_result_ne (x := main_c_6) (y := main_v31) (r := main_arg3) (h := by decide),
    nullary_result_ne (y := main_c_6) (r := main_arg3) (h := by decide)]

theorem keep1_arg4 : after (hostOps1 (F := Ideal)) W (Proc.devRef .tc main_arg4) = W (Proc.devRef .tc main_arg4) := by
  unfold hostOps1
  simp only [after_cons, after_nil]
  rw [ternary_result_ne (c := main_v41) (a := main_v42) (b := main_v40) (y := main_v43) (r := main_arg4) (h := by decide),
    unary_result_ne (x := main_v6) (y := main_v42) (r := main_arg4) (h := by decide),
    unary_result_ne (x := main_cst_8) (y := main_v41) (r := main_arg4) (h := by decide),
    nullary_result_ne (y := main_cst_8) (r := main_arg4) (h := by decide)]
  rw [binary_result_ne (a := main_v37) (b := main_v39) (y := main_v40) (r := main_arg4) (h := by decide),
    unary_result_ne (x := main_v38) (y := main_v39) (r := main_arg4) (h := by decide),
    unary_result_ne (x := main_v29) (y := main_v38) (r := main_arg4) (h := by decide),
    binary_result_ne (a := main_v30) (b := main_v36) (y := main_v37) (r := main_arg4) (h := by decide)]
  rw [unary_result_ne (x := main_v35) (y := main_v36) (r := main_arg4) (h := by decide),
    ternary_result_ne (c := main_v32) (a := main_v34) (b := main_v3) (y := main_v35) (r := main_arg4) (h := by decide),
    binary_result_ne (a := main_v3) (b := main_v33) (y := main_v34) (r := main_arg4) (h := by decide),
    unary_result_ne (x := main_c_7) (y := main_v33) (r := main_arg4) (h := by decide)]
  rw [nullary_result_ne (y := main_c_7) (r := main_arg4) (h := by decide),
    binary_result_ne (a := main_v3) (b := main_v31) (y := main_v32) (r := main_arg4) (h := by decide),
    unary_result_ne (x := main_c_6) (y := main_v31) (r := main_arg4) (h := by decide),
    nullary_result_ne (y := main_c_6) (r := main_arg4) (h := by decide)]

theorem keep1_arg5 : after (hostOps1 (F := Ideal)) W (Proc.devRef .tc main_arg5) = W (Proc.devRef .tc main_arg5) := by
  unfold hostOps1
  simp only [after_cons, after_nil]
  rw [ternary_result_ne (c := main_v41) (a := main_v42) (b := main_v40) (y := main_v43) (r := main_arg5) (h := by decide),
    unary_result_ne (x := main_v6) (y := main_v42) (r := main_arg5) (h := by decide),
    unary_result_ne (x := main_cst_8) (y := main_v41) (r := main_arg5) (h := by decide),
    nullary_result_ne (y := main_cst_8) (r := main_arg5) (h := by decide)]
  rw [binary_result_ne (a := main_v37) (b := main_v39) (y := main_v40) (r := main_arg5) (h := by decide),
    unary_result_ne (x := main_v38) (y := main_v39) (r := main_arg5) (h := by decide),
    unary_result_ne (x := main_v29) (y := main_v38) (r := main_arg5) (h := by decide),
    binary_result_ne (a := main_v30) (b := main_v36) (y := main_v37) (r := main_arg5) (h := by decide)]
  rw [unary_result_ne (x := main_v35) (y := main_v36) (r := main_arg5) (h := by decide),
    ternary_result_ne (c := main_v32) (a := main_v34) (b := main_v3) (y := main_v35) (r := main_arg5) (h := by decide),
    binary_result_ne (a := main_v3) (b := main_v33) (y := main_v34) (r := main_arg5) (h := by decide),
    unary_result_ne (x := main_c_7) (y := main_v33) (r := main_arg5) (h := by decide)]
  rw [nullary_result_ne (y := main_c_7) (r := main_arg5) (h := by decide),
    binary_result_ne (a := main_v3) (b := main_v31) (y := main_v32) (r := main_arg5) (h := by decide),
    unary_result_ne (x := main_c_6) (y := main_v31) (r := main_arg5) (h := by decide),
    nullary_result_ne (y := main_c_6) (r := main_arg5) (h := by decide)]

theorem keep1_arg6 : after (hostOps1 (F := Ideal)) W (Proc.devRef .tc main_arg6) = W (Proc.devRef .tc main_arg6) := by
  unfold hostOps1
  simp only [after_cons, after_nil]
  rw [ternary_result_ne (c := main_v41) (a := main_v42) (b := main_v40) (y := main_v43) (r := main_arg6) (h := by decide),
    unary_result_ne (x := main_v6) (y := main_v42) (r := main_arg6) (h := by decide),
    unary_result_ne (x := main_cst_8) (y := main_v41) (r := main_arg6) (h := by decide),
    nullary_result_ne (y := main_cst_8) (r := main_arg6) (h := by decide)]
  rw [binary_result_ne (a := main_v37) (b := main_v39) (y := main_v40) (r := main_arg6) (h := by decide),
    unary_result_ne (x := main_v38) (y := main_v39) (r := main_arg6) (h := by decide),
    unary_result_ne (x := main_v29) (y := main_v38) (r := main_arg6) (h := by decide),
    binary_result_ne (a := main_v30) (b := main_v36) (y := main_v37) (r := main_arg6) (h := by decide)]
  rw [unary_result_ne (x := main_v35) (y := main_v36) (r := main_arg6) (h := by decide),
    ternary_result_ne (c := main_v32) (a := main_v34) (b := main_v3) (y := main_v35) (r := main_arg6) (h := by decide),
    binary_result_ne (a := main_v3) (b := main_v33) (y := main_v34) (r := main_arg6) (h := by decide),
    unary_result_ne (x := main_c_7) (y := main_v33) (r := main_arg6) (h := by decide)]
  rw [nullary_result_ne (y := main_c_7) (r := main_arg6) (h := by decide),
    binary_result_ne (a := main_v3) (b := main_v31) (y := main_v32) (r := main_arg6) (h := by decide),
    unary_result_ne (x := main_c_6) (y := main_v31) (r := main_arg6) (h := by decide),
    nullary_result_ne (y := main_c_6) (r := main_arg6) (h := by decide)]

theorem keep1_arg7 : after (hostOps1 (F := Ideal)) W (Proc.devRef .tc main_arg7) = W (Proc.devRef .tc main_arg7) := by
  unfold hostOps1
  simp only [after_cons, after_nil]
  rw [ternary_result_ne (c := main_v41) (a := main_v42) (b := main_v40) (y := main_v43) (r := main_arg7) (h := by decide),
    unary_result_ne (x := main_v6) (y := main_v42) (r := main_arg7) (h := by decide),
    unary_result_ne (x := main_cst_8) (y := main_v41) (r := main_arg7) (h := by decide),
    nullary_result_ne (y := main_cst_8) (r := main_arg7) (h := by decide)]
  rw [binary_result_ne (a := main_v37) (b := main_v39) (y := main_v40) (r := main_arg7) (h := by decide),
    unary_result_ne (x := main_v38) (y := main_v39) (r := main_arg7) (h := by decide),
    unary_result_ne (x := main_v29) (y := main_v38) (r := main_arg7) (h := by decide),
    binary_result_ne (a := main_v30) (b := main_v36) (y := main_v37) (r := main_arg7) (h := by decide)]
  rw [unary_result_ne (x := main_v35) (y := main_v36) (r := main_arg7) (h := by decide),
    ternary_result_ne (c := main_v32) (a := main_v34) (b := main_v3) (y := main_v35) (r := main_arg7) (h := by decide),
    binary_result_ne (a := main_v3) (b := main_v33) (y := main_v34) (r := main_arg7) (h := by decide),
    unary_result_ne (x := main_c_7) (y := main_v33) (r := main_arg7) (h := by decide)]
  rw [nullary_result_ne (y := main_c_7) (r := main_arg7) (h := by decide),
    binary_result_ne (a := main_v3) (b := main_v31) (y := main_v32) (r := main_arg7) (h := by decide),
    unary_result_ne (x := main_c_6) (y := main_v31) (r := main_arg7) (h := by decide),
    nullary_result_ne (y := main_c_6) (r := main_arg7) (h := by decide)]

theorem keep3_v3 : after (hostOps3 (F := Ideal)) W (Proc.devRef .tc main_v3) = W (Proc.devRef .tc main_v3) := by
  unfold hostOps3
  simp only [after_cons, after_nil]
  rw [ternary_result_ne (c := main_v56) (a := main_v57) (b := main_v55) (y := main_v58) (r := main_v3) (h := by decide),
    unary_result_ne (x := main_v6) (y := main_v57) (r := main_v3) (h := by decide),
    unary_result_ne (x := main_cst_11) (y := main_v56) (r := main_v3) (h := by decide),
    nullary_result_ne (y := main_cst_11) (r := main_v3) (h := by decide)]
  rw [binary_result_ne (a := main_v52) (b := main_v54) (y := main_v55) (r := main_v3) (h := by decide),
    unary_result_ne (x := main_v53) (y := main_v54) (r := main_v3) (h := by decide),
    unary_result_ne (x := main_v29) (y := main_v53) (r := main_v3) (h := by decide),
    binary_result_ne (a := main_v45) (b := main_v51) (y := main_v52) (r := main_v3) (h := by decide)]
  rw [unary_result_ne (x := main_v50) (y := main_v51) (r := main_v3) (h := by decide),
    ternary_result_ne (c := main_v47) (a := main_v49) (b := main_v3) (y := main_v50) (r := main_v3) (h := by decide),
    binary_result_ne (a := main_v3) (b := main_v48) (y := main_v49) (r := main_v3) (h := by decide),
    unary_result_ne (x := main_c_10) (y := main_v48) (r := main_v3) (h := by decide)]
  rw [nullary_result_ne (y := main_c_10) (r := main_v3) (h := by decide),
    binary_result_ne (a := main_v3) (b := main_v46) (y := main_v47) (r := main_v3) (h := by decide),
    unary_result_ne (x := main_c_9) (y := main_v46) (r := main_v3) (h := by decide),
    nullary_result_ne (y := main_c_9) (r := main_v3) (h := by decide)]

theorem keep3_v6 : after (hostOps3 (F := Ideal)) W (Proc.devRef .tc main_v6) = W (Proc.devRef .tc main_v6) := by
  unfold hostOps3
  simp only [after_cons, after_nil]
  rw [ternary_result_ne (c := main_v56) (a := main_v57) (b := main_v55) (y := main_v58) (r := main_v6) (h := by decide),
    unary_result_ne (x := main_v6) (y := main_v57) (r := main_v6) (h := by decide),
    unary_result_ne (x := main_cst_11) (y := main_v56) (r := main_v6) (h := by decide),
    nullary_result_ne (y := main_cst_11) (r := main_v6) (h := by decide)]
  rw [binary_result_ne (a := main_v52) (b := main_v54) (y := main_v55) (r := main_v6) (h := by decide),
    unary_result_ne (x := main_v53) (y := main_v54) (r := main_v6) (h := by decide),
    unary_result_ne (x := main_v29) (y := main_v53) (r := main_v6) (h := by decide),
    binary_result_ne (a := main_v45) (b := main_v51) (y := main_v52) (r := main_v6) (h := by decide)]
  rw [unary_result_ne (x := main_v50) (y := main_v51) (r := main_v6) (h := by decide),
    ternary_result_ne (c := main_v47) (a := main_v49) (b := main_v3) (y := main_v50) (r := main_v6) (h := by decide),
    binary_result_ne (a := main_v3) (b := main_v48) (y := main_v49) (r := main_v6) (h := by decide),
    unary_result_ne (x := main_c_10) (y := main_v48) (r := main_v6) (h := by decide)]
  rw [nullary_result_ne (y := main_c_10) (r := main_v6) (h := by decide),
    binary_result_ne (a := main_v3) (b := main_v46) (y := main_v47) (r := main_v6) (h := by decide),
    unary_result_ne (x := main_c_9) (y := main_v46) (r := main_v6) (h := by decide),
    nullary_result_ne (y := main_c_9) (r := main_v6) (h := by decide)]

theorem keep3_v29 : after (hostOps3 (F := Ideal)) W (Proc.devRef .tc main_v29) = W (Proc.devRef .tc main_v29) := by
  unfold hostOps3
  simp only [after_cons, after_nil]
  rw [ternary_result_ne (c := main_v56) (a := main_v57) (b := main_v55) (y := main_v58) (r := main_v29) (h := by decide),
    unary_result_ne (x := main_v6) (y := main_v57) (r := main_v29) (h := by decide),
    unary_result_ne (x := main_cst_11) (y := main_v56) (r := main_v29) (h := by decide),
    nullary_result_ne (y := main_cst_11) (r := main_v29) (h := by decide)]
  rw [binary_result_ne (a := main_v52) (b := main_v54) (y := main_v55) (r := main_v29) (h := by decide),
    unary_result_ne (x := main_v53) (y := main_v54) (r := main_v29) (h := by decide),
    unary_result_ne (x := main_v29) (y := main_v53) (r := main_v29) (h := by decide),
    binary_result_ne (a := main_v45) (b := main_v51) (y := main_v52) (r := main_v29) (h := by decide)]
  rw [unary_result_ne (x := main_v50) (y := main_v51) (r := main_v29) (h := by decide),
    ternary_result_ne (c := main_v47) (a := main_v49) (b := main_v3) (y := main_v50) (r := main_v29) (h := by decide),
    binary_result_ne (a := main_v3) (b := main_v48) (y := main_v49) (r := main_v29) (h := by decide),
    unary_result_ne (x := main_c_10) (y := main_v48) (r := main_v29) (h := by decide)]
  rw [nullary_result_ne (y := main_c_10) (r := main_v29) (h := by decide),
    binary_result_ne (a := main_v3) (b := main_v46) (y := main_v47) (r := main_v29) (h := by decide),
    unary_result_ne (x := main_c_9) (y := main_v46) (r := main_v29) (h := by decide),
    nullary_result_ne (y := main_c_9) (r := main_v29) (h := by decide)]

theorem keep3_v44 : after (hostOps3 (F := Ideal)) W (Proc.devRef .tc main_v44) = W (Proc.devRef .tc main_v44) := by
  unfold hostOps3
  simp only [after_cons, after_nil]
  rw [ternary_result_ne (c := main_v56) (a := main_v57) (b := main_v55) (y := main_v58) (r := main_v44) (h := by decide),
    unary_result_ne (x := main_v6) (y := main_v57) (r := main_v44) (h := by decide),
    unary_result_ne (x := main_cst_11) (y := main_v56) (r := main_v44) (h := by decide),
    nullary_result_ne (y := main_cst_11) (r := main_v44) (h := by decide)]
  rw [binary_result_ne (a := main_v52) (b := main_v54) (y := main_v55) (r := main_v44) (h := by decide),
    unary_result_ne (x := main_v53) (y := main_v54) (r := main_v44) (h := by decide),
    unary_result_ne (x := main_v29) (y := main_v53) (r := main_v44) (h := by decide),
    binary_result_ne (a := main_v45) (b := main_v51) (y := main_v52) (r := main_v44) (h := by decide)]
  rw [unary_result_ne (x := main_v50) (y := main_v51) (r := main_v44) (h := by decide),
    ternary_result_ne (c := main_v47) (a := main_v49) (b := main_v3) (y := main_v50) (r := main_v44) (h := by decide),
    binary_result_ne (a := main_v3) (b := main_v48) (y := main_v49) (r := main_v44) (h := by decide),
    unary_result_ne (x := main_c_10) (y := main_v48) (r := main_v44) (h := by decide)]
  rw [nullary_result_ne (y := main_c_10) (r := main_v44) (h := by decide),
    binary_result_ne (a := main_v3) (b := main_v46) (y := main_v47) (r := main_v44) (h := by decide),
    unary_result_ne (x := main_c_9) (y := main_v46) (r := main_v44) (h := by decide),
    nullary_result_ne (y := main_c_9) (r := main_v44) (h := by decide)]

theorem keep3_arg5 : after (hostOps3 (F := Ideal)) W (Proc.devRef .tc main_arg5) = W (Proc.devRef .tc main_arg5) := by
  unfold hostOps3
  simp only [after_cons, after_nil]
  rw [ternary_result_ne (c := main_v56) (a := main_v57) (b := main_v55) (y := main_v58) (r := main_arg5) (h := by decide),
    unary_result_ne (x := main_v6) (y := main_v57) (r := main_arg5) (h := by decide),
    unary_result_ne (x := main_cst_11) (y := main_v56) (r := main_arg5) (h := by decide),
    nullary_result_ne (y := main_cst_11) (r := main_arg5) (h := by decide)]
  rw [binary_result_ne (a := main_v52) (b := main_v54) (y := main_v55) (r := main_arg5) (h := by decide),
    unary_result_ne (x := main_v53) (y := main_v54) (r := main_arg5) (h := by decide),
    unary_result_ne (x := main_v29) (y := main_v53) (r := main_arg5) (h := by decide),
    binary_result_ne (a := main_v45) (b := main_v51) (y := main_v52) (r := main_arg5) (h := by decide)]
  rw [unary_result_ne (x := main_v50) (y := main_v51) (r := main_arg5) (h := by decide),
    ternary_result_ne (c := main_v47) (a := main_v49) (b := main_v3) (y := main_v50) (r := main_arg5) (h := by decide),
    binary_result_ne (a := main_v3) (b := main_v48) (y := main_v49) (r := main_arg5) (h := by decide),
    unary_result_ne (x := main_c_10) (y := main_v48) (r := main_arg5) (h := by decide)]
  rw [nullary_result_ne (y := main_c_10) (r := main_arg5) (h := by decide),
    binary_result_ne (a := main_v3) (b := main_v46) (y := main_v47) (r := main_arg5) (h := by decide),
    unary_result_ne (x := main_c_9) (y := main_v46) (r := main_arg5) (h := by decide),
    nullary_result_ne (y := main_c_9) (r := main_arg5) (h := by decide)]

theorem keep3_arg6 : after (hostOps3 (F := Ideal)) W (Proc.devRef .tc main_arg6) = W (Proc.devRef .tc main_arg6) := by
  unfold hostOps3
  simp only [after_cons, after_nil]
  rw [ternary_result_ne (c := main_v56) (a := main_v57) (b := main_v55) (y := main_v58) (r := main_arg6) (h := by decide),
    unary_result_ne (x := main_v6) (y := main_v57) (r := main_arg6) (h := by decide),
    unary_result_ne (x := main_cst_11) (y := main_v56) (r := main_arg6) (h := by decide),
    nullary_result_ne (y := main_cst_11) (r := main_arg6) (h := by decide)]
  rw [binary_result_ne (a := main_v52) (b := main_v54) (y := main_v55) (r := main_arg6) (h := by decide),
    unary_result_ne (x := main_v53) (y := main_v54) (r := main_arg6) (h := by decide),
    unary_result_ne (x := main_v29) (y := main_v53) (r := main_arg6) (h := by decide),
    binary_result_ne (a := main_v45) (b := main_v51) (y := main_v52) (r := main_arg6) (h := by decide)]
  rw [unary_result_ne (x := main_v50) (y := main_v51) (r := main_arg6) (h := by decide),
    ternary_result_ne (c := main_v47) (a := main_v49) (b := main_v3) (y := main_v50) (r := main_arg6) (h := by decide),
    binary_result_ne (a := main_v3) (b := main_v48) (y := main_v49) (r := main_arg6) (h := by decide),
    unary_result_ne (x := main_c_10) (y := main_v48) (r := main_arg6) (h := by decide)]
  rw [nullary_result_ne (y := main_c_10) (r := main_arg6) (h := by decide),
    binary_result_ne (a := main_v3) (b := main_v46) (y := main_v47) (r := main_arg6) (h := by decide),
    unary_result_ne (x := main_c_9) (y := main_v46) (r := main_arg6) (h := by decide),
    nullary_result_ne (y := main_c_9) (r := main_arg6) (h := by decide)]

theorem keep3_arg7 : after (hostOps3 (F := Ideal)) W (Proc.devRef .tc main_arg7) = W (Proc.devRef .tc main_arg7) := by
  unfold hostOps3
  simp only [after_cons, after_nil]
  rw [ternary_result_ne (c := main_v56) (a := main_v57) (b := main_v55) (y := main_v58) (r := main_arg7) (h := by decide),
    unary_result_ne (x := main_v6) (y := main_v57) (r := main_arg7) (h := by decide),
    unary_result_ne (x := main_cst_11) (y := main_v56) (r := main_arg7) (h := by decide),
    nullary_result_ne (y := main_cst_11) (r := main_arg7) (h := by decide)]
  rw [binary_result_ne (a := main_v52) (b := main_v54) (y := main_v55) (r := main_arg7) (h := by decide),
    unary_result_ne (x := main_v53) (y := main_v54) (r := main_arg7) (h := by decide),
    unary_result_ne (x := main_v29) (y := main_v53) (r := main_arg7) (h := by decide),
    binary_result_ne (a := main_v45) (b := main_v51) (y := main_v52) (r := main_arg7) (h := by decide)]
  rw [unary_result_ne (x := main_v50) (y := main_v51) (r := main_arg7) (h := by decide),
    ternary_result_ne (c := main_v47) (a := main_v49) (b := main_v3) (y := main_v50) (r := main_arg7) (h := by decide),
    binary_result_ne (a := main_v3) (b := main_v48) (y := main_v49) (r := main_arg7) (h := by decide),
    unary_result_ne (x := main_c_10) (y := main_v48) (r := main_arg7) (h := by decide)]
  rw [nullary_result_ne (y := main_c_10) (r := main_arg7) (h := by decide),
    binary_result_ne (a := main_v3) (b := main_v46) (y := main_v47) (r := main_arg7) (h := by decide),
    unary_result_ne (x := main_c_9) (y := main_v46) (r := main_arg7) (h := by decide),
    nullary_result_ne (y := main_c_9) (r := main_arg7) (h := by decide)]

theorem keep5_v59 : after (hostOps5 (F := Ideal)) W (Proc.devRef .tc main_v59) = W (Proc.devRef .tc main_v59) := by
  unfold hostOps5
  simp only [after_cons, after_nil]
  rw [ternary_result_ne (c := main_v71) (a := main_v72) (b := main_v70) (y := main_v73) (r := main_v59) (h := by decide),
    unary_result_ne (x := main_v6) (y := main_v72) (r := main_v59) (h := by decide),
    unary_result_ne (x := main_cst_14) (y := main_v71) (r := main_v59) (h := by decide),
    nullary_result_ne (y := main_cst_14) (r := main_v59) (h := by decide)]
  rw [binary_result_ne (a := main_v67) (b := main_v69) (y := main_v70) (r := main_v59) (h := by decide),
    unary_result_ne (x := main_v68) (y := main_v69) (r := main_v59) (h := by decide),
    unary_result_ne (x := main_v29) (y := main_v68) (r := main_v59) (h := by decide),
    binary_result_ne (a := main_v60) (b := main_v66) (y := main_v67) (r := main_v59) (h := by decide)]
  rw [unary_result_ne (x := main_v65) (y := main_v66) (r := main_v59) (h := by decide),
    ternary_result_ne (c := main_v62) (a := main_v64) (b := main_v3) (y := main_v65) (r := main_v59) (h := by decide),
    binary_result_ne (a := main_v3) (b := main_v63) (y := main_v64) (r := main_v59) (h := by decide),
    unary_result_ne (x := main_c_13) (y := main_v63) (r := main_v59) (h := by decide)]
  rw [nullary_result_ne (y := main_c_13) (r := main_v59) (h := by decide),
    binary_result_ne (a := main_v3) (b := main_v61) (y := main_v62) (r := main_v59) (h := by decide),
    unary_result_ne (x := main_c_12) (y := main_v61) (r := main_v59) (h := by decide),
    nullary_result_ne (y := main_c_12) (r := main_v59) (h := by decide)]

theorem keep5_arg7 : after (hostOps5 (F := Ideal)) W (Proc.devRef .tc main_arg7) = W (Proc.devRef .tc main_arg7) := by
  unfold hostOps5
  simp only [after_cons, after_nil]
  rw [ternary_result_ne (c := main_v71) (a := main_v72) (b := main_v70) (y := main_v73) (r := main_arg7) (h := by decide),
    unary_result_ne (x := main_v6) (y := main_v72) (r := main_arg7) (h := by decide),
    unary_result_ne (x := main_cst_14) (y := main_v71) (r := main_arg7) (h := by decide),
    nullary_result_ne (y := main_cst_14) (r := main_arg7) (h := by decide)]
  rw [binary_result_ne (a := main_v67) (b := main_v69) (y := main_v70) (r := main_arg7) (h := by decide),
    unary_result_ne (x := main_v68) (y := main_v69) (r := main_arg7) (h := by decide),
    unary_result_ne (x := main_v29) (y := main_v68) (r := main_arg7) (h := by decide),
    binary_result_ne (a := main_v60) (b := main_v66) (y := main_v67) (r := main_arg7) (h := by decide)]
  rw [unary_result_ne (x := main_v65) (y := main_v66) (r := main_arg7) (h := by decide),
    ternary_result_ne (c := main_v62) (a := main_v64) (b := main_v3) (y := main_v65) (r := main_arg7) (h := by decide),
    binary_result_ne (a := main_v3) (b := main_v63) (y := main_v64) (r := main_arg7) (h := by decide),
    unary_result_ne (x := main_c_13) (y := main_v63) (r := main_arg7) (h := by decide)]
  rw [nullary_result_ne (y := main_c_13) (r := main_arg7) (h := by decide),
    binary_result_ne (a := main_v3) (b := main_v61) (y := main_v62) (r := main_arg7) (h := by decide),
    unary_result_ne (x := main_c_12) (y := main_v61) (r := main_arg7) (h := by decide),
    nullary_result_ne (y := main_c_12) (r := main_arg7) (h := by decide)]

end Cert.KernelIdeal.Stretch

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibStripDot.lean ====
/-
  A matrix product computed one strip of rows at a time.

  Row r of a product X · W depends only on row r of X. So if a block xb holds the rows o, o+1, …, o+m−1 of X
  and wb is all of W, the (p, q) entry of the block product xb · wb — as a tpu.matmul into the zero accumulator
  computes it — is the (o+p, q) entry of the whole product X · W — as the host's dot_general computes it: both
  are the sum over k of X (o+p, k) · W (k, q) on the extended reals. No finiteness is needed: the two sums have
  the same terms.
-/
import proofs.«116998_j46694884442219_1_alg».proof.Proof.LibPlainDot

noncomputable section

open scoped BigOperators

namespace Idealize.ShloMosaic.StripDot

open Idealize.ShloMosaic Idealize.ShloMosaic.ValueIdx

variable {m M K N : Nat}

/-- The block product of a strip of rows is that strip of the whole product, entry by entry. -/
theorem matmul_strip_apply {φ₁ φ₂ : FTy} (prec prec' : Option ContractPrecision) (sched : HostSchedule)
    (X : FVec Ideal ⟨2, ![M, K]⟩ φ₁) (W : FVec Ideal ⟨2, ![K, N]⟩ φ₂)
    (xb : FVec Ideal ⟨2, ![m, K]⟩ φ₁) (wb : FVec Ideal ⟨2, ![K, N]⟩ φ₂)
    (o : Nat) (ho : ∀ p : Fin m, o + p.val < M)
    (hx : ∀ (p : Fin m) (k : Fin K), xb (ix2 p k) = X (ix2 ⟨o + p.val, ho p⟩ k))
    (hw : ∀ (k : Fin K) (q : Fin N), wb (ix2 k q) = W (ix2 k q)) (p : Fin m) (q : Fin N) :
    FloatOps.matmul (DotDims.plain m K N) prec xb wb (constant ⟨2, ![m, N]⟩ .f32 0x00000000#32) (ix2 p q)
      = FloatOps.dotGeneral (DotDims.plain M K N) prec' sched X W (ix2 ⟨o + p.val, ho p⟩ q) := by
  rw [PlainDot.matmul_zero_apply, PlainDot.dotGeneral_apply]
  exact Finset.sum_congr rfl fun k _ => by rw [hx p k, hw k q]

end Idealize.ShloMosaic.StripDot

end
-- ==== Proof.DenseRegions.lean ====
/-
  The dense layers: each of the three matmul regions leaves, in its output array, the whole product of its two
  input arrays.

  A region runs at ten points. At point t it holds rows 5000·t … 5000·t + 4999 of the left matrix and all of the
  right one, multiplies them (the conversion of both operands to a shorter float format is the identity on the
  extended reals, and the product accumulates into zero), and writes the result back as rows 5000·t … of the
  output. Row r of a product depends on row r of the left matrix only, so the block written at t is block t of
  the whole product; the ten blocks are disjoint and cover the 50000 rows.
-/
import proofs.«116998_j46694884442219_1_alg».proof.Proof.Gen.KernelIdeal.Frame
import proofs.«116998_j46694884442219_1_alg».proof.Proof.LibStripDot
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

/-- The zero offsets of a rank-2 rectangle, however spelt. -/
theorem zeros2 : (![0, 0] : Fin 2 → Nat) = fun _ => 0 := funext fun a => by fin_cases a <;> rfl

variable (V : (c : Dev nD) → (b : Ref sig .tc) → Buf (Elt Ideal) ((c : Thread nD τ).loc b))

/-! ## Region 0: the rows of `main_arg0` times `main_arg2`, five thousand rows at a point -/

/-- The block product of a strip of rows, at (p, q), is the whole product at (o + p, q). -/
theorem dense0_block (X : FVec Ideal S50000x128 .f32) (W : FVec Ideal S128x128 .f32)
    (xb : Vec Ideal S5000x128 .f32) (wb : Vec Ideal S128x128 .f32) (o : Nat) (ho : o + 5000 ≤ 50000)
    (hx : ∀ (p : Fin 5000) (k : Fin 128), xb (ix2 p k) = X (ix2 ⟨o + p.val, by have := p.isLt; omega⟩ k))
    (hw : ∀ (k : Fin 128) (q : Fin 128), wb (ix2 k q) = W (ix2 k q))
    (j : S5000x128.Idx) (i : S50000x128.Idx) (hi0 : (i 0).val = o + (j 0).val) (hi1 : (i 1).val = (j 1).val) :
    k0_pay1 (F := Ideal) xb wb j = Host.dotGeneral (F := Ideal) (DotDims.plain 50000 128 128) none X W i := by
  obtain ⟨p, q, rfl⟩ : ∃ (p : Fin 5000) (q : Fin 128), j = ix2 p q := ⟨j 0, j 1, eq_ix2 j⟩
  have hi : i = ix2 ⟨o + p.val, by have := p.isLt; omega⟩ q := by
    funext a; apply Fin.ext
    match a with
    | ⟨0, _⟩ => exact hi0
    | ⟨1, _⟩ => exact hi1
  rw [hi]
  unfold k0_pay1
  exact StripDot.matmul_strip_apply (m := 5000) (M := 50000) (K := 128) (N := 128) none none .single X W _ _ o
    (fun p => by have := p.isLt; omega) hx hw p q

/-- Where the three windows' blocks sit at point `t`: the row blocks `t` of the input and of the output, all of the weights. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the region's two input arrays. -/
theorem flushed0 (c : Dev nD) (t : Fin cfg0.N) :
    (dat0 V c).flushed 2 t = ((cfg0.win 2).blk t).view.read (Elt Ideal)
      (Host.dotGeneral (F := Ideal) (φ₁ := .f32) (φ₂ := .f32) (DotDims.plain 50000 128 128) none (V c main_arg0) (V c main_arg2)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  obtain ⟨e00, e01, e10, e11, e20, e21⟩ := where0 t
  have ht : t.val < 10 := lt_of_lt_of_eq t.isLt N_0
  funext j
  refine dense0_block (V c main_arg0) (V c main_arg2) (iblk0 V c 0 t) (iblk0 V c 1 t) (t.val * 5000) (by omega) ?_ ?_ j
    (((cfg0.win 2).blk t).view.emb j) ?_ ?_
  · intro p k
    show V c main_arg0 (((cfg0.win 0).blk t).view.emb (ix2 p k)) = V c main_arg0 _
    congr 1
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k q
    show V c main_arg2 (((cfg0.win 1).blk t).view.emb (ix2 k q)) = V c main_arg2 _
    congr 1
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 5000 + 1 * (j 0).val = t.val * 5000 + (j 0).val; omega
  · show win0_2.index t (1 : Fin 2) * 128 + 1 * (j 1).val = (j 1).val; omega

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten row blocks cover the output array: row r is in block r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := lt_of_lt_of_eq (show (i 0).val / 5000 < 10 by omega) N_0.symm
  refine ⟨⟨(i 0).val / 5000, hN⟩, flush0_2 _, ?_⟩
  obtain ⟨-, -, -, -, e20, e21⟩ := where0 ⟨(i 0).val / 5000, hN⟩
  have e20' : win0_2.index ⟨(i 0).val / 5000, hN⟩ (0 : Fin 2) = (i 0).val / 5000 := e20
  rw [mem_blk0]
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; omega
  | ⟨1, _⟩ => show win0_2.index ⟨(i 0).val / 5000, hN⟩ (1 : Fin 2) * 128 ≤ (i 1).val ∧ (i 1).val < win0_2.index ⟨(i 0).val / 5000, hN⟩ (1 : Fin 2) * 128 + 128; omega

/-- After the region its output array is the whole product of its two input arrays. -/
theorem whole0 (c : Dev nD) :
    (dat0 V c).arrAt 2 cfg0.N = Host.dotGeneral (F := Ideal) (φ₁ := .f32) (φ₂ := .f32) (DotDims.plain 50000 128 128) none (V c main_arg0) (V c main_arg2) :=
  (dat0 V c).arrAt_eq_of_cover 2 _ (fun t _ => flushed0 V c t) cover0

/-! ## Region 2: the rows of `main_v44` times `main_arg4`, five thousand rows at a point -/

/-- The block product of a strip of rows, at (p, q), is the whole product at (o + p, q). -/
theorem dense2_block (X : FVec Ideal S50000x128 .f32) (W : FVec Ideal S128x64 .f32)
    (xb : Vec Ideal S5000x128 .f32) (wb : Vec Ideal S128x64 .f32) (o : Nat) (ho : o + 5000 ≤ 50000)
    (hx : ∀ (p : Fin 5000) (k : Fin 128), xb (ix2 p k) = X (ix2 ⟨o + p.val, by have := p.isLt; omega⟩ k))
    (hw : ∀ (k : Fin 128) (q : Fin 64), wb (ix2 k q) = W (ix2 k q))
    (j : S5000x64.Idx) (i : S50000x64.Idx) (hi0 : (i 0).val = o + (j 0).val) (hi1 : (i 1).val = (j 1).val) :
    k2_pay1 (F := Ideal) xb wb j = Host.dotGeneral (F := Ideal) (DotDims.plain 50000 128 64) none X W i := by
  obtain ⟨p, q, rfl⟩ : ∃ (p : Fin 5000) (q : Fin 64), j = ix2 p q := ⟨j 0, j 1, eq_ix2 j⟩
  have hi : i = ix2 ⟨o + p.val, by have := p.isLt; omega⟩ q := by
    funext a; apply Fin.ext
    match a with
    | ⟨0, _⟩ => exact hi0
    | ⟨1, _⟩ => exact hi1
  rw [hi]
  unfold k2_pay1
  rw [shapeCast_self]
  exact StripDot.matmul_strip_apply (m := 5000) (M := 50000) (K := 128) (N := 64) none none .single X W _ _ o
    (fun p => by have := p.isLt; omega) hx hw p q

/-- Where the three windows' blocks sit at point `t`: the row blocks `t` of the input and of the output, all of the weights. -/
theorem where2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the region's two input arrays. -/
theorem flushed2 (c : Dev nD) (t : Fin cfg2.N) :
    (dat2 V c).flushed 2 t = ((cfg2.win 2).blk t).view.read (Elt Ideal)
      (Host.dotGeneral (F := Ideal) (φ₁ := .f32) (φ₂ := .f32) (DotDims.plain 50000 128 64) none (V c main_v44) (V c main_arg4)) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128x64) zeros2]
  obtain ⟨e00, e01, e10, e11, e20, e21⟩ := where2 t
  have ht : t.val < 10 := lt_of_lt_of_eq t.isLt N_2
  funext j
  refine dense2_block (V c main_v44) (V c main_arg4) (iblk2 V c 0 t) (iblk2 V c 1 t) (t.val * 5000) (by omega) ?_ ?_ j
    (((cfg2.win 2).blk t).view.emb j) ?_ ?_
  · intro p k
    show V c main_v44 (((cfg2.win 0).blk t).view.emb (ix2 p k)) = V c main_v44 _
    congr 1
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k q
    show V c main_arg4 (((cfg2.win 1).blk t).view.emb (ix2 k q)) = V c main_arg4 _
    congr 1
    funext a; apply Fin.ext
    match a with
    | ⟨0, _⟩ => show win2_1.index t (0 : Fin 2) * 128 + 1 * k.val = k.val; omega
    | ⟨1, _⟩ => show win2_1.index t (1 : Fin 2) * 64 + 1 * q.val = q.val; omega
  · show win2_2.index t (0 : Fin 2) * 5000 + 1 * (j 0).val = t.val * 5000 + (j 0).val; omega
  · show win2_2.index t (1 : Fin 2) * 64 + 1 * (j 1).val = (j 1).val; omega

/-- An index of the output array is in point `t`'s block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- The ten row blocks cover the output array: row r is in block r / 5000. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : (i 0).val / 5000 < cfg2.N := lt_of_lt_of_eq (show (i 0).val / 5000 < 10 by omega) N_2.symm
  refine ⟨⟨(i 0).val / 5000, hN⟩, flush2_2 _, ?_⟩
  obtain ⟨-, -, -, -, e20, e21⟩ := where2 ⟨(i 0).val / 5000, hN⟩
  have e20' : win2_2.index ⟨(i 0).val / 5000, hN⟩ (0 : Fin 2) = (i 0).val / 5000 := e20
  rw [mem_blk2]
  intro a
  match a with
  | ⟨0, _⟩ => show win2_2.index ⟨(i 0).val / 5000, hN⟩ (0 : Fin 2) * 5000 ≤ (i 0).val ∧ (i 0).val < win2_2.index ⟨(i 0).val / 5000, hN⟩ (0 : Fin 2) * 5000 + 5000; omega
  | ⟨1, _⟩ => show win2_2.index ⟨(i 0).val / 5000, hN⟩ (1 : Fin 2) * 64 ≤ (i 1).val ∧ (i 1).val < win2_2.index ⟨(i 0).val / 5000, hN⟩ (1 : Fin 2) * 64 + 64; omega

/-- After the region its output array is the whole product of its two input arrays. -/
theorem whole2 (c : Dev nD) :
    (dat2 V c).arrAt 2 cfg2.N = Host.dotGeneral (F := Ideal) (φ₁ := .f32) (φ₂ := .f32) (DotDims.plain 50000 128 64) none (V c main_v44) (V c main_arg4) :=
  (dat2 V c).arrAt_eq_of_cover 2 _ (fun t _ => flushed2 V c t) cover2

/-! ## Region 4: the rows of `main_v44` times `main_arg6`, five thousand rows at a point -/

/-- The block product of a strip of rows, at (p, q), is the whole product at (o + p, q). -/
theorem dense4_block (X : FVec Ideal S50000x128 .f32) (W : FVec Ideal S128x64 .f32)
    (xb : Vec Ideal S5000x128 .f32) (wb : Vec Ideal S128x64 .f32) (o : Nat) (ho : o + 5000 ≤ 50000)
    (hx : ∀ (p : Fin 5000) (k : Fin 128), xb (ix2 p k) = X (ix2 ⟨o + p.val, by have := p.isLt; omega⟩ k))
    (hw : ∀ (k : Fin 128) (q : Fin 64), wb (ix2 k q) = W (ix2 k q))
    (j : S5000x64.Idx) (i : S50000x64.Idx) (hi0 : (i 0).val = o + (j 0).val) (hi1 : (i 1).val = (j 1).val) :
    k4_pay1 (F := Ideal) xb wb j = Host.dotGeneral (F := Ideal) (DotDims.plain 50000 128 64) none X W i := by
  obtain ⟨p, q, rfl⟩ : ∃ (p : Fin 5000) (q : Fin 64), j = ix2 p q := ⟨j 0, j 1, eq_ix2 j⟩
  have hi : i = ix2 ⟨o + p.val, by have := p.isLt; omega⟩ q := by
    funext a; apply Fin.ext
    match a with
    | ⟨0, _⟩ => exact hi0
    | ⟨1, _⟩ => exact hi1
  rw [hi]
  unfold k4_pay1
  rw [shapeCast_self]
  exact StripDot.matmul_strip_apply (m := 5000) (M := 50000) (K := 128) (N := 64) none none .single X W _ _ o
    (fun p => by have := p.isLt; omega) hx hw p q

/-- Where the three windows' blocks sit at point `t`: the row blocks `t` of the input and of the output, all of the weights. -/
theorem where4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole product of the region's two input arrays. -/
theorem flushed4 (c : Dev nD) (t : Fin cfg4.N) :
    (dat4 V c).flushed 2 t = ((cfg4.win 2).blk t).view.read (Elt Ideal)
      (Host.dotGeneral (F := Ideal) (φ₁ := .f32) (φ₂ := .f32) (DotDims.plain 50000 128 64) none (V c main_v44) (V c main_arg6)) := by
  show (cfg4.win 2).cut (grid4.coords t) ((dat4 V c).after 2 t) = _
  rw [after4_2]
  unfold out4_2
  rw [View.canon_unit_zero zeros2]
  simp only [View.ld_unit_zero (S := S5000x128) zeros2, View.ld_unit_zero (S := S128x64) zeros2]
  obtain ⟨e00, e01, e10, e11, e20, e21⟩ := where4 t
  have ht : t.val < 10 := lt_of_lt_of_eq t.isLt N_4
  funext j
  refine dense4_block (V c main_v44) (V c main_arg6) (iblk4 V c 0 t) (iblk4 V c 1 t) (t.val * 5000) (by omega) ?_ ?_ j
    (((cfg4.win 2).blk t).view.emb j) ?_ ?_
  · intro p k
    show V c main_v44 (((cfg4.win 0).blk t).view.emb (ix2 p k)) = V c main_v44 _
    congr 1
    funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  · intro k q
    show V c main_arg6 (((cfg4.win 1).blk t).view.emb (ix2 k q)) = V c main_arg6 _
    congr 1
    funext a; apply Fin.ext
    match a with
    | ⟨0, _⟩ => show win4_1.index t (0 : Fin 2) * 128 + 1 * k.val = k.val; omega
    | ⟨1, _⟩ => show win4_1.index t (1 : Fin 2) * 64 + 1 * q.val = q.val; omega
  · show win4_2.index t (0 : Fin 2) * 5000 + 1 * (j 0).val = t.val * 5000 + (j 0).val; omega
  · show win4_2.index t (1 : Fin 2) * 64 + 1 * (j 1).val = (j 1).val; omega

/-- An index of the output array is in point `t`'s block iff each coordinate is in the block's range on its axis. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v60).slice (win4_2.rect t)).set ↔ _
  rw [View.set_slice_whole, Rect.mem_set_unit]
  exact Iff.rfl

/-- The ten row blocks cover the output array: row r is in block r / 5000. -/
theorem cover4 (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have hN : (i 0).val / 5000 < cfg4.N := lt_of_lt_of_eq (show (i 0).val / 5000 < 10 by omega) N_4.symm
  refine ⟨⟨(i 0).val / 5000, hN⟩, flush4_2 _, ?_⟩
  obtain ⟨-, -, -, -, e20, e21⟩ := where4 ⟨(i 0).val / 5000, hN⟩
  have e20' : win4_2.index ⟨(i 0).val / 5000, hN⟩ (0 : Fin 2) = (i 0).val / 5000 := e20
  rw [mem_blk4]
  intro a
  match a with
  | ⟨0, _⟩ => show win4_2.index ⟨(i 0).val / 5000, hN⟩ (0 : Fin 2) * 5000 ≤ (i 0).val ∧ (i 0).val < win4_2.index ⟨(i 0).val / 5000, hN⟩ (0 : Fin 2) * 5000 + 5000; omega
  | ⟨1, _⟩ => show win4_2.index ⟨(i 0).val / 5000, hN⟩ (1 : Fin 2) * 64 ≤ (i 1).val ∧ (i 1).val < win4_2.index ⟨(i 0).val / 5000, hN⟩ (1 : Fin 2) * 64 + 64; omega

/-- After the region its output array is the whole product of its two input arrays. -/
theorem whole4 (c : Dev nD) :
    (dat4 V c).arrAt 2 cfg4.N = Host.dotGeneral (F := Ideal) (φ₁ := .f32) (φ₂ := .f32) (DotDims.plain 50000 128 64) none (V c main_v44) (V c main_arg6) :=
  (dat4 V c).arrAt_eq_of_cover 2 _ (fun t _ => flushed4 V c t) cover4

end Cert.KernelIdeal.Whole

end
-- ==== Proof.BiasRegions.lean ====
/-
  The bias passes: each of the three elementwise regions leaves, in its output array, its input array with the
  bias added to every row (and, in the first layer, clamped at 0 from below).

  A region runs at ten points. At point t it holds rows 5000·t … 5000·t + 4999 of the input and all of the bias,
  lays the bias out as one row, spreads that row over the 5000 rows, adds, and writes the result back as the
  same rows of the output. Entry (r, q) of the output therefore depends on entry (r, q) of the input and entry
  q of the bias only; the ten blocks are disjoint and cover the 50000 rows.
-/
import proofs.«116998_j46694884442219_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Rows

open Cert.KernelIdeal Cert.KernelIdeal.Gen Idealize.ShloMosaic Idealize.ShloMosaic.TcCoe Idealize.SL.Sem Idealize.ShloMosaic.ValueIdx
open Idealize.ShloMosaic.Pipeline (Dat)

/-- The zero offsets of a rank-2 and of a rank-1 rectangle, however spelt. -/
theorem zeros2 : (![0, 0] : Fin 2 → Nat) = fun _ => 0 := funext fun a => by fin_cases a <;> rfl
theorem zeros1 : (![0] : Fin 1 → Nat) = fun _ => 0 := funext fun a => by fin_cases a; rfl

variable (V : (c : Dev nD) → (b : Ref sig .tc) → Buf (Elt Ideal) ((c : Thread nD τ).loc b))

/-- A bias of 128 entries added to every row of a 50000 × 128 array, then the clamp at 0 from below. -/
def clampRows128 (A : FVec Ideal S50000x128 .f32) (b : FVec Ideal S128 .f32) : FVec Ideal S50000x128 .f32 :=
  fun i => max (A i + b (ix1 (i 1))) (Ideal.ofBits .f32 0x00000000#32)

/-- A bias of 64 entries added to every row of a 50000 × 64 array. -/
def addRow64 (A : FVec Ideal S50000x64 .f32) (b : FVec Ideal S64 .f32) : FVec Ideal S50000x64 .f32 :=
  fun i => A i + b (ix1 (i 1))

/-! ## Region 1: the bias of 128 entries added to every row, then the clamp at 0, five thousand rows at a point -/

/-- The body's result at an entry of its block: the entry plus the bias of its column, clamped at 0. -/
theorem bias1_block (A : FVec Ideal S50000x128 .f32) (b : FVec Ideal S128 .f32)
    (xb : Vec Ideal S5000x128 .f32) (bb : Vec Ideal S128 .f32) (j : S5000x128.Idx) (i : S50000x128.Idx)
    (hx : xb j = A i) (hb : bb (ix1 (j 1)) = b (ix1 (i 1))) :
    k1_pay1 (F := Ideal) xb bb j = max (A i + b (ix1 (i 1))) (Ideal.ofBits .f32 0x00000000#32) := by
  obtain ⟨p, q, rfl⟩ : ∃ (p : Fin 5000) (q : Fin 128), j = ix2 p q := ⟨j 0, j 1, eq_ix2 j⟩
  unfold k1_pay1
  show FloatOps.maximumf (F := Ideal) (FloatOps.addf (F := Ideal) (shapeCast S5000x128 xb shapeCasts_S5000x128_S5000x128 (ix2 p q))
      (broadcastTo S5000x128 (shapeCast S1x128 (shapeCast S1x128 bb shapeCasts_S128_S1x128) shapeCasts_S1x128_S1x128) broadcasts_S1x128_S5000x128 (ix2 p q)))
      (Ideal.ofBits .f32 0x00000000#32) = _
  rw [shapeCast_self, broadcastTo_1b_ab_apply, shapeCast_self, shapeCast_a_1a_apply, hx]
  have hb' : bb (ix1 q) = b (ix1 (i 1)) := hb
  rw [hb']
  rfl

/-- Where the three windows' blocks sit at point `t`: the row blocks `t` of the input and of the output, all of the bias. -/
theorem where1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point `t` writes back is block `t` of the biased, clamped array. -/
theorem flushed1 (c : Dev nD) (t : Fin cfg1.N) :
    (dat1 V c).flushed 2 t = ((cfg1.win 2).blk t).view.read (Elt Ideal)
      (clampRows128 (V c main_v43) (V c main_arg3)) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S128) zeros1]
  obtain ⟨e00, e01, e10, e20, e21⟩ := where1 t
  funext j
  refine bias1_block (V c main_v43) (V c main_arg3) (iblk1 V c 0 t) (iblk1 V c 1 t) j
    (((cfg1.win 2).blk t).view.emb j) ?_ ?_
  · show V c main_v43 (((cfg1.win 0).blk t).view.emb j) = V c main_v43 (((cfg1.win 2).blk t).view.emb j)
    congr 1
  · show V c main_arg3 (((cfg1.win 1).blk t).view.emb (ix1 (j 1))) = V c main_arg3 (ix1 ((((cfg1.win 2).blk t).view.emb j) 1))
    congr 1
    funext a; apply Fin.ext
    match a with
    | ⟨0, _⟩ => show win1_1.index t (0 : Fin 1) * 128 + 1 * (j 1).val = win1_2.index t (1 : Fin 2) * 128 + 1 * (j 1).val; omega

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- The ten row blocks cover the output array: row r is in block r / 5000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : (i 0).val / 5000 < cfg1.N := lt_of_lt_of_eq (show (i 0).val / 5000 < 10 by omega) N_1.symm
  refine ⟨⟨(i 0).val / 5000, hN⟩, flush1_2 _, ?_⟩
  obtain ⟨-, -, -, e20, e21⟩ := where1 ⟨(i 0).val / 5000, hN⟩
  have e20' : win1_2.index ⟨(i 0).val / 5000, hN⟩ (0 : Fin 2) = (i 0).val / 5000 := e20
  rw [mem_blk1]
  intro a
  match a with
  | ⟨0, _⟩ => show win1_2.index ⟨(i 0).val / 5000, hN⟩ (0 : Fin 2) * 5000 ≤ (i 0).val ∧ (i 0).val < win1_2.index ⟨(i 0).val / 5000, hN⟩ (0 : Fin 2) * 5000 + 5000; omega
  | ⟨1, _⟩ => show win1_2.index ⟨(i 0).val / 5000, hN⟩ (1 : Fin 2) * 128 ≤ (i 1).val ∧ (i 1).val < win1_2.index ⟨(i 0).val / 5000, hN⟩ (1 : Fin 2) * 128 + 128; omega

/-- After the region its output array is its input array with the bias added to every row and clamped at 0. -/
theorem whole1 (c : Dev nD) :
    (dat1 V c).arrAt 2 cfg1.N = (clampRows128 (V c main_v43) (V c main_arg3)) :=
  (dat1 V c).arrAt_eq_of_cover 2 _ (fun t _ => flushed1 V c t) cover1

/-! ## Region 3: the bias of 64 entries added to every row, five thousand rows at a point -/

/-- The body's result at an entry of its block: the entry plus the bias of its column. -/
theorem bias3_block (A : FVec Ideal S50000x64 .f32) (b : FVec Ideal S64 .f32)
    (xb : Vec Ideal S5000x64 .f32) (bb : Vec Ideal S64 .f32) (j : S5000x64.Idx) (i : S50000x64.Idx)
    (hx : xb j = A i) (hb : bb (ix1 (j 1)) = b (ix1 (i 1))) :
    k3_pay1 (F := Ideal) xb bb j = A i + b (ix1 (i 1)) := by
  obtain ⟨p, q, rfl⟩ : ∃ (p : Fin 5000) (q : Fin 64), j = ix2 p q := ⟨j 0, j 1, eq_ix2 j⟩
  unfold k3_pay1
  show FloatOps.addf (F := Ideal) (shapeCast S5000x64 xb shapeCasts_S5000x64_S5000x64 (ix2 p q))
      (broadcastTo S5000x64 (shapeCast S1x64 (shapeCast S1x64 bb shapeCasts_S64_S1x64) shapeCasts_S1x64_S1x64) broadcasts_S1x64_S5000x64 (ix2 p q)) = _
  rw [shapeCast_self, broadcastTo_1b_ab_apply, shapeCast_self, shapeCast_a_1a_apply, hx]
  have hb' : bb (ix1 q) = b (ix1 (i 1)) := hb
  rw [hb']
  rfl

/-- Where the three windows' blocks sit at point `t`: the row blocks `t` of the input and of the output, all of the bias. -/
theorem where3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point `t` writes back is block `t` of the biased array. -/
theorem flushed3 (c : Dev nD) (t : Fin cfg3.N) :
    (dat3 V c).flushed 2 t = ((cfg3.win 2).blk t).view.read (Elt Ideal)
      (addRow64 (V c main_v58) (V c main_arg5)) := by
  show (cfg3.win 2).cut (grid3.coords t) ((dat3 V c).after 2 t) = _
  rw [after3_2]
  unfold out3_2
  rw [View.canon_unit_zero zeros2]
  simp only [View.ld_unit_zero (S := S5000x64) zeros2, View.ld_unit_zero (S := S64) zeros1]
  obtain ⟨e00, e01, e10, e20, e21⟩ := where3 t
  funext j
  refine bias3_block (V c main_v58) (V c main_arg5) (iblk3 V c 0 t) (iblk3 V c 1 t) j
    (((cfg3.win 2).blk t).view.emb j) ?_ ?_
  · show V c main_v58 (((cfg3.win 0).blk t).view.emb j) = V c main_v58 (((cfg3.win 2).blk t).view.emb j)
    congr 1
  · show V c main_arg5 (((cfg3.win 1).blk t).view.emb (ix1 (j 1))) = V c main_arg5 (ix1 ((((cfg3.win 2).blk t).view.emb j) 1))
    congr 1
    funext a; apply Fin.ext
    match a with
    | ⟨0, _⟩ => show win3_1.index t (0 : Fin 1) * 64 + 1 * (j 1).val = win3_2.index t (1 : Fin 2) * 64 + 1 * (j 1).val; omega

/-- An index of the output array is in point `t`'s block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v59).slice (win3_2.rect t)).set ↔ _
  rw [View.set_slice_whole, Rect.mem_set_unit]
  exact Iff.rfl

/-- The ten row blocks cover the output array: row r is in block r / 5000. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : (i 0).val / 5000 < cfg3.N := lt_of_lt_of_eq (show (i 0).val / 5000 < 10 by omega) N_3.symm
  refine ⟨⟨(i 0).val / 5000, hN⟩, flush3_2 _, ?_⟩
  obtain ⟨-, -, -, e20, e21⟩ := where3 ⟨(i 0).val / 5000, hN⟩
  have e20' : win3_2.index ⟨(i 0).val / 5000, hN⟩ (0 : Fin 2) = (i 0).val / 5000 := e20
  rw [mem_blk3]
  intro a
  match a with
  | ⟨0, _⟩ => show win3_2.index ⟨(i 0).val / 5000, hN⟩ (0 : Fin 2) * 5000 ≤ (i 0).val ∧ (i 0).val < win3_2.index ⟨(i 0).val / 5000, hN⟩ (0 : Fin 2) * 5000 + 5000; omega
  | ⟨1, _⟩ => show win3_2.index ⟨(i 0).val / 5000, hN⟩ (1 : Fin 2) * 64 ≤ (i 1).val ∧ (i 1).val < win3_2.index ⟨(i 0).val / 5000, hN⟩ (1 : Fin 2) * 64 + 64; omega

/-- After the region its output array is its input array with the bias added to every row. -/
theorem whole3 (c : Dev nD) :
    (dat3 V c).arrAt 2 cfg3.N = (addRow64 (V c main_v58) (V c main_arg5)) :=
  (dat3 V c).arrAt_eq_of_cover 2 _ (fun t _ => flushed3 V c t) cover3

/-! ## Region 5: the bias of 64 entries added to every row, five thousand rows at a point -/

/-- The body's result at an entry of its block: the entry plus the bias of its column. -/
theorem bias5_block (A : FVec Ideal S50000x64 .f32) (b : FVec Ideal S64 .f32)
    (xb : Vec Ideal S5000x64 .f32) (bb : Vec Ideal S64 .f32) (j : S5000x64.Idx) (i : S50000x64.Idx)
    (hx : xb j = A i) (hb : bb (ix1 (j 1)) = b (ix1 (i 1))) :
    k5_pay1 (F := Ideal) xb bb j = A i + b (ix1 (i 1)) := by
  obtain ⟨p, q, rfl⟩ : ∃ (p : Fin 5000) (q : Fin 64), j = ix2 p q := ⟨j 0, j 1, eq_ix2 j⟩
  unfold k5_pay1
  show FloatOps.addf (F := Ideal) (shapeCast S5000x64 xb shapeCasts_S5000x64_S5000x64 (ix2 p q))
      (broadcastTo S5000x64 (shapeCast S1x64 (shapeCast S1x64 bb shapeCasts_S64_S1x64) shapeCasts_S1x64_S1x64) broadcasts_S1x64_S5000x64 (ix2 p q)) = _
  rw [shapeCast_self, broadcastTo_1b_ab_apply, shapeCast_self, shapeCast_a_1a_apply, hx]
  have hb' : bb (ix1 q) = b (ix1 (i 1)) := hb
  rw [hb']
  rfl

/-- Where the three windows' blocks sit at point `t`: the row blocks `t` of the input and of the output, all of the bias. -/
theorem where5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- What point `t` writes back is block `t` of the biased array. -/
theorem flushed5 (c : Dev nD) (t : Fin cfg5.N) :
    (dat5 V c).flushed 2 t = ((cfg5.win 2).blk t).view.read (Elt Ideal)
      (addRow64 (V c main_v73) (V c main_arg7)) := by
  show (cfg5.win 2).cut (grid5.coords t) ((dat5 V c).after 2 t) = _
  rw [after5_2]
  unfold out5_2
  rw [View.canon_unit_zero zeros2]
  simp only [View.ld_unit_zero (S := S5000x64) zeros2, View.ld_unit_zero (S := S64) zeros1]
  obtain ⟨e00, e01, e10, e20, e21⟩ := where5 t
  funext j
  refine bias5_block (V c main_v73) (V c main_arg7) (iblk5 V c 0 t) (iblk5 V c 1 t) j
    (((cfg5.win 2).blk t).view.emb j) ?_ ?_
  · show V c main_v73 (((cfg5.win 0).blk t).view.emb j) = V c main_v73 (((cfg5.win 2).blk t).view.emb j)
    congr 1
  · show V c main_arg7 (((cfg5.win 1).blk t).view.emb (ix1 (j 1))) = V c main_arg7 (ix1 ((((cfg5.win 2).blk t).view.emb j) 1))
    congr 1
    funext a; apply Fin.ext
    match a with
    | ⟨0, _⟩ => show win5_1.index t (0 : Fin 1) * 64 + 1 * (j 1).val = win5_2.index t (1 : Fin 2) * 64 + 1 * (j 1).val; omega

/-- An index of the output array is in point `t`'s block iff each coordinate is in the block's range on its axis. -/
theorem mem_blk5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v74).slice (win5_2.rect t)).set ↔ _
  rw [View.set_slice_whole, Rect.mem_set_unit]
  exact Iff.rfl

/-- The ten row blocks cover the output array: row r is in block r / 5000. -/
theorem cover5 (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  have hN : (i 0).val / 5000 < cfg5.N := lt_of_lt_of_eq (show (i 0).val / 5000 < 10 by omega) N_5.symm
  refine ⟨⟨(i 0).val / 5000, hN⟩, flush5_2 _, ?_⟩
  obtain ⟨-, -, -, e20, e21⟩ := where5 ⟨(i 0).val / 5000, hN⟩
  have e20' : win5_2.index ⟨(i 0).val / 5000, hN⟩ (0 : Fin 2) = (i 0).val / 5000 := e20
  rw [mem_blk5]
  intro a
  match a with
  | ⟨0, _⟩ => show win5_2.index ⟨(i 0).val / 5000, hN⟩ (0 : Fin 2) * 5000 ≤ (i 0).val ∧ (i 0).val < win5_2.index ⟨(i 0).val / 5000, hN⟩ (0 : Fin 2) * 5000 + 5000; omega
  | ⟨1, _⟩ => show win5_2.index ⟨(i 0).val / 5000, hN⟩ (1 : Fin 2) * 64 ≤ (i 1).val ∧ (i 1).val < win5_2.index ⟨(i 0).val / 5000, hN⟩ (1 : Fin 2) * 64 + 64; omega

/-- After the region its output array is its input array with the bias added to every row. -/
theorem whole5 (c : Dev nD) :
    (dat5 V c).arrAt 2 cfg5.N = (addRow64 (V c main_v73) (V c main_arg7)) :=
  (dat5 V c).arrAt_eq_of_cover 2 _ (fun t _ => flushed5 V c t) cover5

end Cert.KernelIdeal.Rows

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.LibRowCast.lean ====
/-
  A vector laid out as a one-row matrix: the reshape and the broadcast along axis 1 are the same array.

  Both place entry j of a vector of n entries at (0, j) of a 1 × n matrix.
-/
import Idealize.ShloMosaic.Lib.Pipeline.Value
import Idealize.ShloMosaic.Lib.ValueIdx

noncomputable section

namespace Idealize.ShloMosaic.RowCast

open Idealize.ShloMosaic Idealize.ShloMosaic.ValueIdx

variable {n : Nat} {α : Type}

/-- A vector reshaped to one row is the vector broadcast along axis 1 of a one-row matrix. -/
theorem shapeCast_row_eq_broadcastInDim (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ix1 (i 1 : Fin n)) (by
    rw [Shape.rowMajor_val_two, Shape.rowMajor_val_one]
    have h0 : (i 0).val < 1 := (i 0).isLt
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Idealize.ShloMosaic.RowCast

end
-- ==== Proof.GlueAt.lean ====
/-
  The dense layer, the bias and the clamp of the pipeline, as the regions leave them.

  A region's output array was read as the whole product of two arrays (plain dimension numbers), or as an array
  with a bias added to every row and, in the first layer, clamped at 0. These are the pipeline's own dense layer,
  bias and clamp: the product is the same operation with the same dimension numbers, and the host lays a bias
  out as one row and spreads it over the rows, which reads entry q of the bias at every (r, q).
-/
import proofs.«116998_j46694884442219_1_alg».proof.Proof.Glue
import proofs.«116998_j46694884442219_1_alg».proof.Proof.BiasRegions
import proofs.«116998_j46694884442219_1_alg».proof.Proof.LibRowSpread
import proofs.«116998_j46694884442219_1_alg».proof.Proof.LibRowCast
import Idealize.ShloMosaic.Lib.ValueLayout

noncomputable section

namespace Cert.Glue

open Cert.ReferenceIdeal Cert.ReferenceIdeal.Gen Idealize.ShloMosaic Idealize.ShloMosaic.ValueIdx

/-- The dense layer into 128 columns is the plain product. -/
theorem lin128_eq (x : FVec Ideal S50000x128 .f32) (w : FVec Ideal S128x128 .f32) :
    lin128 x w = Host.dotGeneral (F := Ideal) (DotDims.plain 50000 128 128) none x w := rfl

/-- The dense layer into 64 columns is the plain product. -/
theorem lin64_eq (x : FVec Ideal S50000x128 .f32) (w : FVec Ideal S128x64 .f32) :
    lin64 x w = Host.dotGeneral (F := Ideal) (DotDims.plain 50000 128 64) none x w := rfl

/-- A bias laid out as one row and spread over the rows reads its entry q at (r, q). -/
theorem biasRow128 (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  rw [RowSpread.rowInDim2_apply, ← RowCast.shapeCast_row_eq_broadcastInDim b (by decide) bcast_S128_S1x128_1,
    shapeCast_a_1a_apply]

theorem biasRow64 (b : FVec Ideal S64 .f32) (p : Fin 50000) (q : Fin 64) :
    broadcastInDim S50000x64 ![0, 1] bcast_S1x64_S50000x64_0_1 (broadcastInDim S1x64 ![1] bcast_S64_S1x64_1 b) (ix2 p q)
      = b (ix1 q) := by
  rw [RowSpread.rowInDim2_apply, ← RowCast.shapeCast_row_eq_broadcastInDim b (by decide) bcast_S64_S1x64_1,
    shapeCast_a_1a_apply]

/-- The bias of the first layer and its clamp, entry by entry: max (a (r, q) + b q) 0. -/
theorem clamp128_eq (a : FVec Ideal S50000x128 .f32) (b : FVec Ideal S128 .f32) :
    relu128 (bias128 a b) = Cert.KernelIdeal.Rows.clampRows128 a b := by
  funext i
  obtain ⟨p, q, rfl⟩ : ∃ (p : Fin 50000) (q : Fin 128), i = ix2 p q := ⟨i 0, i 1, eq_ix2 i⟩
  show FloatOps.maximumf (F := Ideal) (FloatOps.addf (F := Ideal) (a (ix2 p q))
      (broadcastInDim S50000x128 ![0, 1] bcast_S1x128_S50000x128_0_1 (broadcastInDim S1x128 ![1] bcast_S128_S1x128_1 b) (ix2 p q)))
      (broadcastInDim S50000x128 ![] bcast_S_S50000x128 (constant (F := Ideal) S_ .f32 0x00000000#32) (ix2 p q))
    = max (a (ix2 p q) + b (ix1 q)) (Ideal.ofBits .f32 0x00000000#32)
  rw [biasRow128, RowSpread.scalarInDim_apply]
  rfl

/-- The bias of an output layer, entry by entry: a (r, q) + b q. -/
theorem add64_eq (a : FVec Ideal S50000x64 .f32) (b : FVec Ideal S64 .f32) :
    bias64 a b = Cert.KernelIdeal.Rows.addRow64 a b := by
  funext i
  obtain ⟨p, q, rfl⟩ : ∃ (p : Fin 50000) (q : Fin 64), i = ix2 p q := ⟨i 0, i 1, eq_ix2 i⟩
  show FloatOps.addf (F := Ideal) (a (ix2 p q))
      (broadcastInDim S50000x64 ![0, 1] bcast_S1x64_S50000x64_0_1 (broadcastInDim S1x64 ![1] bcast_S64_S1x64_1 b) (ix2 p q))
    = a (ix2 p q) + b (ix1 q)
  rw [biasRow64]
  rfl

end Cert.Glue

end
-- ==== Proof.KernelWalk.lean ====
/-
  What the idealized kernel's buffers hold at each of its twelve segment boundaries, as the pipeline's functions of
  the eight argument arrays.

  The contents at a boundary are the previous boundary's contents after one segment. After a host stretch a
  buffer the stretch computes is the pipeline's function of the buffers it reads, and every other buffer is
  unchanged. After a region its output array is the whole-array function of its two input arrays (a product
  of the rows, or a bias added to every row), its input arrays are unchanged, and so is every buffer that is
  not one of its arrays. Walking the boundaries in order gives the two result arrays after the last region:
  the two output layers of the encoder over one hidden layer.
-/
import proofs.«116998_j46694884442219_1_alg».proof.Proof.Gen.KernelIdeal.Frame
import proofs.«116998_j46694884442219_1_alg».proof.Proof.KernelStretchA
import proofs.«116998_j46694884442219_1_alg».proof.Proof.KernelStretchB
import proofs.«116998_j46694884442219_1_alg».proof.Proof.DenseRegions
import proofs.«116998_j46694884442219_1_alg».proof.Proof.BiasRegions
import proofs.«116998_j46694884442219_1_alg».proof.Proof.GlueAt

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The argument arrays as launched -/

/-- Argument 0 as launched: the node features. -/
def in0 : FVec Ideal Cert.ReferenceIdeal.S50000x128 .f32 := m ((c : Thread nD τ).loc main_arg0)

/-- Argument 1 as launched: the edge list. -/
def in1 : IVec Cert.ReferenceIdeal.S2x800000 32 := m ((c : Thread nD τ).loc main_arg1)

/-- Argument 2 as launched: the hidden layer's weights. -/
def in2 : FVec Ideal Cert.ReferenceIdeal.S128x128 .f32 := m ((c : Thread nD τ).loc main_arg2)

/-- Argument 3 as launched: the hidden layer's bias. -/
def in3 : FVec Ideal Cert.ReferenceIdeal.S128 .f32 := m ((c : Thread nD τ).loc main_arg3)

/-- Argument 4 as launched: the first output layer's weights. -/
def in4 : FVec Ideal Cert.ReferenceIdeal.S128x64 .f32 := m ((c : Thread nD τ).loc main_arg4)

/-- Argument 5 as launched: the first output layer's bias. -/
def in5 : FVec Ideal Cert.ReferenceIdeal.S64 .f32 := m ((c : Thread nD τ).loc main_arg5)

/-- Argument 6 as launched: the second output layer's weights. -/
def in6 : FVec Ideal Cert.ReferenceIdeal.S128x64 .f32 := m ((c : Thread nD τ).loc main_arg6)

/-- Argument 7 as launched: the second output layer's bias. -/
def in7 : FVec Ideal Cert.ReferenceIdeal.S64 .f32 := m ((c : Thread nD τ).loc main_arg7)

/-! ## At launch -/

theorem at0_arg0 : W0 m ρ c (Proc.devRef .tc main_arg0) = in0 m c := rfl

theorem at0_arg1 : W0 m ρ c (Proc.devRef .tc main_arg1) = in1 m c := rfl

theorem at0_arg2 : W0 m ρ c (Proc.devRef .tc main_arg2) = in2 m c := rfl

theorem at0_arg3 : W0 m ρ c (Proc.devRef .tc main_arg3) = in3 m c := rfl

theorem at0_arg4 : W0 m ρ c (Proc.devRef .tc main_arg4) = in4 m c := rfl

theorem at0_arg5 : W0 m ρ c (Proc.devRef .tc main_arg5) = in5 m c := rfl

theorem at0_arg6 : W0 m ρ c (Proc.devRef .tc main_arg6) = in6 m c := rfl

theorem at0_arg7 : W0 m ρ c (Proc.devRef .tc main_arg7) = in7 m c := rfl

/-! ## After the first stretch: the edge lists and the degree -/

theorem at1_v3 : W1 m ρ c (Proc.devRef .tc main_v3) = Cert.Glue.src (in1 m c) :=
  (Stretch.src_at (W0 m ρ c)).trans (congrArg (Cert.Glue.src) (at0_arg1 m ρ c))

theorem at1_v6 : W1 m ρ c (Proc.devRef .tc main_v6) = Cert.Glue.dst (in1 m c) :=
  (Stretch.dst_at (W0 m ρ c)).trans (congrArg (Cert.Glue.dst) (at0_arg1 m ρ c))

theorem at1_v12 : W1 m ρ c (Proc.devRef .tc main_v12) = Cert.Glue.degPos (Cert.Glue.dst (in1 m c)) :=
  (Stretch.degPos_at (W0 m ρ c)).trans (congrArg (fun e => Cert.Glue.degPos (Cert.Glue.dst e)) (at0_arg1 m ρ c))

theorem at1_v13 : W1 m ρ c (Proc.devRef .tc main_v13) = Cert.Glue.degRsqrt (Cert.Glue.dst (in1 m c)) :=
  (Stretch.degRsqrt_at (W0 m ρ c)).trans (congrArg (fun e => Cert.Glue.degRsqrt (Cert.Glue.dst e)) (at0_arg1 m ρ c))

theorem at1_cst_2 : W1 m ρ c (Proc.devRef .tc main_cst_2) = constant (F := Ideal) Cert.ReferenceIdeal.S_ .f32 0x00000000#32 := Stretch.zero_at (W0 m ρ c)

theorem at1_arg0 : W1 m ρ c (Proc.devRef .tc main_arg0) = in0 m c :=
  (Stretch.keep0_arg0 (W0 m ρ c)).trans (at0_arg0 m ρ c)

theorem at1_arg2 : W1 m ρ c (Proc.devRef .tc main_arg2) = in2 m c :=
  (Stretch.keep0_arg2 (W0 m ρ c)).trans (at0_arg2 m ρ c)

theorem at1_arg3 : W1 m ρ c (Proc.devRef .tc main_arg3) = in3 m c :=
  (Stretch.keep0_arg3 (W0 m ρ c)).trans (at0_arg3 m ρ c)

theorem at1_arg4 : W1 m ρ c (Proc.devRef .tc main_arg4) = in4 m c :=
  (Stretch.keep0_arg4 (W0 m ρ c)).trans (at0_arg4 m ρ c)

theorem at1_arg5 : W1 m ρ c (Proc.devRef .tc main_arg5) = in5 m c :=
  (Stretch.keep0_arg5 (W0 m ρ c)).trans (at0_arg5 m ρ c)

theorem at1_arg6 : W1 m ρ c (Proc.devRef .tc main_arg6) = in6 m c :=
  (Stretch.keep0_arg6 (W0 m ρ c)).trans (at0_arg6 m ρ c)

theorem at1_arg7 : W1 m ρ c (Proc.devRef .tc main_arg7) = in7 m c :=
  (Stretch.keep0_arg7 (W0 m ρ c)).trans (at0_arg7 m ρ c)

/-! ## After the second stretch: the node weights -/

theorem at2_v14 : W2 m ρ c (Proc.devRef .tc main_v14) = Cert.Glue.weight (Cert.Glue.dst (in1 m c)) := by
  refine (Stretch.weight_at (W1 m ρ c)).trans ?_
  rw [at1_v12 m ρ c, at1_v13 m ρ c, at1_cst_2 m ρ c]
  rfl

theorem at2_v3 : W2 m ρ c (Proc.devRef .tc main_v3) = Cert.Glue.src (in1 m c) :=
  (Stretch.keep01_v3 (W1 m ρ c)).trans (at1_v3 m ρ c)

theorem at2_v6 : W2 m ρ c (Proc.devRef .tc main_v6) = Cert.Glue.dst (in1 m c) :=
  (Stretch.keep01_v6 (W1 m ρ c)).trans (at1_v6 m ρ c)

theorem at2_arg0 : W2 m ρ c (Proc.devRef .tc main_arg0) = in0 m c :=
  (Stretch.keep01_arg0 (W1 m ρ c)).trans (at1_arg0 m ρ c)

theorem at2_arg2 : W2 m ρ c (Proc.devRef .tc main_arg2) = in2 m c :=
  (Stretch.keep01_arg2 (W1 m ρ c)).trans (at1_arg2 m ρ c)

theorem at2_arg3 : W2 m ρ c (Proc.devRef .tc main_arg3) = in3 m c :=
  (Stretch.keep01_arg3 (W1 m ρ c)).trans (at1_arg3 m ρ c)

theorem at2_arg4 : W2 m ρ c (Proc.devRef .tc main_arg4) = in4 m c :=
  (Stretch.keep01_arg4 (W1 m ρ c)).trans (at1_arg4 m ρ c)

theorem at2_arg5 : W2 m ρ c (Proc.devRef .tc main_arg5) = in5 m c :=
  (Stretch.keep01_arg5 (W1 m ρ c)).trans (at1_arg5 m ρ c)

theorem at2_arg6 : W2 m ρ c (Proc.devRef .tc main_arg6) = in6 m c :=
  (Stretch.keep01_arg6 (W1 m ρ c)).trans (at1_arg6 m ρ c)

theorem at2_arg7 : W2 m ρ c (Proc.devRef .tc main_arg7) = in7 m c :=
  (Stretch.keep01_arg7 (W1 m ρ c)).trans (at1_arg7 m ρ c)

/-! ## After the third stretch: the edge coefficients -/

theorem at3_v29 : W3 m ρ c (Proc.devRef .tc main_v29) = Cert.Glue.coeff (in1 m c) := by
  refine (Stretch.coeff_at (W2 m ρ c)).trans ?_
  rw [at2_v14 m ρ c, at2_v3 m ρ c, at2_v6 m ρ c]
  rfl

theorem at3_v3 : W3 m ρ c (Proc.devRef .tc main_v3) = Cert.Glue.src (in1 m c) :=
  (Stretch.keep02_v3 (W2 m ρ c)).trans (at2_v3 m ρ c)

theorem at3_v6 : W3 m ρ c (Proc.devRef .tc main_v6) = Cert.Glue.dst (in1 m c) :=
  (Stretch.keep02_v6 (W2 m ρ c)).trans (at2_v6 m ρ c)

theorem at3_arg0 : W3 m ρ c (Proc.devRef .tc main_arg0) = in0 m c :=
  (Stretch.keep02_arg0 (W2 m ρ c)).trans (at2_arg0 m ρ c)

theorem at3_arg2 : W3 m ρ c (Proc.devRef .tc main_arg2) = in2 m c :=
  (Stretch.keep02_arg2 (W2 m ρ c)).trans (at2_arg2 m ρ c)

theorem at3_arg3 : W3 m ρ c (Proc.devRef .tc main_arg3) = in3 m c :=
  (Stretch.keep02_arg3 (W2 m ρ c)).trans (at2_arg3 m ρ c)

theorem at3_arg4 : W3 m ρ c (Proc.devRef .tc main_arg4) = in4 m c :=
  (Stretch.keep02_arg4 (W2 m ρ c)).trans (at2_arg4 m ρ c)

theorem at3_arg5 : W3 m ρ c (Proc.devRef .tc main_arg5) = in5 m c :=
  (Stretch.keep02_arg5 (W2 m ρ c)).trans (at2_arg5 m ρ c)

theorem at3_arg6 : W3 m ρ c (Proc.devRef .tc main_arg6) = in6 m c :=
  (Stretch.keep02_arg6 (W2 m ρ c)).trans (at2_arg6 m ρ c)

theorem at3_arg7 : W3 m ρ c (Proc.devRef .tc main_arg7) = in7 m c :=
  (Stretch.keep02_arg7 (W2 m ρ c)).trans (at2_arg7 m ρ c)

/-! ## After region 0: the hidden layer's dense product -/

theorem at4_v30 : W4 m ρ c (Proc.devRef .tc main_v30) = Cert.Glue.lin128 (in0 m c) (in2 m c) := by
  refine (W4_arr m ρ c 2).trans ((Whole.whole0 (V3 m ρ) c).trans ?_)
  rw [show V3 m ρ c main_arg0 = _ from at3_arg0 m ρ c, show V3 m ρ c main_arg2 = _ from at3_arg2 m ρ c]
  exact (Cert.Glue.lin128_eq _ _).symm

theorem at4_v3 : W4 m ρ c (Proc.devRef .tc main_v3) = Cert.Glue.src (in1 m c) :=
  (W4_of_ne m ρ c main_v3 (by decide)).trans (at3_v3 m ρ c)

theorem at4_v6 : W4 m ρ c (Proc.devRef .tc main_v6) = Cert.Glue.dst (in1 m c) :=
  (W4_of_ne m ρ c main_v6 (by decide)).trans (at3_v6 m ρ c)

theorem at4_v29 : W4 m ρ c (Proc.devRef .tc main_v29) = Cert.Glue.coeff (in1 m c) :=
  (W4_of_ne m ρ c main_v29 (by decide)).trans (at3_v29 m ρ c)

theorem at4_arg3 : W4 m ρ c (Proc.devRef .tc main_arg3) = in3 m c :=
  (W4_of_ne m ρ c main_arg3 (by decide)).trans (at3_arg3 m ρ c)

theorem at4_arg4 : W4 m ρ c (Proc.devRef .tc main_arg4) = in4 m c :=
  (W4_of_ne m ρ c main_arg4 (by decide)).trans (at3_arg4 m ρ c)

theorem at4_arg5 : W4 m ρ c (Proc.devRef .tc main_arg5) = in5 m c :=
  (W4_of_ne m ρ c main_arg5 (by decide)).trans (at3_arg5 m ρ c)

theorem at4_arg6 : W4 m ρ c (Proc.devRef .tc main_arg6) = in6 m c :=
  (W4_of_ne m ρ c main_arg6 (by decide)).trans (at3_arg6 m ρ c)

theorem at4_arg7 : W4 m ρ c (Proc.devRef .tc main_arg7) = in7 m c :=
  (W4_of_ne m ρ c main_arg7 (by decide)).trans (at3_arg7 m ρ c)

/-! ## After the stretch between regions 0 and 1: the hidden layer's aggregation -/

theorem at5_v43 : W5 m ρ c (Proc.devRef .tc main_v43) = Cert.Glue.agg128 (Cert.Glue.lin128 (in0 m c) (in2 m c)) (Cert.Glue.src (in1 m c)) (Cert.Glue.dst (in1 m c)) (Cert.Glue.coeff (in1 m c)) := by
  refine (Stretch.agg128_at (W4 m ρ c)).trans ?_
  rw [at4_v30 m ρ c, at4_v3 m ρ c, at4_v6 m ρ c, at4_v29 m ρ c]

theorem at5_v3 : W5 m ρ c (Proc.devRef .tc main_v3) = Cert.Glue.src (in1 m c) :=
  (Stretch.keep1_v3 (W4 m ρ c)).trans (at4_v3 m ρ c)

theorem at5_v6 : W5 m ρ c (Proc.devRef .tc main_v6) = Cert.Glue.dst (in1 m c) :=
  (Stretch.keep1_v6 (W4 m ρ c)).trans (at4_v6 m ρ c)

theorem at5_v29 : W5 m ρ c (Proc.devRef .tc main_v29) = Cert.Glue.coeff (in1 m c) :=
  (Stretch.keep1_v29 (W4 m ρ c)).trans (at4_v29 m ρ c)

theorem at5_arg3 : W5 m ρ c (Proc.devRef .tc main_arg3) = in3 m c :=
  (Stretch.keep1_arg3 (W4 m ρ c)).trans (at4_arg3 m ρ c)

theorem at5_arg4 : W5 m ρ c (Proc.devRef .tc main_arg4) = in4 m c :=
  (Stretch.keep1_arg4 (W4 m ρ c)).trans (at4_arg4 m ρ c)

theorem at5_arg5 : W5 m ρ c (Proc.devRef .tc main_arg5) = in5 m c :=
  (Stretch.keep1_arg5 (W4 m ρ c)).trans (at4_arg5 m ρ c)

theorem at5_arg6 : W5 m ρ c (Proc.devRef .tc main_arg6) = in6 m c :=
  (Stretch.keep1_arg6 (W4 m ρ c)).trans (at4_arg6 m ρ c)

theorem at5_arg7 : W5 m ρ c (Proc.devRef .tc main_arg7) = in7 m c :=
  (Stretch.keep1_arg7 (W4 m ρ c)).trans (at4_arg7 m ρ c)

/-! ## After region 1: the hidden layer -/

theorem at6_v44 : W6 m ρ c (Proc.devRef .tc main_v44) = Cert.Glue.hidden (in0 m c) (in1 m c) (in2 m c) (in3 m c) := by
  refine (W6_arr m ρ c 2).trans ((Rows.whole1 (V5 m ρ) c).trans ?_)
  rw [show V5 m ρ c main_v43 = _ from at5_v43 m ρ c, show V5 m ρ c main_arg3 = _ from at5_arg3 m ρ c]
  exact (Cert.Glue.clamp128_eq _ _).symm

theorem at6_v3 : W6 m ρ c (Proc.devRef .tc main_v3) = Cert.Glue.src (in1 m c) :=
  (W6_of_ne m ρ c main_v3 (by decide)).trans (at5_v3 m ρ c)

theorem at6_v6 : W6 m ρ c (Proc.devRef .tc main_v6) = Cert.Glue.dst (in1 m c) :=
  (W6_of_ne m ρ c main_v6 (by decide)).trans (at5_v6 m ρ c)

theorem at6_v29 : W6 m ρ c (Proc.devRef .tc main_v29) = Cert.Glue.coeff (in1 m c) :=
  (W6_of_ne m ρ c main_v29 (by decide)).trans (at5_v29 m ρ c)

theorem at6_arg4 : W6 m ρ c (Proc.devRef .tc main_arg4) = in4 m c :=
  (W6_of_ne m ρ c main_arg4 (by decide)).trans (at5_arg4 m ρ c)

theorem at6_arg5 : W6 m ρ c (Proc.devRef .tc main_arg5) = in5 m c :=
  (W6_of_ne m ρ c main_arg5 (by decide)).trans (at5_arg5 m ρ c)

theorem at6_arg6 : W6 m ρ c (Proc.devRef .tc main_arg6) = in6 m c :=
  (W6_of_ne m ρ c main_arg6 (by decide)).trans (at5_arg6 m ρ c)

theorem at6_arg7 : W6 m ρ c (Proc.devRef .tc main_arg7) = in7 m c :=
  (W6_of_ne m ρ c main_arg7 (by decide)).trans (at5_arg7 m ρ c)

/-! ## After region 2: the first output layer's dense product -/

theorem at7_v45 : W7 m ρ c (Proc.devRef .tc main_v45) = Cert.Glue.lin64 (Cert.Glue.hidden (in0 m c) (in1 m c) (in2 m c) (in3 m c)) (in4 m c) := by
  refine (W7_arr m ρ c 2).trans ((Whole.whole2 (V6 m ρ) c).trans ?_)
  rw [show V6 m ρ c main_v44 = _ from at6_v44 m ρ c, show V6 m ρ c main_arg4 = _ from at6_arg4 m ρ c]
  exact (Cert.Glue.lin64_eq _ _).symm

/-- The hidden layer is one of region 2's input arrays: the region leaves it as it found it. -/
theorem at7_v44 : W7 m ρ c (Proc.devRef .tc main_v44) = Cert.Glue.hidden (in0 m c) (in1 m c) (in2 m c) (in3 m c) :=
  ((W7_arr m ρ c 0).trans (((dat2 (V6 m ρ) c).arrAt_in 0 rfl _).trans (A_eq2 (V6 m ρ) c 0))).trans (at6_v44 m ρ c)

theorem at7_v3 : W7 m ρ c (Proc.devRef .tc main_v3) = Cert.Glue.src (in1 m c) :=
  (W7_of_ne m ρ c main_v3 (by decide)).trans (at6_v3 m ρ c)

theorem at7_v6 : W7 m ρ c (Proc.devRef .tc main_v6) = Cert.Glue.dst (in1 m c) :=
  (W7_of_ne m ρ c main_v6 (by decide)).trans (at6_v6 m ρ c)

theorem at7_v29 : W7 m ρ c (Proc.devRef .tc main_v29) = Cert.Glue.coeff (in1 m c) :=
  (W7_of_ne m ρ c main_v29 (by decide)).trans (at6_v29 m ρ c)

theorem at7_arg5 : W7 m ρ c (Proc.devRef .tc main_arg5) = in5 m c :=
  (W7_of_ne m ρ c main_arg5 (by decide)).trans (at6_arg5 m ρ c)

theorem at7_arg6 : W7 m ρ c (Proc.devRef .tc main_arg6) = in6 m c :=
  (W7_of_ne m ρ c main_arg6 (by decide)).trans (at6_arg6 m ρ c)

theorem at7_arg7 : W7 m ρ c (Proc.devRef .tc main_arg7) = in7 m c :=
  (W7_of_ne m ρ c main_arg7 (by decide)).trans (at6_arg7 m ρ c)

/-! ## After the stretch between regions 2 and 3: the first output layer's aggregation -/

theorem at8_v58 : W8 m ρ c (Proc.devRef .tc main_v58) = Cert.Glue.agg64 (Cert.Glue.lin64 (Cert.Glue.hidden (in0 m c) (in1 m c) (in2 m c) (in3 m c)) (in4 m c)) (Cert.Glue.src (in1 m c)) (Cert.Glue.dst (in1 m c)) (Cert.Glue.coeff (in1 m c)) := by
  refine (Stretch.aggMu_at (W7 m ρ c)).trans ?_
  rw [at7_v45 m ρ c, at7_v3 m ρ c, at7_v6 m ρ c, at7_v29 m ρ c]

theorem at8_v3 : W8 m ρ c (Proc.devRef .tc main_v3) = Cert.Glue.src (in1 m c) :=
  (Stretch.keep3_v3 (W7 m ρ c)).trans (at7_v3 m ρ c)

theorem at8_v6 : W8 m ρ c (Proc.devRef .tc main_v6) = Cert.Glue.dst (in1 m c) :=
  (Stretch.keep3_v6 (W7 m ρ c)).trans (at7_v6 m ρ c)

theorem at8_v29 : W8 m ρ c (Proc.devRef .tc main_v29) = Cert.Glue.coeff (in1 m c) :=
  (Stretch.keep3_v29 (W7 m ρ c)).trans (at7_v29 m ρ c)

theorem at8_v44 : W8 m ρ c (Proc.devRef .tc main_v44) = Cert.Glue.hidden (in0 m c) (in1 m c) (in2 m c) (in3 m c) :=
  (Stretch.keep3_v44 (W7 m ρ c)).trans (at7_v44 m ρ c)

theorem at8_arg5 : W8 m ρ c (Proc.devRef .tc main_arg5) = in5 m c :=
  (Stretch.keep3_arg5 (W7 m ρ c)).trans (at7_arg5 m ρ c)

theorem at8_arg6 : W8 m ρ c (Proc.devRef .tc main_arg6) = in6 m c :=
  (Stretch.keep3_arg6 (W7 m ρ c)).trans (at7_arg6 m ρ c)

theorem at8_arg7 : W8 m ρ c (Proc.devRef .tc main_arg7) = in7 m c :=
  (Stretch.keep3_arg7 (W7 m ρ c)).trans (at7_arg7 m ρ c)

/-! ## After region 3: the first result -/

theorem at9_v59 : W9 m ρ c (Proc.devRef .tc main_v59) = Cert.Glue.head (in0 m c) (in1 m c) (in2 m c) (in3 m c) (in4 m c) (in5 m c) := by
  refine (W9_arr m ρ c 2).trans ((Rows.whole3 (V8 m ρ) c).trans ?_)
  rw [show V8 m ρ c main_v58 = _ from at8_v58 m ρ c, show V8 m ρ c main_arg5 = _ from at8_arg5 m ρ c]
  exact (Cert.Glue.add64_eq _ _).symm

theorem at9_v3 : W9 m ρ c (Proc.devRef .tc main_v3) = Cert.Glue.src (in1 m c) :=
  (W9_of_ne m ρ c main_v3 (by decide)).trans (at8_v3 m ρ c)

theorem at9_v6 : W9 m ρ c (Proc.devRef .tc main_v6) = Cert.Glue.dst (in1 m c) :=
  (W9_of_ne m ρ c main_v6 (by decide)).trans (at8_v6 m ρ c)

theorem at9_v29 : W9 m ρ c (Proc.devRef .tc main_v29) = Cert.Glue.coeff (in1 m c) :=
  (W9_of_ne m ρ c main_v29 (by decide)).trans (at8_v29 m ρ c)

theorem at9_v44 : W9 m ρ c (Proc.devRef .tc main_v44) = Cert.Glue.hidden (in0 m c) (in1 m c) (in2 m c) (in3 m c) :=
  (W9_of_ne m ρ c main_v44 (by decide)).trans (at8_v44 m ρ c)

theorem at9_arg6 : W9 m ρ c (Proc.devRef .tc main_arg6) = in6 m c :=
  (W9_of_ne m ρ c main_arg6 (by decide)).trans (at8_arg6 m ρ c)

theorem at9_arg7 : W9 m ρ c (Proc.devRef .tc main_arg7) = in7 m c :=
  (W9_of_ne m ρ c main_arg7 (by decide)).trans (at8_arg7 m ρ c)

/-! ## After region 4: the second output layer's dense product -/

theorem at10_v60 : W10 m ρ c (Proc.devRef .tc main_v60) = Cert.Glue.lin64 (Cert.Glue.hidden (in0 m c) (in1 m c) (in2 m c) (in3 m c)) (in6 m c) := by
  refine (W10_arr m ρ c 2).trans ((Whole.whole4 (V9 m ρ) c).trans ?_)
  rw [show V9 m ρ c main_v44 = _ from at9_v44 m ρ c, show V9 m ρ c main_arg6 = _ from at9_arg6 m ρ c]
  exact (Cert.Glue.lin64_eq _ _).symm

theorem at10_v3 : W10 m ρ c (Proc.devRef .tc main_v3) = Cert.Glue.src (in1 m c) :=
  (W10_of_ne m ρ c main_v3 (by decide)).trans (at9_v3 m ρ c)

theorem at10_v6 : W10 m ρ c (Proc.devRef .tc main_v6) = Cert.Glue.dst (in1 m c) :=
  (W10_of_ne m ρ c main_v6 (by decide)).trans (at9_v6 m ρ c)

theorem at10_v29 : W10 m ρ c (Proc.devRef .tc main_v29) = Cert.Glue.coeff (in1 m c) :=
  (W10_of_ne m ρ c main_v29 (by decide)).trans (at9_v29 m ρ c)

theorem at10_v59 : W10 m ρ c (Proc.devRef .tc main_v59) = Cert.Glue.head (in0 m c) (in1 m c) (in2 m c) (in3 m c) (in4 m c) (in5 m c) :=
  (W10_of_ne m ρ c main_v59 (by decide)).trans (at9_v59 m ρ c)

theorem at10_arg7 : W10 m ρ c (Proc.devRef .tc main_arg7) = in7 m c :=
  (W10_of_ne m ρ c main_arg7 (by decide)).trans (at9_arg7 m ρ c)

/-! ## After the last stretch: the second output layer's aggregation -/

theorem at11_v73 : W11 m ρ c (Proc.devRef .tc main_v73) = Cert.Glue.agg64 (Cert.Glue.lin64 (Cert.Glue.hidden (in0 m c) (in1 m c) (in2 m c) (in3 m c)) (in6 m c)) (Cert.Glue.src (in1 m c)) (Cert.Glue.dst (in1 m c)) (Cert.Glue.coeff (in1 m c)) := by
  refine (Stretch.aggLv_at (W10 m ρ c)).trans ?_
  rw [at10_v60 m ρ c, at10_v3 m ρ c, at10_v6 m ρ c, at10_v29 m ρ c]

theorem at11_v59 : W11 m ρ c (Proc.devRef .tc main_v59) = Cert.Glue.head (in0 m c) (in1 m c) (in2 m c) (in3 m c) (in4 m c) (in5 m c) :=
  (Stretch.keep5_v59 (W10 m ρ c)).trans (at10_v59 m ρ c)

theorem at11_arg7 : W11 m ρ c (Proc.devRef .tc main_arg7) = in7 m c :=
  (Stretch.keep5_arg7 (W10 m ρ c)).trans (at10_arg7 m ρ c)

/-! ## After region 5: the second result -/

theorem at12_v74 : W12 m ρ c (Proc.devRef .tc main_v74) = Cert.Glue.head (in0 m c) (in1 m c) (in2 m c) (in3 m c) (in6 m c) (in7 m c) := by
  refine (W12_arr m ρ c 2).trans ((Rows.whole5 (V11 m ρ) c).trans ?_)
  rw [show V11 m ρ c main_v73 = _ from at11_v73 m ρ c, show V11 m ρ c main_arg7 = _ from at11_arg7 m ρ c]
  exact (Cert.Glue.add64_eq _ _).symm

theorem at12_v59 : W12 m ρ c (Proc.devRef .tc main_v59) = Cert.Glue.head (in0 m c) (in1 m c) (in2 m c) (in3 m c) (in4 m c) (in5 m c) :=
  (W12_of_ne m ρ c main_v59 (by decide)).trans (at11_v59 m ρ c)

end Cert.KernelIdeal.Walk

end
-- ==== Proof.RefRun.lean ====
/-
  The reference's run, read in seven stretches.

  The reference's @main is a straight line of 103 host operations (the two outlined functions' operations stand
  at their call sites). Every weakly fair execution terminates with each buffer at the fold of the operations'
  results over the launch contents. The line is cut where the kernel's @main is cut by its regions: the edge
  lists and the degree; the node weights; the edge coefficients; the hidden layer before its clamp; the clamp;
  and the two output layers.
  The contents after the whole line are the contents after the last stretch run from the contents after the
  stretches before it.
-/
import proofs.«116998_j46694884442219_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 18 of @main: the edge lists, the degree and where it is positive. -/
abbrev opsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- Operations 19 … 21 of @main: the node weights (the outlined `_where`). -/
abbrev opsB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- Operations 22 … 40 of @main: the edge coefficients. -/
abbrev opsC : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- Operations 41 … 60 of @main: the hidden layer before its clamp. -/
abbrev opsL1 : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

/-- Operations 61 … 63 of @main: the clamp (the outlined `relu`). -/
abbrev opsRe : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- Operations 64 … 83 of @main: the first output layer. -/
abbrev opsMu : List (HloOp τ sig (Elt F)) :=
  [ binary main_v47 main_arg4 main_v48 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x64 ![0, 1] bcast_S850000x1_S850000x64_0_1 : (⟨S850000x1, .f32⟩ : BufTy).Contents (Elt F) → (⟨S850000x64, .f32⟩ : BufTy).Contents (Elt F)),
    binary main_v55 main_v57 main_v58 (mulf : (⟨S850000x64, .f32⟩ : BufTy).Contents (Elt F) → (⟨S850000x64, .f32⟩ : BufTy).Contents (Elt F) → (⟨S850000x64, .f32⟩ : BufTy).Contents (Elt F)),
    nullary main_cst_11 (constant S_ .f32 0x00000000#32),
    unary main_cst_11 main_v59 (broadcastInDim S50000x64 ![] bcast_S_S50000x64 : (⟨S_, .f32⟩ : BufTy).Contents (Elt F) → (⟨S50000x64, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v61 main_v63 main_v64 (addf : (⟨S50000x64, .f32⟩ : BufTy).Contents (Elt F) → (⟨S50000x64, .f32⟩ : BufTy).Contents (Elt F) → (⟨S50000x64, .f32⟩ : BufTy).Contents (Elt F)) ]

/-- Operations 84 … 103 of @main: the second output layer. -/
abbrev opsLv : List (HloOp τ sig (Elt F)) :=
  [ binary main_v47 main_arg6 main_v65 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_12 (constantI S_ 32 0#32),
    unary main_c_12 main_v66 (broadcastInDim S850000 ![] bcast_S_S850000 : (⟨S_, .i32⟩ : BufTy).Contents (Elt F) → (⟨S850000, .i32⟩ : BufTy).Contents (Elt F)),
    binary main_v3 main_v66 main_v67 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v68 (broadcastInDim S850000 ![] bcast_S_S850000 : (⟨S_, .i32⟩ : BufTy).Contents (Elt F) → (⟨S850000, .i32⟩ : BufTy).Contents (Elt F)),
    binary main_v3 main_v68 main_v69 (addi : (⟨S850000, .i32⟩ : BufTy).Contents (Elt F) → (⟨S850000, .i32⟩ : BufTy).Contents (Elt F) → (⟨S850000, .i32⟩ : BufTy).Contents (Elt F)),
    ternary main_v67 main_v69 main_v3 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v70 main_v71 (broadcastInDim S850000x1 ![0] bcast_S850000_S850000x1_0 : (⟨S850000, .i32⟩ : BufTy).Contents (Elt F) → (⟨S850000x1, .i32⟩ : BufTy).Contents (Elt F)),
    binary main_v65 main_v71 main_v72 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v73 (broadcastInDim S850000x1 ![0] bcast_S850000_S850000x1_0 : (⟨S850000, .f32⟩ : BufTy).Contents (Elt F) → (⟨S850000x1, .f32⟩ : BufTy).Contents (Elt F)),
    unary main_v73 main_v74 (broadcastInDim S850000x64 ![0, 1] bcast_S850000x1_S850000x64_0_1 : (⟨S850000x1, .f32⟩ : BufTy).Contents (Elt F) → (⟨S850000x64, .f32⟩ : BufTy).Contents (Elt F)),
    binary main_v72 main_v74 main_v75 (mulf : (⟨S850000x64, .f32⟩ : BufTy).Contents (Elt F) → (⟨S850000x64, .f32⟩ : BufTy).Contents (Elt F) → (⟨S850000x64, .f32⟩ : BufTy).Contents (Elt F)),
    nullary main_cst_14 (constant S_ .f32 0x00000000#32),
    unary main_cst_14 main_v76 (broadcastInDim S50000x64 ![] bcast_S_S50000x64 : (⟨S_, .f32⟩ : BufTy).Contents (Elt F) → (⟨S50000x64, .f32⟩ : BufTy).Contents (Elt F)),
    unary main_v6 main_v77 (broadcastInDim S850000x1 ![0] bcast_S850000_S850000x1_0 : (⟨S850000, .i32⟩ : BufTy).Contents (Elt F) → (⟨S850000x1, .i32⟩ : BufTy).Contents (Elt F)),
    ternary main_v76 main_v77 main_v75 main_v78 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg7 main_v79 (broadcastInDim S1x64 ![1] bcast_S64_S1x64_1 : (⟨S64, .f32⟩ : BufTy).Contents (Elt F) → (⟨S1x64, .f32⟩ : BufTy).Contents (Elt F)),
    unary main_v79 main_v80 (broadcastInDim S50000x64 ![0, 1] bcast_S1x64_S50000x64_0_1 : (⟨S1x64, .f32⟩ : BufTy).Contents (Elt F) → (⟨S50000x64, .f32⟩ : BufTy).Contents (Elt F)),
    binary main_v78 main_v80 main_v81 (addf : (⟨S50000x64, .f32⟩ : BufTy).Contents (Elt F) → (⟨S50000x64, .f32⟩ : BufTy).Contents (Elt F) → (⟨S50000x64, .f32⟩ : BufTy).Contents (Elt F)) ]

/-- @main's 103 operations, in order. -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x64 ![0, 1] bcast_S850000x1_S850000x64_0_1 : (⟨S850000x1, .f32⟩ : BufTy).Contents (Elt F) → (⟨S850000x64, .f32⟩ : BufTy).Contents (Elt F)),
    binary main_v55 main_v57 main_v58 (mulf : (⟨S850000x64, .f32⟩ : BufTy).Contents (Elt F) → (⟨S850000x64, .f32⟩ : BufTy).Contents (Elt F) → (⟨S850000x64, .f32⟩ : BufTy).Contents (Elt F)),
    nullary main_cst_11 (constant S_ .f32 0x00000000#32),
    unary main_cst_11 main_v59 (broadcastInDim S50000x64 ![] bcast_S_S50000x64 : (⟨S_, .f32⟩ : BufTy).Contents (Elt F) → (⟨S50000x64, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v61 main_v63 main_v64 (addf : (⟨S50000x64, .f32⟩ : BufTy).Contents (Elt F) → (⟨S50000x64, .f32⟩ : BufTy).Contents (Elt F) → (⟨S50000x64, .f32⟩ : BufTy).Contents (Elt F)),
    binary main_v47 main_arg6 main_v65 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_12 (constantI S_ 32 0#32),
    unary main_c_12 main_v66 (broadcastInDim S850000 ![] bcast_S_S850000 : (⟨S_, .i32⟩ : BufTy).Contents (Elt F) → (⟨S850000, .i32⟩ : BufTy).Contents (Elt F)),
    binary main_v3 main_v66 main_v67 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v68 (broadcastInDim S850000 ![] bcast_S_S850000 : (⟨S_, .i32⟩ : BufTy).Contents (Elt F) → (⟨S850000, .i32⟩ : BufTy).Contents (Elt F)),
    binary main_v3 main_v68 main_v69 (addi : (⟨S850000, .i32⟩ : BufTy).Contents (Elt F) → (⟨S850000, .i32⟩ : BufTy).Contents (Elt F) → (⟨S850000, .i32⟩ : BufTy).Contents (Elt F)),
    ternary main_v67 main_v69 main_v3 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v70 main_v71 (broadcastInDim S850000x1 ![0] bcast_S850000_S850000x1_0 : (⟨S850000, .i32⟩ : BufTy).Contents (Elt F) → (⟨S850000x1, .i32⟩ : BufTy).Contents (Elt F)),
    binary main_v65 main_v71 main_v72 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v73 (broadcastInDim S850000x1 ![0] bcast_S850000_S850000x1_0 : (⟨S850000, .f32⟩ : BufTy).Contents (Elt F) → (⟨S850000x1, .f32⟩ : BufTy).Contents (Elt F)),
    unary main_v73 main_v74 (broadcastInDim S850000x64 ![0, 1] bcast_S850000x1_S850000x64_0_1 : (⟨S850000x1, .f32⟩ : BufTy).Contents (Elt F) → (⟨S850000x64, .f32⟩ : BufTy).Contents (Elt F)),
    binary main_v72 main_v74 main_v75 (mulf : (⟨S850000x64, .f32⟩ : BufTy).Contents (Elt F) → (⟨S850000x64, .f32⟩ : BufTy).Contents (Elt F) → (⟨S850000x64, .f32⟩ : BufTy).Contents (Elt F)),
    nullary main_cst_14 (constant S_ .f32 0x00000000#32),
    unary main_cst_14 main_v76 (broadcastInDim S50000x64 ![] bcast_S_S50000x64 : (⟨S_, .f32⟩ : BufTy).Contents (Elt F) → (⟨S50000x64, .f32⟩ : BufTy).Contents (Elt F)),
    unary main_v6 main_v77 (broadcastInDim S850000x1 ![0] bcast_S850000_S850000x1_0 : (⟨S850000, .i32⟩ : BufTy).Contents (Elt F) → (⟨S850000x1, .i32⟩ : BufTy).Contents (Elt F)),
    ternary main_v76 main_v77 main_v75 main_v78 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg7 main_v79 (broadcastInDim S1x64 ![1] bcast_S64_S1x64_1 : (⟨S64, .f32⟩ : BufTy).Contents (Elt F) → (⟨S1x64, .f32⟩ : BufTy).Contents (Elt F)),
    unary main_v79 main_v80 (broadcastInDim S50000x64 ![0, 1] bcast_S1x64_S50000x64_0_1 : (⟨S1x64, .f32⟩ : BufTy).Contents (Elt F) → (⟨S50000x64, .f32⟩ : BufTy).Contents (Elt F)),
    binary main_v78 main_v80 main_v81 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
/-- The line is its seven stretches, one after the other. -/
theorem ops_eq : (ops : List (HloOp τ sig (Elt F))) = opsA ++ (opsB ++ (opsC ++ (opsL1 ++ (opsRe ++ (opsMu ++ opsLv))))) := rfl

/-- The contents after two stretches run one after the other are the second's, run from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The contents after the whole line, stretch by stretch. -/
theorem after_ops (V : Valuation τ sig (Elt F)) :
    after ops V = after opsLv (after opsMu (after opsRe (after opsL1 (after opsC (after opsB (after opsA V)))))) := by
  rw [ops_eq, after_append, after_append, after_append, after_append, after_append, after_append]

set_option maxRecDepth 8192 in
set_option maxHeartbeats 4000000 in
/-- On every device, from any memory with zero counters: every weakly fair execution of @main terminates with
    each buffer at the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.RefKept.lean ====
/-
  The reference leaves its eight argument arrays as launched: no operation of the line writes one.
-/
import proofs.«116998_j46694884442219_1_alg».proof.Proof.RefRun

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem kept_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxHeartbeats 4000000 in
theorem kept_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

set_option maxHeartbeats 4000000 in
theorem kept_arg2 (m : (ℓ : Loc nD τ sig) → Buf (Elt F) ℓ) (c : Dev nD) :
    after (ops (F := F)) (launchContents m c) (Proc.devRef .tc main_arg2) = m ((c.tc : Thread nD τ).loc main_arg2) := by
  after_results_simp <;> rfl

set_option maxHeartbeats 4000000 in
theorem kept_arg3 (m : (ℓ : Loc nD τ sig) → Buf (Elt F) ℓ) (c : Dev nD) :
    after (ops (F := F)) (launchContents m c) (Proc.devRef .tc main_arg3) = m ((c.tc : Thread nD τ).loc main_arg3) := by
  after_results_simp <;> rfl

set_option maxHeartbeats 4000000 in
theorem kept_arg4 (m : (ℓ : Loc nD τ sig) → Buf (Elt F) ℓ) (c : Dev nD) :
    after (ops (F := F)) (launchContents m c) (Proc.devRef .tc main_arg4) = m ((c.tc : Thread nD τ).loc main_arg4) := by
  after_results_simp <;> rfl

set_option maxHeartbeats 4000000 in
theorem kept_arg5 (m : (ℓ : Loc nD τ sig) → Buf (Elt F) ℓ) (c : Dev nD) :
    after (ops (F := F)) (launchContents m c) (Proc.devRef .tc main_arg5) = m ((c.tc : Thread nD τ).loc main_arg5) := by
  after_results_simp <;> rfl

set_option maxHeartbeats 4000000 in
theorem kept_arg6 (m : (ℓ : Loc nD τ sig) → Buf (Elt F) ℓ) (c : Dev nD) :
    after (ops (F := F)) (launchContents m c) (Proc.devRef .tc main_arg6) = m ((c.tc : Thread nD τ).loc main_arg6) := by
  after_results_simp <;> rfl

set_option maxHeartbeats 4000000 in
theorem kept_arg7 (m : (ℓ : Loc nD τ sig) → Buf (Elt F) ℓ) (c : Dev nD) :
    after (ops (F := F)) (launchContents m c) (Proc.devRef .tc main_arg7) = m ((c.tc : Thread nD τ).loc main_arg7) := by
  after_results_simp <;> rfl

end Cert.ReferenceIdeal.Hand

end
-- ==== Proof.RefStretchA.lean ====
/-
  The reference's first three stretches, read from the contents they are entered with: the two edge lists, the
  degree, where it is positive and its inverse square root; the node weights; the edge coefficients. Each result
  is the pipeline's own function of the buffers the stretch reads; every other live buffer is left as it was.
-/
import proofs.«116998_j46694884442219_1_alg».proof.Proof.RefRun
import proofs.«116998_j46694884442219_1_alg».proof.Proof.Glue

set_option maxRecDepth 16384

noncomputable section

namespace Cert.ReferenceIdeal.Stretch

open Cert.ReferenceIdeal Cert.ReferenceIdeal.Gen Cert.ReferenceIdeal.Hand Idealize.ShloMosaic Idealize.ShloMosaic.StableHlo Idealize.ShloMosaic.TcCoe

variable (W : Valuation τ sig (Elt Ideal))

/-! ## What a stretch computes, from the contents it is entered with

Each proof reads the result buffer off the fold one operation at a time, from the last operation back: at the
operation that writes a buffer the buffer holds that operation's function of its operands, at any other operation
it holds what it held before. -/

set_option maxHeartbeats 1000000 in
/-- The edges' sources. -/
theorem src_at : after (opsA (F := Ideal)) W (Proc.devRef .tc main_v3)
    = Cert.Glue.src (W (Proc.devRef .tc main_arg1)) := by
  generalize hR : Cert.Glue.src (W (Proc.devRef .tc main_arg1)) = R
  unfold opsA
  simp only [after_cons, after_nil]
  rw [nullary_result_ne (y := main_cst_2) (r := main_v3) (h := by decide),
    unary_result_ne (x := main_v10) (y := main_v13) (r := main_v3) (h := by decide),
    binary_result_ne (a := main_v10) (b := main_v11) (y := main_v12) (r := main_v3) (h := by decide)]
  rw [unary_result_ne (x := main_cst_1) (y := main_v11) (r := main_v3) (h := by decide),
    nullary_result_ne (y := main_cst_1) (r := main_v3) (h := by decide),
    ternary_result_ne (c := main_v8) (a := main_v9) (b := main_v7) (y := main_v10) (r := main_v3) (h := by decide)]
  rw [unary_result_ne (x := main_v6) (y := main_v9) (r := main_v3) (h := by decide),
    unary_result_ne (x := main_cst_0) (y := main_v8) (r := main_v3) (h := by decide),
    nullary_result_ne (y := main_cst_0) (r := main_v3) (h := by decide)]
  rw [unary_result_ne (x := main_cst) (y := main_v7) (r := main_v3) (h := by decide),
    nullary_result_ne (y := main_cst) (r := main_v3) (h := by decide),
    binary_result_ne (a := main_v5) (b := main_v0) (y := main_v6) (r := main_v3) (h := by decide)]
  rw [reshape_result_ne (x := main_v4) (y := main_v5) (r := main_v3) (h := by decide),
    unary_result_ne (x := main_arg1) (y := main_v4) (r := main_v3) (h := by decide),
    binary_result (a := main_v2) (b := main_v0) (y := main_v3)]
  rw [reshape_result (x := main_v1) (y := main_v2),
    reshape_result_ne (x := main_v1) (y := main_v2) (r := main_v0) (h := by decide),
    unary_result (x := main_arg1) (y := main_v1)]
  rw [unary_result_ne (x := main_arg1) (y := main_v1) (r := main_v0) (h := by decide),
    nullary_result_ne (y := main_v0) (r := main_arg1) (h := by decide),
    nullary_result (y := main_v0)]
  exact hR

set_option maxHeartbeats 1000000 in
/-- The edges' targets. -/
theorem dst_at : after (opsA (F := Ideal)) W (Proc.devRef .tc main_v6)
    = Cert.Glue.dst (W (Proc.devRef .tc main_arg1)) := by
  generalize hR : Cert.Glue.dst (W (Proc.devRef .tc main_arg1)) = R
  unfold opsA
  simp only [after_cons, after_nil]
  rw [nullary_result_ne (y := main_cst_2) (r := main_v6) (h := by decide),
    unary_result_ne (x := main_v10) (y := main_v13) (r := main_v6) (h := by decide),
    binary_result_ne (a := main_v10) (b := main_v11) (y := main_v12) (r := main_v6) (h := by decide)]
  rw [unary_result_ne (x := main_cst_1) (y := main_v11) (r := main_v6) (h := by decide),
    nullary_result_ne (y := main_cst_1) (r := main_v6) (h := by decide),
    ternary_result_ne (c := main_v8) (a := main_v9) (b := main_v7) (y := main_v10) (r := main_v6) (h := by decide)]
  rw [unary_result_ne (x := main_v6) (y := main_v9) (r := main_v6) (h := by decide),
    unary_result_ne (x := main_cst_0) (y := main_v8) (r := main_v6) (h := by decide),
    nullary_result_ne (y := main_cst_0) (r := main_v6) (h := by decide)]
  rw [unary_result_ne (x := main_cst) (y := main_v7) (r := main_v6) (h := by decide),
    nullary_result_ne (y := main_cst) (r := main_v6) (h := by decide),
    binary_result (a := main_v5) (b := main_v0) (y := main_v6)]
  rw [reshape_result (x := main_v4) (y := main_v5),
    reshape_result_ne (x := main_v4) (y := main_v5) (r := main_v0) (h := by decide),
    unary_result (x := main_arg1) (y := main_v4)]
  rw [unary_result_ne (x := main_arg1) (y := main_v4) (r := main_v0) (h := by decide),
    binary_result_ne (a := main_v2) (b := main_v0) (y := main_v3) (r := main_arg1) (h := by decide),
    binary_result_ne (a := main_v2) (b := main_v0) (y := main_v3) (r := main_v0) (h := by decide)]
  rw [reshape_result_ne (x := main_v1) (y := main_v2) (r := main_arg1) (h := by decide),
    reshape_result_ne (x := main_v1) (y := main_v2) (r := main_v0) (h := by decide),
    unary_result_ne (x := main_arg1) (y := main_v1) (r := main_arg1) (h := by decide)]
  rw [unary_result_ne (x := main_arg1) (y := main_v1) (r := main_v0) (h := by decide),
    nullary_result_ne (y := main_v0) (r := main_arg1) (h := by decide),
    nullary_result (y := main_v0)]
  exact hR

set_option maxHeartbeats 1000000 in
/-- Where the degree is positive. -/
theorem degPos_at : after (opsA (F := Ideal)) W (Proc.devRef .tc main_v12)
    = Cert.Glue.degPos (Cert.Glue.dst (W (Proc.devRef .tc main_arg1))) := by
  generalize hR : Cert.Glue.degPos (Cert.Glue.dst (W (Proc.devRef .tc main_arg1))) = R
  unfold opsA
  simp only [after_cons, after_nil]
  rw [nullary_result_ne (y := main_cst_2) (r := main_v12) (h := by decide),
    unary_result_ne (x := main_v10) (y := main_v13) (r := main_v12) (h := by decide),
    binary_result (a := main_v10) (b := main_v11) (y := main_v12)]
  rw [unary_result_ne (x := main_cst_1) (y := main_v11) (r := main_v10) (h := by decide),
    unary_result (x := main_cst_1) (y := main_v11),
    nullary_result_ne (y := main_cst_1) (r := main_v10) (h := by decide)]
  rw [nullary_result (y := main_cst_1),
    ternary_result (c := main_v8) (a := main_v9) (b := main_v7) (y := main_v10),
    unary_result_ne (x := main_v6) (y := main_v9) (r := main_v8) (h := by decide)]
  rw [unary_result (x := main_v6) (y := main_v9),
    unary_result_ne (x := main_v6) (y := main_v9) (r := main_v7) (h := by decide),
    unary_result (x := main_cst_0) (y := main_v8)]
  rw [unary_result_ne (x := main_cst_0) (y := main_v8) (r := main_v6) (h := by decide),
    unary_result_ne (x := main_cst_0) (y := main_v8) (r := main_v7) (h := by decide),
    nullary_result (y := main_cst_0)]
  rw [nullary_result_ne (y := main_cst_0) (r := main_v6) (h := by decide),
    nullary_result_ne (y := main_cst_0) (r := main_v7) (h := by decide),
    unary_result_ne (x := main_cst) (y := main_v7) (r := main_v6) (h := by decide)]
  rw [unary_result (x := main_cst) (y := main_v7),
    nullary_result_ne (y := main_cst) (r := main_v6) (h := by decide),
    nullary_result (y := main_cst)]
  rw [binary_result (a := main_v5) (b := main_v0) (y := main_v6),
    reshape_result (x := main_v4) (y := main_v5),
    reshape_result_ne (x := main_v4) (y := main_v5) (r := main_v0) (h := by decide)]
  rw [unary_result (x := main_arg1) (y := main_v4),
    unary_result_ne (x := main_arg1) (y := main_v4) (r := main_v0) (h := by decide),
    binary_result_ne (a := main_v2) (b := main_v0) (y := main_v3) (r := main_arg1) (h := by decide)]
  rw [binary_result_ne (a := main_v2) (b := main_v0) (y := main_v3) (r := main_v0) (h := by decide),
    reshape_result_ne (x := main_v1) (y := main_v2) (r := main_arg1) (h := by decide),
    reshape_result_ne (x := main_v1) (y := main_v2) (r := main_v0) (h := by decide)]
  rw [unary_result_ne (x := main_arg1) (y := main_v1) (r := main_arg1) (h := by decide),
    unary_result_ne (x := main_arg1) (y := main_v1) (r := main_v0) (h := by decide),
    nullary_result_ne (y := main_v0) (r := main_arg1) (h := by decide)]
  rw [nullary_result (y := main_v0)]
  exact hR

set_option maxHeartbeats 1000000 in
/-- The inverse square root of the degree. -/
theorem degRsqrt_at : after (opsA (F := Ideal)) W (Proc.devRef .tc main_v13)
    = Cert.Glue.degRsqrt (Cert.Glue.dst (W (Proc.devRef .tc main_arg1))) := by
  generalize hR : Cert.Glue.degRsqrt (Cert.Glue.dst (W (Proc.devRef .tc main_arg1))) = R
  unfold opsA
  simp only [after_cons, after_nil]
  rw [nullary_result_ne (y := main_cst_2) (r := main_v13) (h := by decide),
    unary_result (x := main_v10) (y := main_v13),
    binary_result_ne (a := main_v10) (b := main_v11) (y := main_v12) (r := main_v10) (h := by decide)]
  rw [unary_result_ne (x := main_cst_1) (y := main_v11) (r := main_v10) (h := by decide),
    nullary_result_ne (y := main_cst_1) (r := main_v10) (h := by decide),
    ternary_result (c := main_v8) (a := main_v9) (b := main_v7) (y := main_v10)]
  rw [unary_result_ne (x := main_v6) (y := main_v9) (r := main_v8) (h := by decide),
    unary_result (x := main_v6) (y := main_v9),
    unary_result_ne (x := main_v6) (y := main_v9) (r := main_v7) (h := by decide)]
  rw [unary_result (x := main_cst_0) (y := main_v8),
    unary_result_ne (x := main_cst_0) (y := main_v8) (r := main_v6) (h := by decide),
    unary_result_ne (x := main_cst_0) (y := main_v8) (r := main_v7) (h := by decide)]
  rw [nullary_result (y := main_cst_0),
    nullary_result_ne (y := main_cst_0) (r := main_v6) (h := by decide),
    nullary_result_ne (y := main_cst_0) (r := main_v7) (h := by decide)]
  rw [unary_result_ne (x := main_cst) (y := main_v7) (r := main_v6) (h := by decide),
    unary_result (x := main_cst) (y := main_v7),
    nullary_result_ne (y := main_cst) (r := main_v6) (h := by decide)]
  rw [nullary_result (y := main_cst),
    binary_result (a := main_v5) (b := main_v0) (y := main_v6),
    reshape_result (x := main_v4) (y := main_v5)]
  rw [reshape_result_ne (x := main_v4) (y := main_v5) (r := main_v0) (h := by decide),
    unary_result (x := main_arg1) (y := main_v4),
    unary_result_ne (x := main_arg1) (y := main_v4) (r := main_v0) (h := by decide)]
  rw [binary_result_ne (a := main_v2) (b := main_v0) (y := main_v3) (r := main_arg1) (h := by decide),
    binary_result_ne (a := main_v2) (b := main_v0) (y := main_v3) (r := main_v0) (h := by decide),
    reshape_result_ne (x := main_v1) (y := main_v2) (r := main_arg1) (h := by decide)]
  rw [reshape_result_ne (x := main_v1) (y := main_v2) (r := main_v0) (h := by decide),
    unary_result_ne (x := main_arg1) (y := main_v1) (r := main_arg1) (h := by decide),
    unary_result_ne (x := main_arg1) (y := main_v1) (r := main_v0) (h := by decide)]
  rw [nullary_result_ne (y := main_v0) (r := main_arg1) (h := by decide),
    nullary_result (y := main_v0)]
  exact hR

set_option maxHeartbeats 1000000 in
/-- The constant 0 the weights fall back to. -/
theorem zero_at : after (opsA (F := Ideal)) W (Proc.devRef .tc main_cst_2)
    = constant (F := Ideal) S_ .f32 0x00000000#32 := by
  generalize hR : constant (F := Ideal) S_ .f32 0x00000000#32 = R
  unfold opsA
  simp only [after_cons, after_nil]
  rw [nullary_result (y := main_cst_2)]
  exact hR

set_option maxHeartbeats 1000000 in
/-- The node weights. -/
theorem weight_at : after (opsB (F := Ideal)) W (Proc.devRef .tc main_v14)
    = Cert.Glue.whereOf (W (Proc.devRef .tc main_v12)) (W (Proc.devRef .tc main_v13)) (W (Proc.devRef .tc main_cst_2)) := by
  generalize hR : Cert.Glue.whereOf (W (Proc.devRef .tc main_v12)) (W (Proc.devRef .tc main_v13)) (W (Proc.devRef .tc main_cst_2)) = R
  unfold opsB
  simp only [after_cons, after_nil]
  rw [ternary_result (c := main_v12) (a := main_v13) (b := main_call0_v1) (y := main_v14),
    unary_result_ne (x := main_call0_v0) (y := main_call0_v1) (r := main_v12) (h := by decide),
    unary_result_ne (x := main_call0_v0) (y := main_call0_v1) (r := main_v13) (h := by decide)]
  rw [unary_result (x := main_call0_v0) (y := main_call0_v1),
    unary_result_ne (x := main_cst_2) (y := main_call0_v0) (r := main_v12) (h := by decide),
    unary_result_ne (x := main_cst_2) (y := main_call0_v0) (r := main_v13) (h := by decide)]
  rw [unary_result (x := main_cst_2) (y := main_call0_v0)]
  exact hR

set_option maxHeartbeats 1000000 in
/-- The edge coefficients. -/
theorem coeff_at : after (opsC (F := Ideal)) W (Proc.devRef .tc main_v29)
    = Cert.Glue.coeffOf (W (Proc.devRef .tc main_v14)) (W (Proc.devRef .tc main_v3)) (W (Proc.devRef .tc main_v6)) := by
  generalize hR : Cert.Glue.coeffOf (W (Proc.devRef .tc main_v14)) (W (Proc.devRef .tc main_v3)) (W (Proc.devRef .tc main_v6)) = R
  unfold opsC
  simp only [after_cons, after_nil]
  rw [binary_result (a := main_v21) (b := main_v28) (y := main_v29),
    binary_result_ne (a := main_v14) (b := main_v27) (y := main_v28) (r := main_v21) (h := by decide),
    binary_result (a := main_v14) (b := main_v27) (y := main_v28)]
  rw [unary_result_ne (x := main_v26) (y := main_v27) (r := main_v21) (h := by decide),
    unary_result_ne (x := main_v26) (y := main_v27) (r := main_v14) (h := by decide),
    unary_result (x := main_v26) (y := main_v27)]
  rw [ternary_result_ne (c := main_v23) (a := main_v25) (b := main_v6) (y := main_v26) (r := main_v21) (h := by decide),
    ternary_result_ne (c := main_v23) (a := main_v25) (b := main_v6) (y := main_v26) (r := main_v14) (h := by decide),
    ternary_result (c := main_v23) (a := main_v25) (b := main_v6) (y := main_v26)]
  rw [binary_result_ne (a := main_v6) (b := main_v24) (y := main_v25) (r := main_v21) (h := by decide),
    binary_result_ne (a := main_v6) (b := main_v24) (y := main_v25) (r := main_v14) (h := by decide),
    binary_result_ne (a := main_v6) (b := main_v24) (y := main_v25) (r := main_v23) (h := by decide)]
  rw [binary_result (a := main_v6) (b := main_v24) (y := main_v25),
    binary_result_ne (a := main_v6) (b := main_v24) (y := main_v25) (r := main_v6) (h := by decide),
    unary_result_ne (x := main_c_5) (y := main_v24) (r := main_v21) (h := by decide)]
  rw [unary_result_ne (x := main_c_5) (y := main_v24) (r := main_v14) (h := by decide),
    unary_result_ne (x := main_c_5) (y := main_v24) (r := main_v23) (h := by decide),
    unary_result_ne (x := main_c_5) (y := main_v24) (r := main_v6) (h := by decide)]
  rw [unary_result (x := main_c_5) (y := main_v24),
    nullary_result_ne (y := main_c_5) (r := main_v21) (h := by decide),
    nullary_result_ne (y := main_c_5) (r := main_v14) (h := by decide)]
  rw [nullary_result_ne (y := main_c_5) (r := main_v23) (h := by decide),
    nullary_result_ne (y := main_c_5) (r := main_v6) (h := by decide),
    nullary_result (y := main_c_5)]
  rw [binary_result_ne (a := main_v6) (b := main_v22) (y := main_v23) (r := main_v21) (h := by decide),
    binary_result_ne (a := main_v6) (b := main_v22) (y := main_v23) (r := main_v14) (h := by decide),
    binary_result (a := main_v6) (b := main_v22) (y := main_v23)]
  rw [binary_result_ne (a := main_v6) (b := main_v22) (y := main_v23) (r := main_v6) (h := by decide),
    unary_result_ne (x := main_c_4) (y := main_v22) (r := main_v21) (h := by decide),
    unary_result_ne (x := main_c_4) (y := main_v22) (r := main_v14) (h := by decide)]
  rw [unary_result_ne (x := main_c_4) (y := main_v22) (r := main_v6) (h := by decide),
    unary_result (x := main_c_4) (y := main_v22),
    nullary_result_ne (y := main_c_4) (r := main_v21) (h := by decide)]
  rw [nullary_result_ne (y := main_c_4) (r := main_v14) (h := by decide),
    nullary_result_ne (y := main_c_4) (r := main_v6) (h := by decide),
    nullary_result (y := main_c_4)]
  rw [binary_result (a := main_v14) (b := main_v20) (y := main_v21),
    binary_result_ne (a := main_v14) (b := main_v20) (y := main_v21) (r := main_v14) (h := by decide),
    binary_result_ne (a := main_v14) (b := main_v20) (y := main_v21) (r := main_v6) (h := by decide)]
  rw [unary_result_ne (x := main_v19) (y := main_v20) (r := main_v14) (h := by decide),
    unary_result (x := main_v19) (y := main_v20),
    unary_result_ne (x := main_v19) (y := main_v20) (r := main_v6) (h := by decide)]
  rw [ternary_result_ne (c := main_v16) (a := main_v18) (b := main_v3) (y := main_v19) (r := main_v14) (h := by decide),
    ternary_result (c := main_v16) (a := main_v18) (b := main_v3) (y := main_v19),
    ternary_result_ne (c := main_v16) (a := main_v18) (b := main_v3) (y := main_v19) (r := main_v6) (h := by decide)]
  rw [binary_result_ne (a := main_v3) (b := main_v17) (y := main_v18) (r := main_v14) (h := by decide),
    binary_result_ne (a := main_v3) (b := main_v17) (y := main_v18) (r := main_v16) (h := by decide),
    binary_result (a := main_v3) (b := main_v17) (y := main_v18)]
  rw [binary_result_ne (a := main_v3) (b := main_v17) (y := main_v18) (r := main_v3) (h := by decide),
    binary_result_ne (a := main_v3) (b := main_v17) (y := main_v18) (r := main_v6) (h := by decide),
    unary_result_ne (x := main_c_3) (y := main_v17) (r := main_v14) (h := by decide)]
  rw [unary_result_ne (x := main_c_3) (y := main_v17) (r := main_v16) (h := by decide),
    unary_result_ne (x := main_c_3) (y := main_v17) (r := main_v3) (h := by decide),
    unary_result (x := main_c_3) (y := main_v17)]
  rw [unary_result_ne (x := main_c_3) (y := main_v17) (r := main_v6) (h := by decide),
    nullary_result_ne (y := main_c_3) (r := main_v14) (h := by decide),
    nullary_result_ne (y := main_c_3) (r := main_v16) (h := by decide)]
  rw [nullary_result_ne (y := main_c_3) (r := main_v3) (h := by decide),
    nullary_result (y := main_c_3),
    nullary_result_ne (y := main_c_3) (r := main_v6) (h := by decide)]
  rw [binary_result_ne (a := main_v3) (b := main_v15) (y := main_v16) (r := main_v14) (h := by decide),
    binary_result (a := main_v3) (b := main_v15) (y := main_v16),
    binary_result_ne (a := main_v3) (b := main_v15) (y := main_v16) (r := main_v3) (h := by decide)]
  rw [binary_result_ne (a := main_v3) (b := main_v15) (y := main_v16) (r := main_v6) (h := by decide),
    unary_result_ne (x := main_c) (y := main_v15) (r := main_v14) (h := by decide),
    unary_result_ne (x := main_c) (y := main_v15) (r := main_v3) (h := by decide)]
  rw [unary_result (x := main_c) (y := main_v15),
    unary_result_ne (x := main_c) (y := main_v15) (r := main_v6) (h := by decide),
    nullary_result_ne (y := main_c) (r := main_v14) (h := by decide)]
  rw [nullary_result_ne (y := main_c) (r := main_v3) (h := by decide),
    nullary_result (y := main_c),
    nullary_result_ne (y := main_c) (r := main_v6) (h := by decide)]
  exact hR

/-! ## What a stretch leaves alone -/

theorem keepA_arg0 : after (opsA (F := Ideal)) W (Proc.devRef .tc main_arg0) = W (Proc.devRef .tc main_arg0) := by
  unfold opsA
  simp only [after_cons, after_nil]
  rw [nullary_result_ne (y := main_cst_2) (r := main_arg0) (h := by decide),
    unary_result_ne (x := main_v10) (y := main_v13) (r := main_arg0) (h := by decide),
    binary_result_ne (a := main_v10) (b := main_v11) (y := main_v12) (r := main_arg0) (h := by decide),
    unary_result_ne (x := main_cst_1) (y := main_v11) (r := main_arg0) (h := by decide)]
  rw [nullary_result_ne (y := main_cst_1) (r := main_arg0) (h := by decide),
    ternary_result_ne (c := main_v8) (a := main_v9) (b := main_v7) (y := main_v10) (r := main_arg0) (h := by decide),
    unary_result_ne (x := main_v6) (y := main_v9) (r := main_arg0) (h := by decide),
    unary_result_ne (x := main_cst_0) (y := main_v8) (r := main_arg0) (h := by decide)]
  rw [nullary_result_ne (y := main_cst_0) (r := main_arg0) (h := by decide),
    unary_result_ne (x := main_cst) (y := main_v7) (r := main_arg0) (h := by decide),
    nullary_result_ne (y := main_cst) (r := main_arg0) (h := by decide),
    binary_result_ne (a := main_v5) (b := main_v0) (y := main_v6) (r := main_arg0) (h := by decide)]
  rw [reshape_result_ne (x := main_v4) (y := main_v5) (r := main_arg0) (h := by decide),
    unary_result_ne (x := main_arg1) (y := main_v4) (r := main_arg0) (h := by decide),
    binary_result_ne (a := main_v2) (b := main_v0) (y := main_v3) (r := main_arg0) (h := by decide),
    reshape_result_ne (x := main_v1) (y := main_v2) (r := main_arg0) (h := by decide)]
  rw [unary_result_ne (x := main_arg1) (y := main_v1) (r := main_arg0) (h := by decide),
    nullary_result_ne (y := main_v0) (r := main_arg0) (h := by decide)]

theorem keepA_arg2 : after (opsA (F := Ideal)) W (Proc.devRef .tc main_arg2) = W (Proc.devRef .tc main_arg2) := by
  unfold opsA
  simp only [after_cons, after_nil]
  rw [nullary_result_ne (y := main_cst_2) (r := main_arg2) (h := by decide),
    unary_result_ne (x := main_v10) (y := main_v13) (r := main_arg2) (h := by decide),
    binary_result_ne (a := main_v10) (b := main_v11) (y := main_v12) (r := main_arg2) (h := by decide),
    unary_result_ne (x := main_cst_1) (y := main_v11) (r := main_arg2) (h := by decide)]
  rw [nullary_result_ne (y := main_cst_1) (r := main_arg2) (h := by decide),
    ternary_result_ne (c := main_v8) (a := main_v9) (b := main_v7) (y := main_v10) (r := main_arg2) (h := by decide),
    unary_result_ne (x := main_v6) (y := main_v9) (r := main_arg2) (h := by decide),
    unary_result_ne (x := main_cst_0) (y := main_v8) (r := main_arg2) (h := by decide)]
  rw [nullary_result_ne (y := main_cst_0) (r := main_arg2) (h := by decide),
    unary_result_ne (x := main_cst) (y := main_v7) (r := main_arg2) (h := by decide),
    nullary_result_ne (y := main_cst) (r := main_arg2) (h := by decide),
    binary_result_ne (a := main_v5) (b := main_v0) (y := main_v6) (r := main_arg2) (h := by decide)]
  rw [reshape_result_ne (x := main_v4) (y := main_v5) (r := main_arg2) (h := by decide),
    unary_result_ne (x := main_arg1) (y := main_v4) (r := main_arg2) (h := by decide),
    binary_result_ne (a := main_v2) (b := main_v0) (y := main_v3) (r := main_arg2) (h := by decide),
    reshape_result_ne (x := main_v1) (y := main_v2) (r := main_arg2) (h := by decide)]
  rw [unary_result_ne (x := main_arg1) (y := main_v1) (r := main_arg2) (h := by decide),
    nullary_result_ne (y := main_v0) (r := main_arg2) (h := by decide)]

theorem keepA_arg3 : after (opsA (F := Ideal)) W (Proc.devRef .tc main_arg3) = W (Proc.devRef .tc main_arg3) := by
  unfold opsA
  simp only [after_cons, after_nil]
  rw [nullary_result_ne (y := main_cst_2) (r := main_arg3) (h := by decide),
    unary_result_ne (x := main_v10) (y := main_v13) (r := main_arg3) (h := by decide),
    binary_result_ne (a := main_v10) (b := main_v11) (y := main_v12) (r := main_arg3) (h := by decide),
    unary_result_ne (x := main_cst_1) (y := main_v11) (r := main_arg3) (h := by decide)]
  rw [nullary_result_ne (y := main_cst_1) (r := main_arg3) (h := by decide),
    ternary_result_ne (c := main_v8) (a := main_v9) (b := main_v7) (y := main_v10) (r := main_arg3) (h := by decide),
    unary_result_ne (x := main_v6) (y := main_v9) (r := main_arg3) (h := by decide),
    unary_result_ne (x := main_cst_0) (y := main_v8) (r := main_arg3) (h := by decide)]
  rw [nullary_result_ne (y := main_cst_0) (r := main_arg3) (h := by decide),
    unary_result_ne (x := main_cst) (y := main_v7) (r := main_arg3) (h := by decide),
    nullary_result_ne (y := main_cst) (r := main_arg3) (h := by decide),
    binary_result_ne (a := main_v5) (b := main_v0) (y := main_v6) (r := main_arg3) (h := by decide)]
  rw [reshape_result_ne (x := main_v4) (y := main_v5) (r := main_arg3) (h := by decide),
    unary_result_ne (x := main_arg1) (y := main_v4) (r := main_arg3) (h := by decide),
    binary_result_ne (a := main_v2) (b := main_v0) (y := main_v3) (r := main_arg3) (h := by decide),
    reshape_result_ne (x := main_v1) (y := main_v2) (r := main_arg3) (h := by decide)]
  rw [unary_result_ne (x := main_arg1) (y := main_v1) (r := main_arg3) (h := by decide),
    nullary_result_ne (y := main_v0) (r := main_arg3) (h := by decide)]

theorem keepA_arg4 : after (opsA (F := Ideal)) W (Proc.devRef .tc main_arg4) = W (Proc.devRef .tc main_arg4) := by
  unfold opsA
  simp only [after_cons, after_nil]
  rw [nullary_result_ne (y := main_cst_2) (r := main_arg4) (h := by decide),
    unary_result_ne (x := main_v10) (y := main_v13) (r := main_arg4) (h := by decide),
    binary_result_ne (a := main_v10) (b := main_v11) (y := main_v12) (r := main_arg4) (h := by decide),
    unary_result_ne (x := main_cst_1) (y := main_v11) (r := main_arg4) (h := by decide)]
  rw [nullary_result_ne (y := main_cst_1) (r := main_arg4) (h := by decide),
    ternary_result_ne (c := main_v8) (a := main_v9) (b := main_v7) (y := main_v10) (r := main_arg4) (h := by decide),
    unary_result_ne (x := main_v6) (y := main_v9) (r := main_arg4) (h := by decide),
    unary_result_ne (x := main_cst_0) (y := main_v8) (r := main_arg4) (h := by decide)]
  rw [nullary_result_ne (y := main_cst_0) (r := main_arg4) (h := by decide),
    unary_result_ne (x := main_cst) (y := main_v7) (r := main_arg4) (h := by decide),
    nullary_result_ne (y := main_cst) (r := main_arg4) (h := by decide),
    binary_result_ne (a := main_v5) (b := main_v0) (y := main_v6) (r := main_arg4) (h := by decide)]
  rw [reshape_result_ne (x := main_v4) (y := main_v5) (r := main_arg4) (h := by decide),
    unary_result_ne (x := main_arg1) (y := main_v4) (r := main_arg4) (h := by decide),
    binary_result_ne (a := main_v2) (b := main_v0) (y := main_v3) (r := main_arg4) (h := by decide),
    reshape_result_ne (x := main_v1) (y := main_v2) (r := main_arg4) (h := by decide)]
  rw [unary_result_ne (x := main_arg1) (y := main_v1) (r := main_arg4) (h := by decide),
    nullary_result_ne (y := main_v0) (r := main_arg4) (h := by decide)]

theorem keepA_arg5 : after (opsA (F := Ideal)) W (Proc.devRef .tc main_arg5) = W (Proc.devRef .tc main_arg5) := by
  unfold opsA
  simp only [after_cons, after_nil]
  rw [nullary_result_ne (y := main_cst_2) (r := main_arg5) (h := by decide),
    unary_result_ne (x := main_v10) (y := main_v13) (r := main_arg5) (h := by decide),
    binary_result_ne (a := main_v10) (b := main_v11) (y := main_v12) (r := main_arg5) (h := by decide),
    unary_result_ne (x := main_cst_1) (y := main_v11) (r := main_arg5) (h := by decide)]
  rw [nullary_result_ne (y := main_cst_1) (r := main_arg5) (h := by decide),
    ternary_result_ne (c := main_v8) (a := main_v9) (b := main_v7) (y := main_v10) (r := main_arg5) (h := by decide),
    unary_result_ne (x := main_v6) (y := main_v9) (r := main_arg5) (h := by decide),
    unary_result_ne (x := main_cst_0) (y := main_v8) (r := main_arg5) (h := by decide)]
  rw [nullary_result_ne (y := main_cst_0) (r := main_arg5) (h := by decide),
    unary_result_ne (x := main_cst) (y := main_v7) (r := main_arg5) (h := by decide),
    nullary_result_ne (y := main_cst) (r := main_arg5) (h := by decide),
    binary_result_ne (a := main_v5) (b := main_v0) (y := main_v6) (r := main_arg5) (h := by decide)]
  rw [reshape_result_ne (x := main_v4) (y := main_v5) (r := main_arg5) (h := by decide),
    unary_result_ne (x := main_arg1) (y := main_v4) (r := main_arg5) (h := by decide),
    binary_result_ne (a := main_v2) (b := main_v0) (y := main_v3) (r := main_arg5) (h := by decide),
    reshape_result_ne (x := main_v1) (y := main_v2) (r := main_arg5) (h := by decide)]
  rw [unary_result_ne (x := main_arg1) (y := main_v1) (r := main_arg5) (h := by decide),
    nullary_result_ne (y := main_v0) (r := main_arg5) (h := by decide)]

theorem keepA_arg6 : after (opsA (F := Ideal)) W (Proc.devRef .tc main_arg6) = W (Proc.devRef .tc main_arg6) := by
  unfold opsA
  simp only [after_cons, after_nil]
  rw [nullary_result_ne (y := main_cst_2) (r := main_arg6) (h := by decide),
    unary_result_ne (x := main_v10) (y := main_v13) (r := main_arg6) (h := by decide),
    binary_result_ne (a := main_v10) (b := main_v11) (y := main_v12) (r := main_arg6) (h := by decide),
    unary_result_ne (x := main_cst_1) (y := main_v11) (r := main_arg6) (h := by decide)]
  rw [nullary_result_ne (y := main_cst_1) (r := main_arg6) (h := by decide),
    ternary_result_ne (c := main_v8) (a := main_v9) (b := main_v7) (y := main_v10) (r := main_arg6) (h := by decide),
    unary_result_ne (x := main_v6) (y := main_v9) (r := main_arg6) (h := by decide),
    unary_result_ne (x := main_cst_0) (y := main_v8) (r := main_arg6) (h := by decide)]
  rw [nullary_result_ne (y := main_cst_0) (r := main_arg6) (h := by decide),
    unary_result_ne (x := main_cst) (y := main_v7) (r := main_arg6) (h := by decide),
    nullary_result_ne (y := main_cst) (r := main_arg6) (h := by decide),
    binary_result_ne (a := main_v5) (b := main_v0) (y := main_v6) (r := main_arg6) (h := by decide)]
  rw [reshape_result_ne (x := main_v4) (y := main_v5) (r := main_arg6) (h := by decide),
    unary_result_ne (x := main_arg1) (y := main_v4) (r := main_arg6) (h := by decide),
    binary_result_ne (a := main_v2) (b := main_v0) (y := main_v3) (r := main_arg6) (h := by decide),
    reshape_result_ne (x := main_v1) (y := main_v2) (r := main_arg6) (h := by decide)]
  rw [unary_result_ne (x := main_arg1) (y := main_v1) (r := main_arg6) (h := by decide),
    nullary_result_ne (y := main_v0) (r := main_arg6) (h := by decide)]

theorem keepA_arg7 : after (opsA (F := Ideal)) W (Proc.devRef .tc main_arg7) = W (Proc.devRef .tc main_arg7) := by
  unfold opsA
  simp only [after_cons, after_nil]
  rw [nullary_result_ne (y := main_cst_2) (r := main_arg7) (h := by decide),
    unary_result_ne (x := main_v10) (y := main_v13) (r := main_arg7) (h := by decide),
    binary_result_ne (a := main_v10) (b := main_v11) (y := main_v12) (r := main_arg7) (h := by decide),
    unary_result_ne (x := main_cst_1) (y := main_v11) (r := main_arg7) (h := by decide)]
  rw [nullary_result_ne (y := main_cst_1) (r := main_arg7) (h := by decide),
    ternary_result_ne (c := main_v8) (a := main_v9) (b := main_v7) (y := main_v10) (r := main_arg7) (h := by decide),
    unary_result_ne (x := main_v6) (y := main_v9) (r := main_arg7) (h := by decide),
    unary_result_ne (x := main_cst_0) (y := main_v8) (r := main_arg7) (h := by decide)]
  rw [nullary_result_ne (y := main_cst_0) (r := main_arg7) (h := by decide),
    unary_result_ne (x := main_cst) (y := main_v7) (r := main_arg7) (h := by decide),
    nullary_result_ne (y := main_cst) (r := main_arg7) (h := by decide),
    binary_result_ne (a := main_v5) (b := main_v0) (y := main_v6) (r := main_arg7) (h := by decide)]
  rw [reshape_result_ne (x := main_v4) (y := main_v5) (r := main_arg7) (h := by decide),
    unary_result_ne (x := main_arg1) (y := main_v4) (r := main_arg7) (h := by decide),
    binary_result_ne (a := main_v2) (b := main_v0) (y := main_v3) (r := main_arg7) (h := by decide),
    reshape_result_ne (x := main_v1) (y := main_v2) (r := main_arg7) (h := by decide)]
  rw [unary_result_ne (x := main_arg1) (y := main_v1) (r := main_arg7) (h := by decide),
    nullary_result_ne (y := main_v0) (r := main_arg7) (h := by decide)]

theorem keepB_v3 : after (opsB (F := Ideal)) W (Proc.devRef .tc main_v3) = W (Proc.devRef .tc main_v3) := by
  unfold opsB
  simp only [after_cons, after_nil]
  rw [ternary_result_ne (c := main_v12) (a := main_v13) (b := main_call0_v1) (y := main_v14) (r := main_v3) (h := by decide),
    unary_result_ne (x := main_call0_v0) (y := main_call0_v1) (r := main_v3) (h := by decide),
    unary_result_ne (x := main_cst_2) (y := main_call0_v0) (r := main_v3) (h := by decide)]

theorem keepB_v6 : after (opsB (F := Ideal)) W (Proc.devRef .tc main_v6) = W (Proc.devRef .tc main_v6) := by
  unfold opsB
  simp only [after_cons, after_nil]
  rw [ternary_result_ne (c := main_v12) (a := main_v13) (b := main_call0_v1) (y := main_v14) (r := main_v6) (h := by decide),
    unary_result_ne (x := main_call0_v0) (y := main_call0_v1) (r := main_v6) (h := by decide),
    unary_result_ne (x := main_cst_2) (y := main_call0_v0) (r := main_v6) (h := by decide)]

theorem keepB_arg0 : after (opsB (F := Ideal)) W (Proc.devRef .tc main_arg0) = W (Proc.devRef .tc main_arg0) := by
  unfold opsB
  simp only [after_cons, after_nil]
  rw [ternary_result_ne (c := main_v12) (a := main_v13) (b := main_call0_v1) (y := main_v14) (r := main_arg0) (h := by decide),
    unary_result_ne (x := main_call0_v0) (y := main_call0_v1) (r := main_arg0) (h := by decide),
    unary_result_ne (x := main_cst_2) (y := main_call0_v0) (r := main_arg0) (h := by decide)]

theorem keepB_arg2 : after (opsB (F := Ideal)) W (Proc.devRef .tc main_arg2) = W (Proc.devRef .tc main_arg2) := by
  unfold opsB
  simp only [after_cons, after_nil]
  rw [ternary_result_ne (c := main_v12) (a := main_v13) (b := main_call0_v1) (y := main_v14) (r := main_arg2) (h := by decide),
    unary_result_ne (x := main_call0_v0) (y := main_call0_v1) (r := main_arg2) (h := by decide),
    unary_result_ne (x := main_cst_2) (y := main_call0_v0) (r := main_arg2) (h := by decide)]

theorem keepB_arg3 : after (opsB (F := Ideal)) W (Proc.devRef .tc main_arg3) = W (Proc.devRef .tc main_arg3) := by
  unfold opsB
  simp only [after_cons, after_nil]
  rw [ternary_result_ne (c := main_v12) (a := main_v13) (b := main_call0_v1) (y := main_v14) (r := main_arg3) (h := by decide),
    unary_result_ne (x := main_call0_v0) (y := main_call0_v1) (r := main_arg3) (h := by decide),
    unary_result_ne (x := main_cst_2) (y := main_call0_v0) (r := main_arg3) (h := by decide)]

theorem keepB_arg4 : after (opsB (F := Ideal)) W (Proc.devRef .tc main_arg4) = W (Proc.devRef .tc main_arg4) := by
  unfold opsB
  simp only [after_cons, after_nil]
  rw [ternary_result_ne (c := main_v12) (a := main_v13) (b := main_call0_v1) (y := main_v14) (r := main_arg4) (h := by decide),
    unary_result_ne (x := main_call0_v0) (y := main_call0_v1) (r := main_arg4) (h := by decide),
    unary_result_ne (x := main_cst_2) (y := main_call0_v0) (r := main_arg4) (h := by decide)]

theorem keepB_arg5 : after (opsB (F := Ideal)) W (Proc.devRef .tc main_arg5) = W (Proc.devRef .tc main_arg5) := by
  unfold opsB
  simp only [after_cons, after_nil]
  rw [ternary_result_ne (c := main_v12) (a := main_v13) (b := main_call0_v1) (y := main_v14) (r := main_arg5) (h := by decide),
    unary_result_ne (x := main_call0_v0) (y := main_call0_v1) (r := main_arg5) (h := by decide),
    unary_result_ne (x := main_cst_2) (y := main_call0_v0) (r := main_arg5) (h := by decide)]

theorem keepB_arg6 : after (opsB (F := Ideal)) W (Proc.devRef .tc main_arg6) = W (Proc.devRef .tc main_arg6) := by
  unfold opsB
  simp only [after_cons, after_nil]
  rw [ternary_result_ne (c := main_v12) (a := main_v13) (b := main_call0_v1) (y := main_v14) (r := main_arg6) (h := by decide),
    unary_result_ne (x := main_call0_v0) (y := main_call0_v1) (r := main_arg6) (h := by decide),
    unary_result_ne (x := main_cst_2) (y := main_call0_v0) (r := main_arg6) (h := by decide)]

theorem keepB_arg7 : after (opsB (F := Ideal)) W (Proc.devRef .tc main_arg7) = W (Proc.devRef .tc main_arg7) := by
  unfold opsB
  simp only [after_cons, after_nil]
  rw [ternary_result_ne (c := main_v12) (a := main_v13) (b := main_call0_v1) (y := main_v14) (r := main_arg7) (h := by decide),
    unary_result_ne (x := main_call0_v0) (y := main_call0_v1) (r := main_arg7) (h := by decide),
    unary_result_ne (x := main_cst_2) (y := main_call0_v0) (r := main_arg7) (h := by decide)]

theorem keepC_v3 : after (opsC (F := Ideal)) W (Proc.devRef .tc main_v3) = W (Proc.devRef .tc main_v3) := by
  unfold opsC
  simp only [after_cons, after_nil]
  rw [binary_result_ne (a := main_v21) (b := main_v28) (y := main_v29) (r := main_v3) (h := by decide),
    binary_result_ne (a := main_v14) (b := main_v27) (y := main_v28) (r := main_v3) (h := by decide),
    unary_result_ne (x := main_v26) (y := main_v27) (r := main_v3) (h := by decide),
    ternary_result_ne (c := main_v23) (a := main_v25) (b := main_v6) (y := main_v26) (r := main_v3) (h := by decide)]
  rw [binary_result_ne (a := main_v6) (b := main_v24) (y := main_v25) (r := main_v3) (h := by decide),
    unary_result_ne (x := main_c_5) (y := main_v24) (r := main_v3) (h := by decide),
    nullary_result_ne (y := main_c_5) (r := main_v3) (h := by decide),
    binary_result_ne (a := main_v6) (b := main_v22) (y := main_v23) (r := main_v3) (h := by decide)]
  rw [unary_result_ne (x := main_c_4) (y := main_v22) (r := main_v3) (h := by decide),
    nullary_result_ne (y := main_c_4) (r := main_v3) (h := by decide),
    binary_result_ne (a := main_v14) (b := main_v20) (y := main_v21) (r := main_v3) (h := by decide),
    unary_result_ne (x := main_v19) (y := main_v20) (r := main_v3) (h := by decide)]
  rw [ternary_result_ne (c := main_v16) (a := main_v18) (b := main_v3) (y := main_v19) (r := main_v3) (h := by decide),
    binary_result_ne (a := main_v3) (b := main_v17) (y := main_v18) (r := main_v3) (h := by decide),
    unary_result_ne (x := main_c_3) (y := main_v17) (r := main_v3) (h := by decide),
    nullary_result_ne (y := main_c_3) (r := main_v3) (h := by decide)]
  rw [binary_result_ne (a := main_v3) (b := main_v15) (y := main_v16) (r := main_v3) (h := by decide),
    unary_result_ne (x := main_c) (y := main_v15) (r := main_v3) (h := by decide),
    nullary_result_ne (y := main_c) (r := main_v3) (h := by decide)]

theorem keepC_v6 : after (opsC (F := Ideal)) W (Proc.devRef .tc main_v6) = W (Proc.devRef .tc main_v6) := by
  unfold opsC
  simp only [after_cons, after_nil]
  rw [binary_result_ne (a := main_v21) (b := main_v28) (y := main_v29) (r := main_v6) (h := by decide),
    binary_result_ne (a := main_v14) (b := main_v27) (y := main_v28) (r := main_v6) (h := by decide),
    unary_result_ne (x := main_v26) (y := main_v27) (r := main_v6) (h := by decide),
    ternary_result_ne (c := main_v23) (a := main_v25) (b := main_v6) (y := main_v26) (r := main_v6) (h := by decide)]
  rw [binary_result_ne (a := main_v6) (b := main_v24) (y := main_v25) (r := main_v6) (h := by decide),
    unary_result_ne (x := main_c_5) (y := main_v24) (r := main_v6) (h := by decide),
    nullary_result_ne (y := main_c_5) (r := main_v6) (h := by decide),
    binary_result_ne (a := main_v6) (b := main_v22) (y := main_v23) (r := main_v6) (h := by decide)]
  rw [unary_result_ne (x := main_c_4) (y := main_v22) (r := main_v6) (h := by decide),
    nullary_result_ne (y := main_c_4) (r := main_v6) (h := by decide),
    binary_result_ne (a := main_v14) (b := main_v20) (y := main_v21) (r := main_v6) (h := by decide),
    unary_result_ne (x := main_v19) (y := main_v20) (r := main_v6) (h := by decide)]
  rw [ternary_result_ne (c := main_v16) (a := main_v18) (b := main_v3) (y := main_v19) (r := main_v6) (h := by decide),
    binary_result_ne (a := main_v3) (b := main_v17) (y := main_v18) (r := main_v6) (h := by decide),
    unary_result_ne (x := main_c_3) (y := main_v17) (r := main_v6) (h := by decide),
    nullary_result_ne (y := main_c_3) (r := main_v6) (h := by decide)]
  rw [binary_result_ne (a := main_v3) (b := main_v15) (y := main_v16) (r := main_v6) (h := by decide),
    unary_result_ne (x := main_c) (y := main_v15) (r := main_v6) (h := by decide),
    nullary_result_ne (y := main_c) (r := main_v6) (h := by decide)]

theorem keepC_arg0 : after (opsC (F := Ideal)) W (Proc.devRef .tc main_arg0) = W (Proc.devRef .tc main_arg0) := by
  unfold opsC
  simp only [after_cons, after_nil]
  rw [binary_result_ne (a := main_v21) (b := main_v28) (y := main_v29) (r := main_arg0) (h := by decide),
    binary_result_ne (a := main_v14) (b := main_v27) (y := main_v28) (r := main_arg0) (h := by decide),
    unary_result_ne (x := main_v26) (y := main_v27) (r := main_arg0) (h := by decide),
    ternary_result_ne (c := main_v23) (a := main_v25) (b := main_v6) (y := main_v26) (r := main_arg0) (h := by decide)]
  rw [binary_result_ne (a := main_v6) (b := main_v24) (y := main_v25) (r := main_arg0) (h := by decide),
    unary_result_ne (x := main_c_5) (y := main_v24) (r := main_arg0) (h := by decide),
    nullary_result_ne (y := main_c_5) (r := main_arg0) (h := by decide),
    binary_result_ne (a := main_v6) (b := main_v22) (y := main_v23) (r := main_arg0) (h := by decide)]
  rw [unary_result_ne (x := main_c_4) (y := main_v22) (r := main_arg0) (h := by decide),
    nullary_result_ne (y := main_c_4) (r := main_arg0) (h := by decide),
    binary_result_ne (a := main_v14) (b := main_v20) (y := main_v21) (r := main_arg0) (h := by decide),
    unary_result_ne (x := main_v19) (y := main_v20) (r := main_arg0) (h := by decide)]
  rw [ternary_result_ne (c := main_v16) (a := main_v18) (b := main_v3) (y := main_v19) (r := main_arg0) (h := by decide),
    binary_result_ne (a := main_v3) (b := main_v17) (y := main_v18) (r := main_arg0) (h := by decide),
    unary_result_ne (x := main_c_3) (y := main_v17) (r := main_arg0) (h := by decide),
    nullary_result_ne (y := main_c_3) (r := main_arg0) (h := by decide)]
  rw [binary_result_ne (a := main_v3) (b := main_v15) (y := main_v16) (r := main_arg0) (h := by decide),
    unary_result_ne (x := main_c) (y := main_v15) (r := main_arg0) (h := by decide),
    nullary_result_ne (y := main_c) (r := main_arg0) (h := by decide)]

theorem keepC_arg2 : after (opsC (F := Ideal)) W (Proc.devRef .tc main_arg2) = W (Proc.devRef .tc main_arg2) := by
  unfold opsC
  simp only [after_cons, after_nil]
  rw [binary_result_ne (a := main_v21) (b := main_v28) (y := main_v29) (r := main_arg2) (h := by decide),
    binary_result_ne (a := main_v14) (b := main_v27) (y := main_v28) (r := main_arg2) (h := by decide),
    unary_result_ne (x := main_v26) (y := main_v27) (r := main_arg2) (h := by decide),
    ternary_result_ne (c := main_v23) (a := main_v25) (b := main_v6) (y := main_v26) (r := main_arg2) (h := by decide)]
  rw [binary_result_ne (a := main_v6) (b := main_v24) (y := main_v25) (r := main_arg2) (h := by decide),
    unary_result_ne (x := main_c_5) (y := main_v24) (r := main_arg2) (h := by decide),
    nullary_result_ne (y := main_c_5) (r := main_arg2) (h := by decide),
    binary_result_ne (a := main_v6) (b := main_v22) (y := main_v23) (r := main_arg2) (h := by decide)]
  rw [unary_result_ne (x := main_c_4) (y := main_v22) (r := main_arg2) (h := by decide),
    nullary_result_ne (y := main_c_4) (r := main_arg2) (h := by decide),
    binary_result_ne (a := main_v14) (b := main_v20) (y := main_v21) (r := main_arg2) (h := by decide),
    unary_result_ne (x := main_v19) (y := main_v20) (r := main_arg2) (h := by decide)]
  rw [ternary_result_ne (c := main_v16) (a := main_v18) (b := main_v3) (y := main_v19) (r := main_arg2) (h := by decide),
    binary_result_ne (a := main_v3) (b := main_v17) (y := main_v18) (r := main_arg2) (h := by decide),
    unary_result_ne (x := main_c_3) (y := main_v17) (r := main_arg2) (h := by decide),
    nullary_result_ne (y := main_c_3) (r := main_arg2) (h := by decide)]
  rw [binary_result_ne (a := main_v3) (b := main_v15) (y := main_v16) (r := main_arg2) (h := by decide),
    unary_result_ne (x := main_c) (y := main_v15) (r := main_arg2) (h := by decide),
    nullary_result_ne (y := main_c) (r := main_arg2) (h := by decide)]

theorem keepC_arg3 : after (opsC (F := Ideal)) W (Proc.devRef .tc main_arg3) = W (Proc.devRef .tc main_arg3) := by
  unfold opsC
  simp only [after_cons, after_nil]
  rw [binary_result_ne (a := main_v21) (b := main_v28) (y := main_v29) (r := main_arg3) (h := by decide),
    binary_result_ne (a := main_v14) (b := main_v27) (y := main_v28) (r := main_arg3) (h := by decide),
    unary_result_ne (x := main_v26) (y := main_v27) (r := main_arg3) (h := by decide),
    ternary_result_ne (c := main_v23) (a := main_v25) (b := main_v6) (y := main_v26) (r := main_arg3) (h := by decide)]
  rw [binary_result_ne (a := main_v6) (b := main_v24) (y := main_v25) (r := main_arg3) (h := by decide),
    unary_result_ne (x := main_c_5) (y := main_v24) (r := main_arg3) (h := by decide),
    nullary_result_ne (y := main_c_5) (r := main_arg3) (h := by decide),
    binary_result_ne (a := main_v6) (b := main_v22) (y := main_v23) (r := main_arg3) (h := by decide)]
  rw [unary_result_ne (x := main_c_4) (y := main_v22) (r := main_arg3) (h := by decide),
    nullary_result_ne (y := main_c_4) (r := main_arg3) (h := by decide),
    binary_result_ne (a := main_v14) (b := main_v20) (y := main_v21) (r := main_arg3) (h := by decide),
    unary_result_ne (x := main_v19) (y := main_v20) (r := main_arg3) (h := by decide)]
  rw [ternary_result_ne (c := main_v16) (a := main_v18) (b := main_v3) (y := main_v19) (r := main_arg3) (h := by decide),
    binary_result_ne (a := main_v3) (b := main_v17) (y := main_v18) (r := main_arg3) (h := by decide),
    unary_result_ne (x := main_c_3) (y := main_v17) (r := main_arg3) (h := by decide),
    nullary_result_ne (y := main_c_3) (r := main_arg3) (h := by decide)]
  rw [binary_result_ne (a := main_v3) (b := main_v15) (y := main_v16) (r := main_arg3) (h := by decide),
    unary_result_ne (x := main_c) (y := main_v15) (r := main_arg3) (h := by decide),
    nullary_result_ne (y := main_c) (r := main_arg3) (h := by decide)]

theorem keepC_arg4 : after (opsC (F := Ideal)) W (Proc.devRef .tc main_arg4) = W (Proc.devRef .tc main_arg4) := by
  unfold opsC
  simp only [after_cons, after_nil]
  rw [binary_result_ne (a := main_v21) (b := main_v28) (y := main_v29) (r := main_arg4) (h := by decide),
    binary_result_ne (a := main_v14) (b := main_v27) (y := main_v28) (r := main_arg4) (h := by decide),
    unary_result_ne (x := main_v26) (y := main_v27) (r := main_arg4) (h := by decide),
    ternary_result_ne (c := main_v23) (a := main_v25) (b := main_v6) (y := main_v26) (r := main_arg4) (h := by decide)]
  rw [binary_result_ne (a := main_v6) (b := main_v24) (y := main_v25) (r := main_arg4) (h := by decide),
    unary_result_ne (x := main_c_5) (y := main_v24) (r := main_arg4) (h := by decide),
    nullary_result_ne (y := main_c_5) (r := main_arg4) (h := by decide),
    binary_result_ne (a := main_v6) (b := main_v22) (y := main_v23) (r := main_arg4) (h := by decide)]
  rw [unary_result_ne (x := main_c_4) (y := main_v22) (r := main_arg4) (h := by decide),
    nullary_result_ne (y := main_c_4) (r := main_arg4) (h := by decide),
    binary_result_ne (a := main_v14) (b := main_v20) (y := main_v21) (r := main_arg4) (h := by decide),
    unary_result_ne (x := main_v19) (y := main_v20) (r := main_arg4) (h := by decide)]
  rw [ternary_result_ne (c := main_v16) (a := main_v18) (b := main_v3) (y := main_v19) (r := main_arg4) (h := by decide),
    binary_result_ne (a := main_v3) (b := main_v17) (y := main_v18) (r := main_arg4) (h := by decide),
    unary_result_ne (x := main_c_3) (y := main_v17) (r := main_arg4) (h := by decide),
    nullary_result_ne (y := main_c_3) (r := main_arg4) (h := by decide)]
  rw [binary_result_ne (a := main_v3) (b := main_v15) (y := main_v16) (r := main_arg4) (h := by decide),
    unary_result_ne (x := main_c) (y := main_v15) (r := main_arg4) (h := by decide),
    nullary_result_ne (y := main_c) (r := main_arg4) (h := by decide)]

theorem keepC_arg5 : after (opsC (F := Ideal)) W (Proc.devRef .tc main_arg5) = W (Proc.devRef .tc main_arg5) := by
  unfold opsC
  simp only [after_cons, after_nil]
  rw [binary_result_ne (a := main_v21) (b := main_v28) (y := main_v29) (r := main_arg5) (h := by decide),
    binary_result_ne (a := main_v14) (b := main_v27) (y := main_v28) (r := main_arg5) (h := by decide),
    unary_result_ne (x := main_v26) (y := main_v27) (r := main_arg5) (h := by decide),
    ternary_result_ne (c := main_v23) (a := main_v25) (b := main_v6) (y := main_v26) (r := main_arg5) (h := by decide)]
  rw [binary_result_ne (a := main_v6) (b := main_v24) (y := main_v25) (r := main_arg5) (h := by decide),
    unary_result_ne (x := main_c_5) (y := main_v24) (r := main_arg5) (h := by decide),
    nullary_result_ne (y := main_c_5) (r := main_arg5) (h := by decide),
    binary_result_ne (a := main_v6) (b := main_v22) (y := main_v23) (r := main_arg5) (h := by decide)]
  rw [unary_result_ne (x := main_c_4) (y := main_v22) (r := main_arg5) (h := by decide),
    nullary_result_ne (y := main_c_4) (r := main_arg5) (h := by decide),
    binary_result_ne (a := main_v14) (b := main_v20) (y := main_v21) (r := main_arg5) (h := by decide),
    unary_result_ne (x := main_v19) (y := main_v20) (r := main_arg5) (h := by decide)]
  rw [ternary_result_ne (c := main_v16) (a := main_v18) (b := main_v3) (y := main_v19) (r := main_arg5) (h := by decide),
    binary_result_ne (a := main_v3) (b := main_v17) (y := main_v18) (r := main_arg5) (h := by decide),
    unary_result_ne (x := main_c_3) (y := main_v17) (r := main_arg5) (h := by decide),
    nullary_result_ne (y := main_c_3) (r := main_arg5) (h := by decide)]
  rw [binary_result_ne (a := main_v3) (b := main_v15) (y := main_v16) (r := main_arg5) (h := by decide),
    unary_result_ne (x := main_c) (y := main_v15) (r := main_arg5) (h := by decide),
    nullary_result_ne (y := main_c) (r := main_arg5) (h := by decide)]

theorem keepC_arg6 : after (opsC (F := Ideal)) W (Proc.devRef .tc main_arg6) = W (Proc.devRef .tc main_arg6) := by
  unfold opsC
  simp only [after_cons, after_nil]
  rw [binary_result_ne (a := main_v21) (b := main_v28) (y := main_v29) (r := main_arg6) (h := by decide),
    binary_result_ne (a := main_v14) (b := main_v27) (y := main_v28) (r := main_arg6) (h := by decide),
    unary_result_ne (x := main_v26) (y := main_v27) (r := main_arg6) (h := by decide),
    ternary_result_ne (c := main_v23) (a := main_v25) (b := main_v6) (y := main_v26) (r := main_arg6) (h := by decide)]
  rw [binary_result_ne (a := main_v6) (b := main_v24) (y := main_v25) (r := main_arg6) (h := by decide),
    unary_result_ne (x := main_c_5) (y := main_v24) (r := main_arg6) (h := by decide),
    nullary_result_ne (y := main_c_5) (r := main_arg6) (h := by decide),
    binary_result_ne (a := main_v6) (b := main_v22) (y := main_v23) (r := main_arg6) (h := by decide)]
  rw [unary_result_ne (x := main_c_4) (y := main_v22) (r := main_arg6) (h := by decide),
    nullary_result_ne (y := main_c_4) (r := main_arg6) (h := by decide),
    binary_result_ne (a := main_v14) (b := main_v20) (y := main_v21) (r := main_arg6) (h := by decide),
    unary_result_ne (x := main_v19) (y := main_v20) (r := main_arg6) (h := by decide)]
  rw [ternary_result_ne (c := main_v16) (a := main_v18) (b := main_v3) (y := main_v19) (r := main_arg6) (h := by decide),
    binary_result_ne (a := main_v3) (b := main_v17) (y := main_v18) (r := main_arg6) (h := by decide),
    unary_result_ne (x := main_c_3) (y := main_v17) (r := main_arg6) (h := by decide),
    nullary_result_ne (y := main_c_3) (r := main_arg6) (h := by decide)]
  rw [binary_result_ne (a := main_v3) (b := main_v15) (y := main_v16) (r := main_arg6) (h := by decide),
    unary_result_ne (x := main_c) (y := main_v15) (r := main_arg6) (h := by decide),
    nullary_result_ne (y := main_c) (r := main_arg6) (h := by decide)]

theorem keepC_arg7 : after (opsC (F := Ideal)) W (Proc.devRef .tc main_arg7) = W (Proc.devRef .tc main_arg7) := by
  unfold opsC
  simp only [after_cons, after_nil]
  rw [binary_result_ne (a := main_v21) (b := main_v28) (y := main_v29) (r := main_arg7) (h := by decide),
    binary_result_ne (a := main_v14) (b := main_v27) (y := main_v28) (r := main_arg7) (h := by decide),
    unary_result_ne (x := main_v26) (y := main_v27) (r := main_arg7) (h := by decide),
    ternary_result_ne (c := main_v23) (a := main_v25) (b := main_v6) (y := main_v26) (r := main_arg7) (h := by decide)]
  rw [binary_result_ne (a := main_v6) (b := main_v24) (y := main_v25) (r := main_arg7) (h := by decide),
    unary_result_ne (x := main_c_5) (y := main_v24) (r := main_arg7) (h := by decide),
    nullary_result_ne (y := main_c_5) (r := main_arg7) (h := by decide),
    binary_result_ne (a := main_v6) (b := main_v22) (y := main_v23) (r := main_arg7) (h := by decide)]
  rw [unary_result_ne (x := main_c_4) (y := main_v22) (r := main_arg7) (h := by decide),
    nullary_result_ne (y := main_c_4) (r := main_arg7) (h := by decide),
    binary_result_ne (a := main_v14) (b := main_v20) (y := main_v21) (r := main_arg7) (h := by decide),
    unary_result_ne (x := main_v19) (y := main_v20) (r := main_arg7) (h := by decide)]
  rw [ternary_result_ne (c := main_v16) (a := main_v18) (b := main_v3) (y := main_v19) (r := main_arg7) (h := by decide),
    binary_result_ne (a := main_v3) (b := main_v17) (y := main_v18) (r := main_arg7) (h := by decide),
    unary_result_ne (x := main_c_3) (y := main_v17) (r := main_arg7) (h := by decide),
    nullary_result_ne (y := main_c_3) (r := main_arg7) (h := by decide)]
  rw [binary_result_ne (a := main_v3) (b := main_v15) (y := main_v16) (r := main_arg7) (h := by decide),
    unary_result_ne (x := main_c) (y := main_v15) (r := main_arg7) (h := by decide),
    nullary_result_ne (y := main_c) (r := main_arg7) (h := by decide)]

end Cert.ReferenceIdeal.Stretch

end
-- ==== Proof.RefStretchB.lean ====
/-
  The reference's three layers, read from the contents they are entered with: the hidden layer before its clamp
  (dense layer, aggregation, bias), the clamp, and the two output layers over the hidden layer (dense layer,
  aggregation, bias). Every other live buffer is left as it was.
-/
import proofs.«116998_j46694884442219_1_alg».proof.Proof.RefRun
import proofs.«116998_j46694884442219_1_alg».proof.Proof.Glue

set_option maxRecDepth 16384

noncomputable section

namespace Cert.ReferenceIdeal.Stretch

open Cert.ReferenceIdeal Cert.ReferenceIdeal.Gen Cert.ReferenceIdeal.Hand Idealize.ShloMosaic Idealize.ShloMosaic.StableHlo Idealize.ShloMosaic.TcCoe

variable (W : Valuation τ sig (Elt Ideal))

/-! ## What a stretch computes, from the contents it is entered with

Each proof reads the result buffer off the fold one operation at a time, from the last operation back: at the
operation that writes a buffer the buffer holds that operation's function of its operands, at any other operation
it holds what it held before. -/

set_option maxHeartbeats 1000000 in
/-- The hidden layer before its clamp. -/
theorem preact_at : after (opsL1 (F := Ideal)) W (Proc.devRef .tc main_v46)
    = Cert.Glue.bias128 (Cert.Glue.agg128 (Cert.Glue.lin128 (W (Proc.devRef .tc main_arg0)) (W (Proc.devRef .tc main_arg2))) (W (Proc.devRef .tc main_v3)) (W (Proc.devRef .tc main_v6)) (W (Proc.devRef .tc main_v29))) (W (Proc.devRef .tc main_arg3)) := by
  generalize hR : Cert.Glue.bias128 (Cert.Glue.agg128 (Cert.Glue.lin128 (W (Proc.devRef .tc main_arg0)) (W (Proc.devRef .tc main_arg2))) (W (Proc.devRef .tc main_v3)) (W (Proc.devRef .tc main_v6)) (W (Proc.devRef .tc main_v29))) (W (Proc.devRef .tc main_arg3)) = R
  unfold opsL1
  simp only [after_cons, after_nil]
  rw [binary_result (a := main_v43) (b := main_v45) (y := main_v46),
    unary_result_ne (x := main_v44) (y := main_v45) (r := main_v43) (h := by decide),
    unary_result (x := main_v44) (y := main_v45)]
  rw [unary_result_ne (x := main_arg3) (y := main_v44) (r := main_v43) (h := by decide),
    unary_result (x := main_arg3) (y := main_v44),
    ternary_result (c := main_v41) (a := main_v42) (b := main_v40) (y := main_v43)]
  rw [ternary_result_ne (c := main_v41) (a := main_v42) (b := main_v40) (y := main_v43) (r := main_arg3) (h := by decide),
    unary_result_ne (x := main_v6) (y := main_v42) (r := main_v41) (h := by decide),
    unary_result (x := main_v6) (y := main_v42)]
  rw [unary_result_ne (x := main_v6) (y := main_v42) (r := main_v40) (h := by decide),
    unary_result_ne (x := main_v6) (y := main_v42) (r := main_arg3) (h := by decide),
    unary_result (x := main_cst_8) (y := main_v41)]
  rw [unary_result_ne (x := main_cst_8) (y := main_v41) (r := main_v6) (h := by decide),
    unary_result_ne (x := main_cst_8) (y := main_v41) (r := main_v40) (h := by decide),
    unary_result_ne (x := main_cst_8) (y := main_v41) (r := main_arg3) (h := by decide)]
  rw [nullary_result (y := main_cst_8),
    nullary_result_ne (y := main_cst_8) (r := main_v6) (h := by decide),
    nullary_result_ne (y := main_cst_8) (r := main_v40) (h := by decide)]
  rw [nullary_result_ne (y := main_cst_8) (r := main_arg3) (h := by decide),
    binary_result_ne (a := main_v37) (b := main_v39) (y := main_v40) (r := main_v6) (h := by decide),
    binary_result (a := main_v37) (b := main_v39) (y := main_v40)]
  rw [binary_result_ne (a := main_v37) (b := main_v39) (y := main_v40) (r := main_arg3) (h := by decide),
    unary_result_ne (x := main_v38) (y := main_v39) (r := main_v6) (h := by decide),
    unary_result_ne (x := main_v38) (y := main_v39) (r := main_v37) (h := by decide)]
  rw [unary_result (x := main_v38) (y := main_v39),
    unary_result_ne (x := main_v38) (y := main_v39) (r := main_arg3) (h := by decide),
    unary_result_ne (x := main_v29) (y := main_v38) (r := main_v6) (h := by decide)]
  rw [unary_result_ne (x := main_v29) (y := main_v38) (r := main_v37) (h := by decide),
    unary_result (x := main_v29) (y := main_v38),
    unary_result_ne (x := main_v29) (y := main_v38) (r := main_arg3) (h := by decide)]
  rw [binary_result_ne (a := main_v30) (b := main_v36) (y := main_v37) (r := main_v6) (h := by decide),
    binary_result (a := main_v30) (b := main_v36) (y := main_v37),
    binary_result_ne (a := main_v30) (b := main_v36) (y := main_v37) (r := main_v29) (h := by decide)]
  rw [binary_result_ne (a := main_v30) (b := main_v36) (y := main_v37) (r := main_arg3) (h := by decide),
    unary_result_ne (x := main_v35) (y := main_v36) (r := main_v6) (h := by decide),
    unary_result_ne (x := main_v35) (y := main_v36) (r := main_v30) (h := by decide)]
  rw [unary_result (x := main_v35) (y := main_v36),
    unary_result_ne (x := main_v35) (y := main_v36) (r := main_v29) (h := by decide),
    unary_result_ne (x := main_v35) (y := main_v36) (r := main_arg3) (h := by decide)]
  rw [ternary_result_ne (c := main_v32) (a := main_v34) (b := main_v3) (y := main_v35) (r := main_v6) (h := by decide),
    ternary_result_ne (c := main_v32) (a := main_v34) (b := main_v3) (y := main_v35) (r := main_v30) (h := by decide),
    ternary_result (c := main_v32) (a := main_v34) (b := main_v3) (y := main_v35)]
  rw [ternary_result_ne (c := main_v32) (a := main_v34) (b := main_v3) (y := main_v35) (r := main_v29) (h := by decide),
    ternary_result_ne (c := main_v32) (a := main_v34) (b := main_v3) (y := main_v35) (r := main_arg3) (h := by decide),
    binary_result_ne (a := main_v3) (b := main_v33) (y := main_v34) (r := main_v6) (h := by decide)]
  rw [binary_result_ne (a := main_v3) (b := main_v33) (y := main_v34) (r := main_v30) (h := by decide),
    binary_result_ne (a := main_v3) (b := main_v33) (y := main_v34) (r := main_v32) (h := by decide),
    binary_result (a := main_v3) (b := main_v33) (y := main_v34)]
  rw [binary_result_ne (a := main_v3) (b := main_v33) (y := main_v34) (r := main_v3) (h := by decide),
    binary_result_ne (a := main_v3) (b := main_v33) (y := main_v34) (r := main_v29) (h := by decide),
    binary_result_ne (a := main_v3) (b := main_v33) (y := main_v34) (r := main_arg3) (h := by decide)]
  rw [unary_result_ne (x := main_c_7) (y := main_v33) (r := main_v6) (h := by decide),
    unary_result_ne (x := main_c_7) (y := main_v33) (r := main_v30) (h := by decide),
    unary_result_ne (x := main_c_7) (y := main_v33) (r := main_v32) (h := by decide)]
  rw [unary_result_ne (x := main_c_7) (y := main_v33) (r := main_v3) (h := by decide),
    unary_result (x := main_c_7) (y := main_v33),
    unary_result_ne (x := main_c_7) (y := main_v33) (r := main_v29) (h := by decide)]
  rw [unary_result_ne (x := main_c_7) (y := main_v33) (r := main_arg3) (h := by decide),
    nullary_result_ne (y := main_c_7) (r := main_v6) (h := by decide),
    nullary_result_ne (y := main_c_7) (r := main_v30) (h := by decide)]
  rw [nullary_result_ne (y := main_c_7) (r := main_v32) (h := by decide),
    nullary_result_ne (y := main_c_7) (r := main_v3) (h := by decide),
    nullary_result (y := main_c_7)]
  rw [nullary_result_ne (y := main_c_7) (r := main_v29) (h := by decide),
    nullary_result_ne (y := main_c_7) (r := main_arg3) (h := by decide),
    binary_result_ne (a := main_v3) (b := main_v31) (y := main_v32) (r := main_v6) (h := by decide)]
  rw [binary_result_ne (a := main_v3) (b := main_v31) (y := main_v32) (r := main_v30) (h := by decide),
    binary_result (a := main_v3) (b := main_v31) (y := main_v32),
    binary_result_ne (a := main_v3) (b := main_v31) (y := main_v32) (r := main_v3) (h := by decide)]
  rw [binary_result_ne (a := main_v3) (b := main_v31) (y := main_v32) (r := main_v29) (h := by decide),
    binary_result_ne (a := main_v3) (b := main_v31) (y := main_v32) (r := main_arg3) (h := by decide),
    unary_result_ne (x := main_c_6) (y := main_v31) (r := main_v6) (h := by decide)]
  rw [unary_result_ne (x := main_c_6) (y := main_v31) (r := main_v30) (h := by decide),
    unary_result_ne (x := main_c_6) (y := main_v31) (r := main_v3) (h := by decide),
    unary_result (x := main_c_6) (y := main_v31)]
  rw [unary_result_ne (x := main_c_6) (y := main_v31) (r := main_v29) (h := by decide),
    unary_result_ne (x := main_c_6) (y := main_v31) (r := main_arg3) (h := by decide),
    nullary_result_ne (y := main_c_6) (r := main_v6) (h := by decide)]
  rw [nullary_result_ne (y := main_c_6) (r := main_v30) (h := by decide),
    nullary_result_ne (y := main_c_6) (r := main_v3) (h := by decide),
    nullary_result (y := main_c_6)]
  rw [nullary_result_ne (y := main_c_6) (r := main_v29) (h := by decide),
    nullary_result_ne (y := main_c_6) (r := main_arg3) (h := by decide),
    binary_result_ne (a := main_arg0) (b := main_arg2) (y := main_v30) (r := main_v6) (h := by decide)]
  rw [binary_result (a := main_arg0) (b := main_arg2) (y := main_v30),
    binary_result_ne (a := main_arg0) (b := main_arg2) (y := main_v30) (r := main_v3) (h := by decide),
    binary_result_ne (a := main_arg0) (b := main_arg2) (y := main_v30) (r := main_v29) (h := by decide)]
  rw [binary_result_ne (a := main_arg0) (b := main_arg2) (y := main_v30) (r := main_arg3) (h := by decide)]
  exact hR

set_option maxHeartbeats 1000000 in
/-- The clamp. -/
theorem relu_at : after (opsRe (F := Ideal)) W (Proc.devRef .tc main_v47)
    = Cert.Glue.relu128 (W (Proc.devRef .tc main_v46)) := by
  generalize hR : Cert.Glue.relu128 (W (Proc.devRef .tc main_v46)) = R
  unfold opsRe
  simp only [after_cons, after_nil]
  rw [binary_result (a := main_v46) (b := main_call1_v0) (y := main_v47),
    unary_result_ne (x := main_call1_cst) (y := main_call1_v0) (r := main_v46) (h := by decide),
    unary_result (x := main_call1_cst) (y := main_call1_v0)]
  rw [nullary_result_ne (y := main_call1_cst) (r := main_v46) (h := by decide),
    nullary_result (y := main_call1_cst)]
  exact hR

set_option maxHeartbeats 1000000 in
/-- The first output layer. -/
theorem mu_at : after (opsMu (F := Ideal)) W (Proc.devRef .tc main_v64)
    = Cert.Glue.bias64 (Cert.Glue.agg64 (Cert.Glue.lin64 (W (Proc.devRef .tc main_v47)) (W (Proc.devRef .tc main_arg4))) (W (Proc.devRef .tc main_v3)) (W (Proc.devRef .tc main_v6)) (W (Proc.devRef .tc main_v29))) (W (Proc.devRef .tc main_arg5)) := by
  generalize hR : Cert.Glue.bias64 (Cert.Glue.agg64 (Cert.Glue.lin64 (W (Proc.devRef .tc main_v47)) (W (Proc.devRef .tc main_arg4))) (W (Proc.devRef .tc main_v3)) (W (Proc.devRef .tc main_v6)) (W (Proc.devRef .tc main_v29))) (W (Proc.devRef .tc main_arg5)) = R
  unfold opsMu
  simp only [after_cons, after_nil]
  rw [binary_result (a := main_v61) (b := main_v63) (y := main_v64),
    unary_result_ne (x := main_v62) (y := main_v63) (r := main_v61) (h := by decide),
    unary_result (x := main_v62) (y := main_v63)]
  rw [unary_result_ne (x := main_arg5) (y := main_v62) (r := main_v61) (h := by decide),
    unary_result (x := main_arg5) (y := main_v62),
    ternary_result (c := main_v59) (a := main_v60) (b := main_v58) (y := main_v61)]
  rw [ternary_result_ne (c := main_v59) (a := main_v60) (b := main_v58) (y := main_v61) (r := main_arg5) (h := by decide),
    unary_result_ne (x := main_v6) (y := main_v60) (r := main_v59) (h := by decide),
    unary_result (x := main_v6) (y := main_v60)]
  rw [unary_result_ne (x := main_v6) (y := main_v60) (r := main_v58) (h := by decide),
    unary_result_ne (x := main_v6) (y := main_v60) (r := main_arg5) (h := by decide),
    unary_result (x := main_cst_11) (y := main_v59)]
  rw [unary_result_ne (x := main_cst_11) (y := main_v59) (r := main_v6) (h := by decide),
    unary_result_ne (x := main_cst_11) (y := main_v59) (r := main_v58) (h := by decide),
    unary_result_ne (x := main_cst_11) (y := main_v59) (r := main_arg5) (h := by decide)]
  rw [nullary_result (y := main_cst_11),
    nullary_result_ne (y := main_cst_11) (r := main_v6) (h := by decide),
    nullary_result_ne (y := main_cst_11) (r := main_v58) (h := by decide)]
  rw [nullary_result_ne (y := main_cst_11) (r := main_arg5) (h := by decide),
    binary_result_ne (a := main_v55) (b := main_v57) (y := main_v58) (r := main_v6) (h := by decide),
    binary_result (a := main_v55) (b := main_v57) (y := main_v58)]
  rw [binary_result_ne (a := main_v55) (b := main_v57) (y := main_v58) (r := main_arg5) (h := by decide),
    unary_result_ne (x := main_v56) (y := main_v57) (r := main_v6) (h := by decide),
    unary_result_ne (x := main_v56) (y := main_v57) (r := main_v55) (h := by decide)]
  rw [unary_result (x := main_v56) (y := main_v57),
    unary_result_ne (x := main_v56) (y := main_v57) (r := main_arg5) (h := by decide),
    unary_result_ne (x := main_v29) (y := main_v56) (r := main_v6) (h := by decide)]
  rw [unary_result_ne (x := main_v29) (y := main_v56) (r := main_v55) (h := by decide),
    unary_result (x := main_v29) (y := main_v56),
    unary_result_ne (x := main_v29) (y := main_v56) (r := main_arg5) (h := by decide)]
  rw [binary_result_ne (a := main_v48) (b := main_v54) (y := main_v55) (r := main_v6) (h := by decide),
    binary_result (a := main_v48) (b := main_v54) (y := main_v55),
    binary_result_ne (a := main_v48) (b := main_v54) (y := main_v55) (r := main_v29) (h := by decide)]
  rw [binary_result_ne (a := main_v48) (b := main_v54) (y := main_v55) (r := main_arg5) (h := by decide),
    unary_result_ne (x := main_v53) (y := main_v54) (r := main_v6) (h := by decide),
    unary_result_ne (x := main_v53) (y := main_v54) (r := main_v48) (h := by decide)]
  rw [unary_result (x := main_v53) (y := main_v54),
    unary_result_ne (x := main_v53) (y := main_v54) (r := main_v29) (h := by decide),
    unary_result_ne (x := main_v53) (y := main_v54) (r := main_arg5) (h := by decide)]
  rw [ternary_result_ne (c := main_v50) (a := main_v52) (b := main_v3) (y := main_v53) (r := main_v6) (h := by decide),
    ternary_result_ne (c := main_v50) (a := main_v52) (b := main_v3) (y := main_v53) (r := main_v48) (h := by decide),
    ternary_result (c := main_v50) (a := main_v52) (b := main_v3) (y := main_v53)]
  rw [ternary_result_ne (c := main_v50) (a := main_v52) (b := main_v3) (y := main_v53) (r := main_v29) (h := by decide),
    ternary_result_ne (c := main_v50) (a := main_v52) (b := main_v3) (y := main_v53) (r := main_arg5) (h := by decide),
    binary_result_ne (a := main_v3) (b := main_v51) (y := main_v52) (r := main_v6) (h := by decide)]
  rw [binary_result_ne (a := main_v3) (b := main_v51) (y := main_v52) (r := main_v48) (h := by decide),
    binary_result_ne (a := main_v3) (b := main_v51) (y := main_v52) (r := main_v50) (h := by decide),
    binary_result (a := main_v3) (b := main_v51) (y := main_v52)]
  rw [binary_result_ne (a := main_v3) (b := main_v51) (y := main_v52) (r := main_v3) (h := by decide),
    binary_result_ne (a := main_v3) (b := main_v51) (y := main_v52) (r := main_v29) (h := by decide),
    binary_result_ne (a := main_v3) (b := main_v51) (y := main_v52) (r := main_arg5) (h := by decide)]
  rw [unary_result_ne (x := main_c_10) (y := main_v51) (r := main_v6) (h := by decide),
    unary_result_ne (x := main_c_10) (y := main_v51) (r := main_v48) (h := by decide),
    unary_result_ne (x := main_c_10) (y := main_v51) (r := main_v50) (h := by decide)]
  rw [unary_result_ne (x := main_c_10) (y := main_v51) (r := main_v3) (h := by decide),
    unary_result (x := main_c_10) (y := main_v51),
    unary_result_ne (x := main_c_10) (y := main_v51) (r := main_v29) (h := by decide)]
  rw [unary_result_ne (x := main_c_10) (y := main_v51) (r := main_arg5) (h := by decide),
    nullary_result_ne (y := main_c_10) (r := main_v6) (h := by decide),
    nullary_result_ne (y := main_c_10) (r := main_v48) (h := by decide)]
  rw [nullary_result_ne (y := main_c_10) (r := main_v50) (h := by decide),
    nullary_result_ne (y := main_c_10) (r := main_v3) (h := by decide),
    nullary_result (y := main_c_10)]
  rw [nullary_result_ne (y := main_c_10) (r := main_v29) (h := by decide),
    nullary_result_ne (y := main_c_10) (r := main_arg5) (h := by decide),
    binary_result_ne (a := main_v3) (b := main_v49) (y := main_v50) (r := main_v6) (h := by decide)]
  rw [binary_result_ne (a := main_v3) (b := main_v49) (y := main_v50) (r := main_v48) (h := by decide),
    binary_result (a := main_v3) (b := main_v49) (y := main_v50),
    binary_result_ne (a := main_v3) (b := main_v49) (y := main_v50) (r := main_v3) (h := by decide)]
  rw [binary_result_ne (a := main_v3) (b := main_v49) (y := main_v50) (r := main_v29) (h := by decide),
    binary_result_ne (a := main_v3) (b := main_v49) (y := main_v50) (r := main_arg5) (h := by decide),
    unary_result_ne (x := main_c_9) (y := main_v49) (r := main_v6) (h := by decide)]
  rw [unary_result_ne (x := main_c_9) (y := main_v49) (r := main_v48) (h := by decide),
    unary_result_ne (x := main_c_9) (y := main_v49) (r := main_v3) (h := by decide),
    unary_result (x := main_c_9) (y := main_v49)]
  rw [unary_result_ne (x := main_c_9) (y := main_v49) (r := main_v29) (h := by decide),
    unary_result_ne (x := main_c_9) (y := main_v49) (r := main_arg5) (h := by decide),
    nullary_result_ne (y := main_c_9) (r := main_v6) (h := by decide)]
  rw [nullary_result_ne (y := main_c_9) (r := main_v48) (h := by decide),
    nullary_result_ne (y := main_c_9) (r := main_v3) (h := by decide),
    nullary_result (y := main_c_9)]
  rw [nullary_result_ne (y := main_c_9) (r := main_v29) (h := by decide),
    nullary_result_ne (y := main_c_9) (r := main_arg5) (h := by decide),
    binary_result_ne (a := main_v47) (b := main_arg4) (y := main_v48) (r := main_v6) (h := by decide)]
  rw [binary_result (a := main_v47) (b := main_arg4) (y := main_v48),
    binary_result_ne (a := main_v47) (b := main_arg4) (y := main_v48) (r := main_v3) (h := by decide),
    binary_result_ne (a := main_v47) (b := main_arg4) (y := main_v48) (r := main_v29) (h := by decide)]
  rw [binary_result_ne (a := main_v47) (b := main_arg4) (y := main_v48) (r := main_arg5) (h := by decide)]
  exact hR

set_option maxHeartbeats 1000000 in
/-- The second output layer. -/
theorem lv_at : after (opsLv (F := Ideal)) W (Proc.devRef .tc main_v81)
    = Cert.Glue.bias64 (Cert.Glue.agg64 (Cert.Glue.lin64 (W (Proc.devRef .tc main_v47)) (W (Proc.devRef .tc main_arg6))) (W (Proc.devRef .tc main_v3)) (W (Proc.devRef .tc main_v6)) (W (Proc.devRef .tc main_v29))) (W (Proc.devRef .tc main_arg7)) := by
  generalize hR : Cert.Glue.bias64 (Cert.Glue.agg64 (Cert.Glue.lin64 (W (Proc.devRef .tc main_v47)) (W (Proc.devRef .tc main_arg6))) (W (Proc.devRef .tc main_v3)) (W (Proc.devRef .tc main_v6)) (W (Proc.devRef .tc main_v29))) (W (Proc.devRef .tc main_arg7)) = R
  unfold opsLv
  simp only [after_cons, after_nil]
  rw [binary_result (a := main_v78) (b := main_v80) (y := main_v81),
    unary_result_ne (x := main_v79) (y := main_v80) (r := main_v78) (h := by decide),
    unary_result (x := main_v79) (y := main_v80)]
  rw [unary_result_ne (x := main_arg7) (y := main_v79) (r := main_v78) (h := by decide),
    unary_result (x := main_arg7) (y := main_v79),
    ternary_result (c := main_v76) (a := main_v77) (b := main_v75) (y := main_v78)]
  rw [ternary_result_ne (c := main_v76) (a := main_v77) (b := main_v75) (y := main_v78) (r := main_arg7) (h := by decide),
    unary_result_ne (x := main_v6) (y := main_v77) (r := main_v76) (h := by decide),
    unary_result (x := main_v6) (y := main_v77)]
  rw [unary_result_ne (x := main_v6) (y := main_v77) (r := main_v75) (h := by decide),
    unary_result_ne (x := main_v6) (y := main_v77) (r := main_arg7) (h := by decide),
    unary_result (x := main_cst_14) (y := main_v76)]
  rw [unary_result_ne (x := main_cst_14) (y := main_v76) (r := main_v6) (h := by decide),
    unary_result_ne (x := main_cst_14) (y := main_v76) (r := main_v75) (h := by decide),
    unary_result_ne (x := main_cst_14) (y := main_v76) (r := main_arg7) (h := by decide)]
  rw [nullary_result (y := main_cst_14),
    nullary_result_ne (y := main_cst_14) (r := main_v6) (h := by decide),
    nullary_result_ne (y := main_cst_14) (r := main_v75) (h := by decide)]
  rw [nullary_result_ne (y := main_cst_14) (r := main_arg7) (h := by decide),
    binary_result_ne (a := main_v72) (b := main_v74) (y := main_v75) (r := main_v6) (h := by decide),
    binary_result (a := main_v72) (b := main_v74) (y := main_v75)]
  rw [binary_result_ne (a := main_v72) (b := main_v74) (y := main_v75) (r := main_arg7) (h := by decide),
    unary_result_ne (x := main_v73) (y := main_v74) (r := main_v6) (h := by decide),
    unary_result_ne (x := main_v73) (y := main_v74) (r := main_v72) (h := by decide)]
  rw [unary_result (x := main_v73) (y := main_v74),
    unary_result_ne (x := main_v73) (y := main_v74) (r := main_arg7) (h := by decide),
    unary_result_ne (x := main_v29) (y := main_v73) (r := main_v6) (h := by decide)]
  rw [unary_result_ne (x := main_v29) (y := main_v73) (r := main_v72) (h := by decide),
    unary_result (x := main_v29) (y := main_v73),
    unary_result_ne (x := main_v29) (y := main_v73) (r := main_arg7) (h := by decide)]
  rw [binary_result_ne (a := main_v65) (b := main_v71) (y := main_v72) (r := main_v6) (h := by decide),
    binary_result (a := main_v65) (b := main_v71) (y := main_v72),
    binary_result_ne (a := main_v65) (b := main_v71) (y := main_v72) (r := main_v29) (h := by decide)]
  rw [binary_result_ne (a := main_v65) (b := main_v71) (y := main_v72) (r := main_arg7) (h := by decide),
    unary_result_ne (x := main_v70) (y := main_v71) (r := main_v6) (h := by decide),
    unary_result_ne (x := main_v70) (y := main_v71) (r := main_v65) (h := by decide)]
  rw [unary_result (x := main_v70) (y := main_v71),
    unary_result_ne (x := main_v70) (y := main_v71) (r := main_v29) (h := by decide),
    unary_result_ne (x := main_v70) (y := main_v71) (r := main_arg7) (h := by decide)]
  rw [ternary_result_ne (c := main_v67) (a := main_v69) (b := main_v3) (y := main_v70) (r := main_v6) (h := by decide),
    ternary_result_ne (c := main_v67) (a := main_v69) (b := main_v3) (y := main_v70) (r := main_v65) (h := by decide),
    ternary_result (c := main_v67) (a := main_v69) (b := main_v3) (y := main_v70)]
  rw [ternary_result_ne (c := main_v67) (a := main_v69) (b := main_v3) (y := main_v70) (r := main_v29) (h := by decide),
    ternary_result_ne (c := main_v67) (a := main_v69) (b := main_v3) (y := main_v70) (r := main_arg7) (h := by decide),
    binary_result_ne (a := main_v3) (b := main_v68) (y := main_v69) (r := main_v6) (h := by decide)]
  rw [binary_result_ne (a := main_v3) (b := main_v68) (y := main_v69) (r := main_v65) (h := by decide),
    binary_result_ne (a := main_v3) (b := main_v68) (y := main_v69) (r := main_v67) (h := by decide),
    binary_result (a := main_v3) (b := main_v68) (y := main_v69)]
  rw [binary_result_ne (a := main_v3) (b := main_v68) (y := main_v69) (r := main_v3) (h := by decide),
    binary_result_ne (a := main_v3) (b := main_v68) (y := main_v69) (r := main_v29) (h := by decide),
    binary_result_ne (a := main_v3) (b := main_v68) (y := main_v69) (r := main_arg7) (h := by decide)]
  rw [unary_result_ne (x := main_c_13) (y := main_v68) (r := main_v6) (h := by decide),
    unary_result_ne (x := main_c_13) (y := main_v68) (r := main_v65) (h := by decide),
    unary_result_ne (x := main_c_13) (y := main_v68) (r := main_v67) (h := by decide)]
  rw [unary_result_ne (x := main_c_13) (y := main_v68) (r := main_v3) (h := by decide),
    unary_result (x := main_c_13) (y := main_v68),
    unary_result_ne (x := main_c_13) (y := main_v68) (r := main_v29) (h := by decide)]
  rw [unary_result_ne (x := main_c_13) (y := main_v68) (r := main_arg7) (h := by decide),
    nullary_result_ne (y := main_c_13) (r := main_v6) (h := by decide),
    nullary_result_ne (y := main_c_13) (r := main_v65) (h := by decide)]
  rw [nullary_result_ne (y := main_c_13) (r := main_v67) (h := by decide),
    nullary_result_ne (y := main_c_13) (r := main_v3) (h := by decide),
    nullary_result (y := main_c_13)]
  rw [nullary_result_ne (y := main_c_13) (r := main_v29) (h := by decide),
    nullary_result_ne (y := main_c_13) (r := main_arg7) (h := by decide),
    binary_result_ne (a := main_v3) (b := main_v66) (y := main_v67) (r := main_v6) (h := by decide)]
  rw [binary_result_ne (a := main_v3) (b := main_v66) (y := main_v67) (r := main_v65) (h := by decide),
    binary_result (a := main_v3) (b := main_v66) (y := main_v67),
    binary_result_ne (a := main_v3) (b := main_v66) (y := main_v67) (r := main_v3) (h := by decide)]
  rw [binary_result_ne (a := main_v3) (b := main_v66) (y := main_v67) (r := main_v29) (h := by decide),
    binary_result_ne (a := main_v3) (b := main_v66) (y := main_v67) (r := main_arg7) (h := by decide),
    unary_result_ne (x := main_c_12) (y := main_v66) (r := main_v6) (h := by decide)]
  rw [unary_result_ne (x := main_c_12) (y := main_v66) (r := main_v65) (h := by decide),
    unary_result_ne (x := main_c_12) (y := main_v66) (r := main_v3) (h := by decide),
    unary_result (x := main_c_12) (y := main_v66)]
  rw [unary_result_ne (x := main_c_12) (y := main_v66) (r := main_v29) (h := by decide),
    unary_result_ne (x := main_c_12) (y := main_v66) (r := main_arg7) (h := by decide),
    nullary_result_ne (y := main_c_12) (r := main_v6) (h := by decide)]
  rw [nullary_result_ne (y := main_c_12) (r := main_v65) (h := by decide),
    nullary_result_ne (y := main_c_12) (r := main_v3) (h := by decide),
    nullary_result (y := main_c_12)]
  rw [nullary_result_ne (y := main_c_12) (r := main_v29) (h := by decide),
    nullary_result_ne (y := main_c_12) (r := main_arg7) (h := by decide),
    binary_result_ne (a := main_v47) (b := main_arg6) (y := main_v65) (r := main_v6) (h := by decide)]
  rw [binary_result (a := main_v47) (b := main_arg6) (y := main_v65),
    binary_result_ne (a := main_v47) (b := main_arg6) (y := main_v65) (r := main_v3) (h := by decide),
    binary_result_ne (a := main_v47) (b := main_arg6) (y := main_v65) (r := main_v29) (h := by decide)]
  rw [binary_result_ne (a := main_v47) (b := main_arg6) (y := main_v65) (r := main_arg7) (h := by decide)]
  exact hR

/-! ## What a stretch leaves alone -/

theorem keepL1_v3 : after (opsL1 (F := Ideal)) W (Proc.devRef .tc main_v3) = W (Proc.devRef .tc main_v3) := by
  unfold opsL1
  simp only [after_cons, after_nil]
  rw [binary_result_ne (a := main_v43) (b := main_v45) (y := main_v46) (r := main_v3) (h := by decide),
    unary_result_ne (x := main_v44) (y := main_v45) (r := main_v3) (h := by decide),
    unary_result_ne (x := main_arg3) (y := main_v44) (r := main_v3) (h := by decide),
    ternary_result_ne (c := main_v41) (a := main_v42) (b := main_v40) (y := main_v43) (r := main_v3) (h := by decide)]
  rw [unary_result_ne (x := main_v6) (y := main_v42) (r := main_v3) (h := by decide),
    unary_result_ne (x := main_cst_8) (y := main_v41) (r := main_v3) (h := by decide),
    nullary_result_ne (y := main_cst_8) (r := main_v3) (h := by decide),
    binary_result_ne (a := main_v37) (b := main_v39) (y := main_v40) (r := main_v3) (h := by decide)]
  rw [unary_result_ne (x := main_v38) (y := main_v39) (r := main_v3) (h := by decide),
    unary_result_ne (x := main_v29) (y := main_v38) (r := main_v3) (h := by decide),
    binary_result_ne (a := main_v30) (b := main_v36) (y := main_v37) (r := main_v3) (h := by decide),
    unary_result_ne (x := main_v35) (y := main_v36) (r := main_v3) (h := by decide)]
  rw [ternary_result_ne (c := main_v32) (a := main_v34) (b := main_v3) (y := main_v35) (r := main_v3) (h := by decide),
    binary_result_ne (a := main_v3) (b := main_v33) (y := main_v34) (r := main_v3) (h := by decide),
    unary_result_ne (x := main_c_7) (y := main_v33) (r := main_v3) (h := by decide),
    nullary_result_ne (y := main_c_7) (r := main_v3) (h := by decide)]
  rw [binary_result_ne (a := main_v3) (b := main_v31) (y := main_v32) (r := main_v3) (h := by decide),
    unary_result_ne (x := main_c_6) (y := main_v31) (r := main_v3) (h := by decide),
    nullary_result_ne (y := main_c_6) (r := main_v3) (h := by decide),
    binary_result_ne (a := main_arg0) (b := main_arg2) (y := main_v30) (r := main_v3) (h := by decide)]

theorem keepL1_v6 : after (opsL1 (F := Ideal)) W (Proc.devRef .tc main_v6) = W (Proc.devRef .tc main_v6) := by
  unfold opsL1
  simp only [after_cons, after_nil]
  rw [binary_result_ne (a := main_v43) (b := main_v45) (y := main_v46) (r := main_v6) (h := by decide),
    unary_result_ne (x := main_v44) (y := main_v45) (r := main_v6) (h := by decide),
    unary_result_ne (x := main_arg3) (y := main_v44) (r := main_v6) (h := by decide),
    ternary_result_ne (c := main_v41) (a := main_v42) (b := main_v40) (y := main_v43) (r := main_v6) (h := by decide)]
  rw [unary_result_ne (x := main_v6) (y := main_v42) (r := main_v6) (h := by decide),
    unary_result_ne (x := main_cst_8) (y := main_v41) (r := main_v6) (h := by decide),
    nullary_result_ne (y := main_cst_8) (r := main_v6) (h := by decide),
    binary_result_ne (a := main_v37) (b := main_v39) (y := main_v40) (r := main_v6) (h := by decide)]
  rw [unary_result_ne (x := main_v38) (y := main_v39) (r := main_v6) (h := by decide),
    unary_result_ne (x := main_v29) (y := main_v38) (r := main_v6) (h := by decide),
    binary_result_ne (a := main_v30) (b := main_v36) (y := main_v37) (r := main_v6) (h := by decide),
    unary_result_ne (x := main_v35) (y := main_v36) (r := main_v6) (h := by decide)]
  rw [ternary_result_ne (c := main_v32) (a := main_v34) (b := main_v3) (y := main_v35) (r := main_v6) (h := by decide),
    binary_result_ne (a := main_v3) (b := main_v33) (y := main_v34) (r := main_v6) (h := by decide),
    unary_result_ne (x := main_c_7) (y := main_v33) (r := main_v6) (h := by decide),
    nullary_result_ne (y := main_c_7) (r := main_v6) (h := by decide)]
  rw [binary_result_ne (a := main_v3) (b := main_v31) (y := main_v32) (r := main_v6) (h := by decide),
    unary_result_ne (x := main_c_6) (y := main_v31) (r := main_v6) (h := by decide),
    nullary_result_ne (y := main_c_6) (r := main_v6) (h := by decide),
    binary_result_ne (a := main_arg0) (b := main_arg2) (y := main_v30) (r := main_v6) (h := by decide)]

theorem keepL1_v29 : after (opsL1 (F := Ideal)) W (Proc.devRef .tc main_v29) = W (Proc.devRef .tc main_v29) := by
  unfold opsL1
  simp only [after_cons, after_nil]
  rw [binary_result_ne (a := main_v43) (b := main_v45) (y := main_v46) (r := main_v29) (h := by decide),
    unary_result_ne (x := main_v44) (y := main_v45) (r := main_v29) (h := by decide),
    unary_result_ne (x := main_arg3) (y := main_v44) (r := main_v29) (h := by decide),
    ternary_result_ne (c := main_v41) (a := main_v42) (b := main_v40) (y := main_v43) (r := main_v29) (h := by decide)]
  rw [unary_result_ne (x := main_v6) (y := main_v42) (r := main_v29) (h := by decide),
    unary_result_ne (x := main_cst_8) (y := main_v41) (r := main_v29) (h := by decide),
    nullary_result_ne (y := main_cst_8) (r := main_v29) (h := by decide),
    binary_result_ne (a := main_v37) (b := main_v39) (y := main_v40) (r := main_v29) (h := by decide)]
  rw [unary_result_ne (x := main_v38) (y := main_v39) (r := main_v29) (h := by decide),
    unary_result_ne (x := main_v29) (y := main_v38) (r := main_v29) (h := by decide),
    binary_result_ne (a := main_v30) (b := main_v36) (y := main_v37) (r := main_v29) (h := by decide),
    unary_result_ne (x := main_v35) (y := main_v36) (r := main_v29) (h := by decide)]
  rw [ternary_result_ne (c := main_v32) (a := main_v34) (b := main_v3) (y := main_v35) (r := main_v29) (h := by decide),
    binary_result_ne (a := main_v3) (b := main_v33) (y := main_v34) (r := main_v29) (h := by decide),
    unary_result_ne (x := main_c_7) (y := main_v33) (r := main_v29) (h := by decide),
    nullary_result_ne (y := main_c_7) (r := main_v29) (h := by decide)]
  rw [binary_result_ne (a := main_v3) (b := main_v31) (y := main_v32) (r := main_v29) (h := by decide),
    unary_result_ne (x := main_c_6) (y := main_v31) (r := main_v29) (h := by decide),
    nullary_result_ne (y := main_c_6) (r := main_v29) (h := by decide),
    binary_result_ne (a := main_arg0) (b := main_arg2) (y := main_v30) (r := main_v29) (h := by decide)]

theorem keepL1_arg4 : after (opsL1 (F := Ideal)) W (Proc.devRef .tc main_arg4) = W (Proc.devRef .tc main_arg4) := by
  unfold opsL1
  simp only [after_cons, after_nil]
  rw [binary_result_ne (a := main_v43) (b := main_v45) (y := main_v46) (r := main_arg4) (h := by decide),
    unary_result_ne (x := main_v44) (y := main_v45) (r := main_arg4) (h := by decide),
    unary_result_ne (x := main_arg3) (y := main_v44) (r := main_arg4) (h := by decide),
    ternary_result_ne (c := main_v41) (a := main_v42) (b := main_v40) (y := main_v43) (r := main_arg4) (h := by decide)]
  rw [unary_result_ne (x := main_v6) (y := main_v42) (r := main_arg4) (h := by decide),
    unary_result_ne (x := main_cst_8) (y := main_v41) (r := main_arg4) (h := by decide),
    nullary_result_ne (y := main_cst_8) (r := main_arg4) (h := by decide),
    binary_result_ne (a := main_v37) (b := main_v39) (y := main_v40) (r := main_arg4) (h := by decide)]
  rw [unary_result_ne (x := main_v38) (y := main_v39) (r := main_arg4) (h := by decide),
    unary_result_ne (x := main_v29) (y := main_v38) (r := main_arg4) (h := by decide),
    binary_result_ne (a := main_v30) (b := main_v36) (y := main_v37) (r := main_arg4) (h := by decide),
    unary_result_ne (x := main_v35) (y := main_v36) (r := main_arg4) (h := by decide)]
  rw [ternary_result_ne (c := main_v32) (a := main_v34) (b := main_v3) (y := main_v35) (r := main_arg4) (h := by decide),
    binary_result_ne (a := main_v3) (b := main_v33) (y := main_v34) (r := main_arg4) (h := by decide),
    unary_result_ne (x := main_c_7) (y := main_v33) (r := main_arg4) (h := by decide),
    nullary_result_ne (y := main_c_7) (r := main_arg4) (h := by decide)]
  rw [binary_result_ne (a := main_v3) (b := main_v31) (y := main_v32) (r := main_arg4) (h := by decide),
    unary_result_ne (x := main_c_6) (y := main_v31) (r := main_arg4) (h := by decide),
    nullary_result_ne (y := main_c_6) (r := main_arg4) (h := by decide),
    binary_result_ne (a := main_arg0) (b := main_arg2) (y := main_v30) (r := main_arg4) (h := by decide)]

theorem keepL1_arg5 : after (opsL1 (F := Ideal)) W (Proc.devRef .tc main_arg5) = W (Proc.devRef .tc main_arg5) := by
  unfold opsL1
  simp only [after_cons, after_nil]
  rw [binary_result_ne (a := main_v43) (b := main_v45) (y := main_v46) (r := main_arg5) (h := by decide),
    unary_result_ne (x := main_v44) (y := main_v45) (r := main_arg5) (h := by decide),
    unary_result_ne (x := main_arg3) (y := main_v44) (r := main_arg5) (h := by decide),
    ternary_result_ne (c := main_v41) (a := main_v42) (b := main_v40) (y := main_v43) (r := main_arg5) (h := by decide)]
  rw [unary_result_ne (x := main_v6) (y := main_v42) (r := main_arg5) (h := by decide),
    unary_result_ne (x := main_cst_8) (y := main_v41) (r := main_arg5) (h := by decide),
    nullary_result_ne (y := main_cst_8) (r := main_arg5) (h := by decide),
    binary_result_ne (a := main_v37) (b := main_v39) (y := main_v40) (r := main_arg5) (h := by decide)]
  rw [unary_result_ne (x := main_v38) (y := main_v39) (r := main_arg5) (h := by decide),
    unary_result_ne (x := main_v29) (y := main_v38) (r := main_arg5) (h := by decide),
    binary_result_ne (a := main_v30) (b := main_v36) (y := main_v37) (r := main_arg5) (h := by decide),
    unary_result_ne (x := main_v35) (y := main_v36) (r := main_arg5) (h := by decide)]
  rw [ternary_result_ne (c := main_v32) (a := main_v34) (b := main_v3) (y := main_v35) (r := main_arg5) (h := by decide),
    binary_result_ne (a := main_v3) (b := main_v33) (y := main_v34) (r := main_arg5) (h := by decide),
    unary_result_ne (x := main_c_7) (y := main_v33) (r := main_arg5) (h := by decide),
    nullary_result_ne (y := main_c_7) (r := main_arg5) (h := by decide)]
  rw [binary_result_ne (a := main_v3) (b := main_v31) (y := main_v32) (r := main_arg5) (h := by decide),
    unary_result_ne (x := main_c_6) (y := main_v31) (r := main_arg5) (h := by decide),
    nullary_result_ne (y := main_c_6) (r := main_arg5) (h := by decide),
    binary_result_ne (a := main_arg0) (b := main_arg2) (y := main_v30) (r := main_arg5) (h := by decide)]

theorem keepL1_arg6 : after (opsL1 (F := Ideal)) W (Proc.devRef .tc main_arg6) = W (Proc.devRef .tc main_arg6) := by
  unfold opsL1
  simp only [after_cons, after_nil]
  rw [binary_result_ne (a := main_v43) (b := main_v45) (y := main_v46) (r := main_arg6) (h := by decide),
    unary_result_ne (x := main_v44) (y := main_v45) (r := main_arg6) (h := by decide),
    unary_result_ne (x := main_arg3) (y := main_v44) (r := main_arg6) (h := by decide),
    ternary_result_ne (c := main_v41) (a := main_v42) (b := main_v40) (y := main_v43) (r := main_arg6) (h := by decide)]
  rw [unary_result_ne (x := main_v6) (y := main_v42) (r := main_arg6) (h := by decide),
    unary_result_ne (x := main_cst_8) (y := main_v41) (r := main_arg6) (h := by decide),
    nullary_result_ne (y := main_cst_8) (r := main_arg6) (h := by decide),
    binary_result_ne (a := main_v37) (b := main_v39) (y := main_v40) (r := main_arg6) (h := by decide)]
  rw [unary_result_ne (x := main_v38) (y := main_v39) (r := main_arg6) (h := by decide),
    unary_result_ne (x := main_v29) (y := main_v38) (r := main_arg6) (h := by decide),
    binary_result_ne (a := main_v30) (b := main_v36) (y := main_v37) (r := main_arg6) (h := by decide),
    unary_result_ne (x := main_v35) (y := main_v36) (r := main_arg6) (h := by decide)]
  rw [ternary_result_ne (c := main_v32) (a := main_v34) (b := main_v3) (y := main_v35) (r := main_arg6) (h := by decide),
    binary_result_ne (a := main_v3) (b := main_v33) (y := main_v34) (r := main_arg6) (h := by decide),
    unary_result_ne (x := main_c_7) (y := main_v33) (r := main_arg6) (h := by decide),
    nullary_result_ne (y := main_c_7) (r := main_arg6) (h := by decide)]
  rw [binary_result_ne (a := main_v3) (b := main_v31) (y := main_v32) (r := main_arg6) (h := by decide),
    unary_result_ne (x := main_c_6) (y := main_v31) (r := main_arg6) (h := by decide),
    nullary_result_ne (y := main_c_6) (r := main_arg6) (h := by decide),
    binary_result_ne (a := main_arg0) (b := main_arg2) (y := main_v30) (r := main_arg6) (h := by decide)]

theorem keepL1_arg7 : after (opsL1 (F := Ideal)) W (Proc.devRef .tc main_arg7) = W (Proc.devRef .tc main_arg7) := by
  unfold opsL1
  simp only [after_cons, after_nil]
  rw [binary_result_ne (a := main_v43) (b := main_v45) (y := main_v46) (r := main_arg7) (h := by decide),
    unary_result_ne (x := main_v44) (y := main_v45) (r := main_arg7) (h := by decide),
    unary_result_ne (x := main_arg3) (y := main_v44) (r := main_arg7) (h := by decide),
    ternary_result_ne (c := main_v41) (a := main_v42) (b := main_v40) (y := main_v43) (r := main_arg7) (h := by decide)]
  rw [unary_result_ne (x := main_v6) (y := main_v42) (r := main_arg7) (h := by decide),
    unary_result_ne (x := main_cst_8) (y := main_v41) (r := main_arg7) (h := by decide),
    nullary_result_ne (y := main_cst_8) (r := main_arg7) (h := by decide),
    binary_result_ne (a := main_v37) (b := main_v39) (y := main_v40) (r := main_arg7) (h := by decide)]
  rw [unary_result_ne (x := main_v38) (y := main_v39) (r := main_arg7) (h := by decide),
    unary_result_ne (x := main_v29) (y := main_v38) (r := main_arg7) (h := by decide),
    binary_result_ne (a := main_v30) (b := main_v36) (y := main_v37) (r := main_arg7) (h := by decide),
    unary_result_ne (x := main_v35) (y := main_v36) (r := main_arg7) (h := by decide)]
  rw [ternary_result_ne (c := main_v32) (a := main_v34) (b := main_v3) (y := main_v35) (r := main_arg7) (h := by decide),
    binary_result_ne (a := main_v3) (b := main_v33) (y := main_v34) (r := main_arg7) (h := by decide),
    unary_result_ne (x := main_c_7) (y := main_v33) (r := main_arg7) (h := by decide),
    nullary_result_ne (y := main_c_7) (r := main_arg7) (h := by decide)]
  rw [binary_result_ne (a := main_v3) (b := main_v31) (y := main_v32) (r := main_arg7) (h := by decide),
    unary_result_ne (x := main_c_6) (y := main_v31) (r := main_arg7) (h := by decide),
    nullary_result_ne (y := main_c_6) (r := main_arg7) (h := by decide),
    binary_result_ne (a := main_arg0) (b := main_arg2) (y := main_v30) (r := main_arg7) (h := by decide)]

theorem keepRe_v3 : after (opsRe (F := Ideal)) W (Proc.devRef .tc main_v3) = W (Proc.devRef .tc main_v3) := by
  unfold opsRe
  simp only [after_cons, after_nil]
  rw [binary_result_ne (a := main_v46) (b := main_call1_v0) (y := main_v47) (r := main_v3) (h := by decide),
    unary_result_ne (x := main_call1_cst) (y := main_call1_v0) (r := main_v3) (h := by decide),
    nullary_result_ne (y := main_call1_cst) (r := main_v3) (h := by decide)]

theorem keepRe_v6 : after (opsRe (F := Ideal)) W (Proc.devRef .tc main_v6) = W (Proc.devRef .tc main_v6) := by
  unfold opsRe
  simp only [after_cons, after_nil]
  rw [binary_result_ne (a := main_v46) (b := main_call1_v0) (y := main_v47) (r := main_v6) (h := by decide),
    unary_result_ne (x := main_call1_cst) (y := main_call1_v0) (r := main_v6) (h := by decide),
    nullary_result_ne (y := main_call1_cst) (r := main_v6) (h := by decide)]

theorem keepRe_v29 : after (opsRe (F := Ideal)) W (Proc.devRef .tc main_v29) = W (Proc.devRef .tc main_v29) := by
  unfold opsRe
  simp only [after_cons, after_nil]
  rw [binary_result_ne (a := main_v46) (b := main_call1_v0) (y := main_v47) (r := main_v29) (h := by decide),
    unary_result_ne (x := main_call1_cst) (y := main_call1_v0) (r := main_v29) (h := by decide),
    nullary_result_ne (y := main_call1_cst) (r := main_v29) (h := by decide)]

theorem keepRe_arg4 : after (opsRe (F := Ideal)) W (Proc.devRef .tc main_arg4) = W (Proc.devRef .tc main_arg4) := by
  unfold opsRe
  simp only [after_cons, after_nil]
  rw [binary_result_ne (a := main_v46) (b := main_call1_v0) (y := main_v47) (r := main_arg4) (h := by decide),
    unary_result_ne (x := main_call1_cst) (y := main_call1_v0) (r := main_arg4) (h := by decide),
    nullary_result_ne (y := main_call1_cst) (r := main_arg4) (h := by decide)]

theorem keepRe_arg5 : after (opsRe (F := Ideal)) W (Proc.devRef .tc main_arg5) = W (Proc.devRef .tc main_arg5) := by
  unfold opsRe
  simp only [after_cons, after_nil]
  rw [binary_result_ne (a := main_v46) (b := main_call1_v0) (y := main_v47) (r := main_arg5) (h := by decide),
    unary_result_ne (x := main_call1_cst) (y := main_call1_v0) (r := main_arg5) (h := by decide),
    nullary_result_ne (y := main_call1_cst) (r := main_arg5) (h := by decide)]

theorem keepRe_arg6 : after (opsRe (F := Ideal)) W (Proc.devRef .tc main_arg6) = W (Proc.devRef .tc main_arg6) := by
  unfold opsRe
  simp only [after_cons, after_nil]
  rw [binary_result_ne (a := main_v46) (b := main_call1_v0) (y := main_v47) (r := main_arg6) (h := by decide),
    unary_result_ne (x := main_call1_cst) (y := main_call1_v0) (r := main_arg6) (h := by decide),
    nullary_result_ne (y := main_call1_cst) (r := main_arg6) (h := by decide)]

theorem keepRe_arg7 : after (opsRe (F := Ideal)) W (Proc.devRef .tc main_arg7) = W (Proc.devRef .tc main_arg7) := by
  unfold opsRe
  simp only [after_cons, after_nil]
  rw [binary_result_ne (a := main_v46) (b := main_call1_v0) (y := main_v47) (r := main_arg7) (h := by decide),
    unary_result_ne (x := main_call1_cst) (y := main_call1_v0) (r := main_arg7) (h := by decide),
    nullary_result_ne (y := main_call1_cst) (r := main_arg7) (h := by decide)]

theorem keepMu_v47 : after (opsMu (F := Ideal)) W (Proc.devRef .tc main_v47) = W (Proc.devRef .tc main_v47) := by
  unfold opsMu
  simp only [after_cons, after_nil]
  rw [binary_result_ne (a := main_v61) (b := main_v63) (y := main_v64) (r := main_v47) (h := by decide),
    unary_result_ne (x := main_v62) (y := main_v63) (r := main_v47) (h := by decide),
    unary_result_ne (x := main_arg5) (y := main_v62) (r := main_v47) (h := by decide),
    ternary_result_ne (c := main_v59) (a := main_v60) (b := main_v58) (y := main_v61) (r := main_v47) (h := by decide)]
  rw [unary_result_ne (x := main_v6) (y := main_v60) (r := main_v47) (h := by decide),
    unary_result_ne (x := main_cst_11) (y := main_v59) (r := main_v47) (h := by decide),
    nullary_result_ne (y := main_cst_11) (r := main_v47) (h := by decide),
    binary_result_ne (a := main_v55) (b := main_v57) (y := main_v58) (r := main_v47) (h := by decide)]
  rw [unary_result_ne (x := main_v56) (y := main_v57) (r := main_v47) (h := by decide),
    unary_result_ne (x := main_v29) (y := main_v56) (r := main_v47) (h := by decide),
    binary_result_ne (a := main_v48) (b := main_v54) (y := main_v55) (r := main_v47) (h := by decide),
    unary_result_ne (x := main_v53) (y := main_v54) (r := main_v47) (h := by decide)]
  rw [ternary_result_ne (c := main_v50) (a := main_v52) (b := main_v3) (y := main_v53) (r := main_v47) (h := by decide),
    binary_result_ne (a := main_v3) (b := main_v51) (y := main_v52) (r := main_v47) (h := by decide),
    unary_result_ne (x := main_c_10) (y := main_v51) (r := main_v47) (h := by decide),
    nullary_result_ne (y := main_c_10) (r := main_v47) (h := by decide)]
  rw [binary_result_ne (a := main_v3) (b := main_v49) (y := main_v50) (r := main_v47) (h := by decide),
    unary_result_ne (x := main_c_9) (y := main_v49) (r := main_v47) (h := by decide),
    nullary_result_ne (y := main_c_9) (r := main_v47) (h := by decide),
    binary_result_ne (a := main_v47) (b := main_arg4) (y := main_v48) (r := main_v47) (h := by decide)]

theorem keepMu_v3 : after (opsMu (F := Ideal)) W (Proc.devRef .tc main_v3) = W (Proc.devRef .tc main_v3) := by
  unfold opsMu
  simp only [after_cons, after_nil]
  rw [binary_result_ne (a := main_v61) (b := main_v63) (y := main_v64) (r := main_v3) (h := by decide),
    unary_result_ne (x := main_v62) (y := main_v63) (r := main_v3) (h := by decide),
    unary_result_ne (x := main_arg5) (y := main_v62) (r := main_v3) (h := by decide),
    ternary_result_ne (c := main_v59) (a := main_v60) (b := main_v58) (y := main_v61) (r := main_v3) (h := by decide)]
  rw [unary_result_ne (x := main_v6) (y := main_v60) (r := main_v3) (h := by decide),
    unary_result_ne (x := main_cst_11) (y := main_v59) (r := main_v3) (h := by decide),
    nullary_result_ne (y := main_cst_11) (r := main_v3) (h := by decide),
    binary_result_ne (a := main_v55) (b := main_v57) (y := main_v58) (r := main_v3) (h := by decide)]
  rw [unary_result_ne (x := main_v56) (y := main_v57) (r := main_v3) (h := by decide),
    unary_result_ne (x := main_v29) (y := main_v56) (r := main_v3) (h := by decide),
    binary_result_ne (a := main_v48) (b := main_v54) (y := main_v55) (r := main_v3) (h := by decide),
    unary_result_ne (x := main_v53) (y := main_v54) (r := main_v3) (h := by decide)]
  rw [ternary_result_ne (c := main_v50) (a := main_v52) (b := main_v3) (y := main_v53) (r := main_v3) (h := by decide),
    binary_result_ne (a := main_v3) (b := main_v51) (y := main_v52) (r := main_v3) (h := by decide),
    unary_result_ne (x := main_c_10) (y := main_v51) (r := main_v3) (h := by decide),
    nullary_result_ne (y := main_c_10) (r := main_v3) (h := by decide)]
  rw [binary_result_ne (a := main_v3) (b := main_v49) (y := main_v50) (r := main_v3) (h := by decide),
    unary_result_ne (x := main_c_9) (y := main_v49) (r := main_v3) (h := by decide),
    nullary_result_ne (y := main_c_9) (r := main_v3) (h := by decide),
    binary_result_ne (a := main_v47) (b := main_arg4) (y := main_v48) (r := main_v3) (h := by decide)]

theorem keepMu_v6 : after (opsMu (F := Ideal)) W (Proc.devRef .tc main_v6) = W (Proc.devRef .tc main_v6) := by
  unfold opsMu
  simp only [after_cons, after_nil]
  rw [binary_result_ne (a := main_v61) (b := main_v63) (y := main_v64) (r := main_v6) (h := by decide),
    unary_result_ne (x := main_v62) (y := main_v63) (r := main_v6) (h := by decide),
    unary_result_ne (x := main_arg5) (y := main_v62) (r := main_v6) (h := by decide),
    ternary_result_ne (c := main_v59) (a := main_v60) (b := main_v58) (y := main_v61) (r := main_v6) (h := by decide)]
  rw [unary_result_ne (x := main_v6) (y := main_v60) (r := main_v6) (h := by decide),
    unary_result_ne (x := main_cst_11) (y := main_v59) (r := main_v6) (h := by decide),
    nullary_result_ne (y := main_cst_11) (r := main_v6) (h := by decide),
    binary_result_ne (a := main_v55) (b := main_v57) (y := main_v58) (r := main_v6) (h := by decide)]
  rw [unary_result_ne (x := main_v56) (y := main_v57) (r := main_v6) (h := by decide),
    unary_result_ne (x := main_v29) (y := main_v56) (r := main_v6) (h := by decide),
    binary_result_ne (a := main_v48) (b := main_v54) (y := main_v55) (r := main_v6) (h := by decide),
    unary_result_ne (x := main_v53) (y := main_v54) (r := main_v6) (h := by decide)]
  rw [ternary_result_ne (c := main_v50) (a := main_v52) (b := main_v3) (y := main_v53) (r := main_v6) (h := by decide),
    binary_result_ne (a := main_v3) (b := main_v51) (y := main_v52) (r := main_v6) (h := by decide),
    unary_result_ne (x := main_c_10) (y := main_v51) (r := main_v6) (h := by decide),
    nullary_result_ne (y := main_c_10) (r := main_v6) (h := by decide)]
  rw [binary_result_ne (a := main_v3) (b := main_v49) (y := main_v50) (r := main_v6) (h := by decide),
    unary_result_ne (x := main_c_9) (y := main_v49) (r := main_v6) (h := by decide),
    nullary_result_ne (y := main_c_9) (r := main_v6) (h := by decide),
    binary_result_ne (a := main_v47) (b := main_arg4) (y := main_v48) (r := main_v6) (h := by decide)]

theorem keepMu_v29 : after (opsMu (F := Ideal)) W (Proc.devRef .tc main_v29) = W (Proc.devRef .tc main_v29) := by
  unfold opsMu
  simp only [after_cons, after_nil]
  rw [binary_result_ne (a := main_v61) (b := main_v63) (y := main_v64) (r := main_v29) (h := by decide),
    unary_result_ne (x := main_v62) (y := main_v63) (r := main_v29) (h := by decide),
    unary_result_ne (x := main_arg5) (y := main_v62) (r := main_v29) (h := by decide),
    ternary_result_ne (c := main_v59) (a := main_v60) (b := main_v58) (y := main_v61) (r := main_v29) (h := by decide)]
  rw [unary_result_ne (x := main_v6) (y := main_v60) (r := main_v29) (h := by decide),
    unary_result_ne (x := main_cst_11) (y := main_v59) (r := main_v29) (h := by decide),
    nullary_result_ne (y := main_cst_11) (r := main_v29) (h := by decide),
    binary_result_ne (a := main_v55) (b := main_v57) (y := main_v58) (r := main_v29) (h := by decide)]
  rw [unary_result_ne (x := main_v56) (y := main_v57) (r := main_v29) (h := by decide),
    unary_result_ne (x := main_v29) (y := main_v56) (r := main_v29) (h := by decide),
    binary_result_ne (a := main_v48) (b := main_v54) (y := main_v55) (r := main_v29) (h := by decide),
    unary_result_ne (x := main_v53) (y := main_v54) (r := main_v29) (h := by decide)]
  rw [ternary_result_ne (c := main_v50) (a := main_v52) (b := main_v3) (y := main_v53) (r := main_v29) (h := by decide),
    binary_result_ne (a := main_v3) (b := main_v51) (y := main_v52) (r := main_v29) (h := by decide),
    unary_result_ne (x := main_c_10) (y := main_v51) (r := main_v29) (h := by decide),
    nullary_result_ne (y := main_c_10) (r := main_v29) (h := by decide)]
  rw [binary_result_ne (a := main_v3) (b := main_v49) (y := main_v50) (r := main_v29) (h := by decide),
    unary_result_ne (x := main_c_9) (y := main_v49) (r := main_v29) (h := by decide),
    nullary_result_ne (y := main_c_9) (r := main_v29) (h := by decide),
    binary_result_ne (a := main_v47) (b := main_arg4) (y := main_v48) (r := main_v29) (h := by decide)]

theorem keepMu_arg6 : after (opsMu (F := Ideal)) W (Proc.devRef .tc main_arg6) = W (Proc.devRef .tc main_arg6) := by
  unfold opsMu
  simp only [after_cons, after_nil]
  rw [binary_result_ne (a := main_v61) (b := main_v63) (y := main_v64) (r := main_arg6) (h := by decide),
    unary_result_ne (x := main_v62) (y := main_v63) (r := main_arg6) (h := by decide),
    unary_result_ne (x := main_arg5) (y := main_v62) (r := main_arg6) (h := by decide),
    ternary_result_ne (c := main_v59) (a := main_v60) (b := main_v58) (y := main_v61) (r := main_arg6) (h := by decide)]
  rw [unary_result_ne (x := main_v6) (y := main_v60) (r := main_arg6) (h := by decide),
    unary_result_ne (x := main_cst_11) (y := main_v59) (r := main_arg6) (h := by decide),
    nullary_result_ne (y := main_cst_11) (r := main_arg6) (h := by decide),
    binary_result_ne (a := main_v55) (b := main_v57) (y := main_v58) (r := main_arg6) (h := by decide)]
  rw [unary_result_ne (x := main_v56) (y := main_v57) (r := main_arg6) (h := by decide),
    unary_result_ne (x := main_v29) (y := main_v56) (r := main_arg6) (h := by decide),
    binary_result_ne (a := main_v48) (b := main_v54) (y := main_v55) (r := main_arg6) (h := by decide),
    unary_result_ne (x := main_v53) (y := main_v54) (r := main_arg6) (h := by decide)]
  rw [ternary_result_ne (c := main_v50) (a := main_v52) (b := main_v3) (y := main_v53) (r := main_arg6) (h := by decide),
    binary_result_ne (a := main_v3) (b := main_v51) (y := main_v52) (r := main_arg6) (h := by decide),
    unary_result_ne (x := main_c_10) (y := main_v51) (r := main_arg6) (h := by decide),
    nullary_result_ne (y := main_c_10) (r := main_arg6) (h := by decide)]
  rw [binary_result_ne (a := main_v3) (b := main_v49) (y := main_v50) (r := main_arg6) (h := by decide),
    unary_result_ne (x := main_c_9) (y := main_v49) (r := main_arg6) (h := by decide),
    nullary_result_ne (y := main_c_9) (r := main_arg6) (h := by decide),
    binary_result_ne (a := main_v47) (b := main_arg4) (y := main_v48) (r := main_arg6) (h := by decide)]

theorem keepMu_arg7 : after (opsMu (F := Ideal)) W (Proc.devRef .tc main_arg7) = W (Proc.devRef .tc main_arg7) := by
  unfold opsMu
  simp only [after_cons, after_nil]
  rw [binary_result_ne (a := main_v61) (b := main_v63) (y := main_v64) (r := main_arg7) (h := by decide),
    unary_result_ne (x := main_v62) (y := main_v63) (r := main_arg7) (h := by decide),
    unary_result_ne (x := main_arg5) (y := main_v62) (r := main_arg7) (h := by decide),
    ternary_result_ne (c := main_v59) (a := main_v60) (b := main_v58) (y := main_v61) (r := main_arg7) (h := by decide)]
  rw [unary_result_ne (x := main_v6) (y := main_v60) (r := main_arg7) (h := by decide),
    unary_result_ne (x := main_cst_11) (y := main_v59) (r := main_arg7) (h := by decide),
    nullary_result_ne (y := main_cst_11) (r := main_arg7) (h := by decide),
    binary_result_ne (a := main_v55) (b := main_v57) (y := main_v58) (r := main_arg7) (h := by decide)]
  rw [unary_result_ne (x := main_v56) (y := main_v57) (r := main_arg7) (h := by decide),
    unary_result_ne (x := main_v29) (y := main_v56) (r := main_arg7) (h := by decide),
    binary_result_ne (a := main_v48) (b := main_v54) (y := main_v55) (r := main_arg7) (h := by decide),
    unary_result_ne (x := main_v53) (y := main_v54) (r := main_arg7) (h := by decide)]
  rw [ternary_result_ne (c := main_v50) (a := main_v52) (b := main_v3) (y := main_v53) (r := main_arg7) (h := by decide),
    binary_result_ne (a := main_v3) (b := main_v51) (y := main_v52) (r := main_arg7) (h := by decide),
    unary_result_ne (x := main_c_10) (y := main_v51) (r := main_arg7) (h := by decide),
    nullary_result_ne (y := main_c_10) (r := main_arg7) (h := by decide)]
  rw [binary_result_ne (a := main_v3) (b := main_v49) (y := main_v50) (r := main_arg7) (h := by decide),
    unary_result_ne (x := main_c_9) (y := main_v49) (r := main_arg7) (h := by decide),
    nullary_result_ne (y := main_c_9) (r := main_arg7) (h := by decide),
    binary_result_ne (a := main_v47) (b := main_arg4) (y := main_v48) (r := main_arg7) (h := by decide)]

theorem keepLv_v64 : after (opsLv (F := Ideal)) W (Proc.devRef .tc main_v64) = W (Proc.devRef .tc main_v64) := by
  unfold opsLv
  simp only [after_cons, after_nil]
  rw [binary_result_ne (a := main_v78) (b := main_v80) (y := main_v81) (r := main_v64) (h := by decide),
    unary_result_ne (x := main_v79) (y := main_v80) (r := main_v64) (h := by decide),
    unary_result_ne (x := main_arg7) (y := main_v79) (r := main_v64) (h := by decide),
    ternary_result_ne (c := main_v76) (a := main_v77) (b := main_v75) (y := main_v78) (r := main_v64) (h := by decide)]
  rw [unary_result_ne (x := main_v6) (y := main_v77) (r := main_v64) (h := by decide),
    unary_result_ne (x := main_cst_14) (y := main_v76) (r := main_v64) (h := by decide),
    nullary_result_ne (y := main_cst_14) (r := main_v64) (h := by decide),
    binary_result_ne (a := main_v72) (b := main_v74) (y := main_v75) (r := main_v64) (h := by decide)]
  rw [unary_result_ne (x := main_v73) (y := main_v74) (r := main_v64) (h := by decide),
    unary_result_ne (x := main_v29) (y := main_v73) (r := main_v64) (h := by decide),
    binary_result_ne (a := main_v65) (b := main_v71) (y := main_v72) (r := main_v64) (h := by decide),
    unary_result_ne (x := main_v70) (y := main_v71) (r := main_v64) (h := by decide)]
  rw [ternary_result_ne (c := main_v67) (a := main_v69) (b := main_v3) (y := main_v70) (r := main_v64) (h := by decide),
    binary_result_ne (a := main_v3) (b := main_v68) (y := main_v69) (r := main_v64) (h := by decide),
    unary_result_ne (x := main_c_13) (y := main_v68) (r := main_v64) (h := by decide),
    nullary_result_ne (y := main_c_13) (r := main_v64) (h := by decide)]
  rw [binary_result_ne (a := main_v3) (b := main_v66) (y := main_v67) (r := main_v64) (h := by decide),
    unary_result_ne (x := main_c_12) (y := main_v66) (r := main_v64) (h := by decide),
    nullary_result_ne (y := main_c_12) (r := main_v64) (h := by decide),
    binary_result_ne (a := main_v47) (b := main_arg6) (y := main_v65) (r := main_v64) (h := by decide)]

end Cert.ReferenceIdeal.Stretch

end
-- ==== Proof.RefWalk.lean ====
/-
  What the reference's buffers hold after each of its seven stretches, as the pipeline's functions of the eight
  argument arrays.

  The contents after a stretch are that stretch run from the contents before it: a buffer the stretch computes
  is the pipeline's function of the buffers it reads, every other buffer is unchanged. After the last stretch
  the two result arrays are the two output layers of the encoder over one hidden layer.
-/
import proofs.«116998_j46694884442219_1_alg».proof.Proof.RefRun
import proofs.«116998_j46694884442219_1_alg».proof.Proof.RefStretchA
import proofs.«116998_j46694884442219_1_alg».proof.Proof.RefStretchB
import proofs.«116998_j46694884442219_1_alg».proof.Proof.Glue

set_option maxRecDepth 16384

noncomputable section

namespace Cert.ReferenceIdeal.Walk

open Cert.ReferenceIdeal Cert.ReferenceIdeal.Gen Cert.ReferenceIdeal.Hand Idealize.ShloMosaic Idealize.ShloMosaic.TcCoe Idealize.SL.Sem Idealize.ShloMosaic.StableHlo

variable (m : (ℓ : Loc nD τ sig) → Buf (Elt Ideal) ℓ) (c : Dev nD)

/-! ## The argument arrays as launched, and the contents after each stretch -/

/-- Argument 0 as launched: the node features. -/
def in0 : FVec Ideal S50000x128 .f32 := m ((c.tc : Thread nD τ).loc main_arg0)

/-- Argument 1 as launched: the edge list. -/
def in1 : IVec S2x800000 32 := m ((c.tc : Thread nD τ).loc main_arg1)

/-- Argument 2 as launched: the hidden layer's weights. -/
def in2 : FVec Ideal S128x128 .f32 := m ((c.tc : Thread nD τ).loc main_arg2)

/-- Argument 3 as launched: the hidden layer's bias. -/
def in3 : FVec Ideal S128 .f32 := m ((c.tc : Thread nD τ).loc main_arg3)

/-- Argument 4 as launched: the first output layer's weights. -/
def in4 : FVec Ideal S128x64 .f32 := m ((c.tc : Thread nD τ).loc main_arg4)

/-- Argument 5 as launched: the first output layer's bias. -/
def in5 : FVec Ideal S64 .f32 := m ((c.tc : Thread nD τ).loc main_arg5)

/-- Argument 6 as launched: the second output layer's weights. -/
def in6 : FVec Ideal S128x64 .f32 := m ((c.tc : Thread nD τ).loc main_arg6)

/-- Argument 7 as launched: the second output layer's bias. -/
def in7 : FVec Ideal S64 .f32 := m ((c.tc : Thread nD τ).loc main_arg7)

/-- The contents at launch, and after each of the seven stretches. -/
abbrev U0 : Valuation τ sig (Elt Ideal) := launchContents m c
abbrev U1 : Valuation τ sig (Elt Ideal) := after (opsA (F := Ideal)) (U0 m c)
abbrev U2 : Valuation τ sig (Elt Ideal) := after (opsB (F := Ideal)) (U1 m c)
abbrev U3 : Valuation τ sig (Elt Ideal) := after (opsC (F := Ideal)) (U2 m c)
abbrev U4 : Valuation τ sig (Elt Ideal) := after (opsL1 (F := Ideal)) (U3 m c)
abbrev U5 : Valuation τ sig (Elt Ideal) := after (opsRe (F := Ideal)) (U4 m c)
abbrev U6 : Valuation τ sig (Elt Ideal) := after (opsMu (F := Ideal)) (U5 m c)
abbrev U7 : Valuation τ sig (Elt Ideal) := after (opsLv (F := Ideal)) (U6 m c)

/-- The contents after the whole line are the contents after the seventh stretch. -/
theorem after_ops_eq : after (ops (F := Ideal)) (launchContents m c) = U7 m c := after_ops _

/-! ## At launch -/

theorem at0_arg0 : U0 m c (Proc.devRef .tc main_arg0) = in0 m c := rfl

theorem at0_arg1 : U0 m c (Proc.devRef .tc main_arg1) = in1 m c := rfl

theorem at0_arg2 : U0 m c (Proc.devRef .tc main_arg2) = in2 m c := rfl

theorem at0_arg3 : U0 m c (Proc.devRef .tc main_arg3) = in3 m c := rfl

theorem at0_arg4 : U0 m c (Proc.devRef .tc main_arg4) = in4 m c := rfl

theorem at0_arg5 : U0 m c (Proc.devRef .tc main_arg5) = in5 m c := rfl

theorem at0_arg6 : U0 m c (Proc.devRef .tc main_arg6) = in6 m c := rfl

theorem at0_arg7 : U0 m c (Proc.devRef .tc main_arg7) = in7 m c := rfl

/-! ## After the first stretch: the edge lists and the degree -/

theorem at1_v3 : U1 m c (Proc.devRef .tc main_v3) = Cert.Glue.src (in1 m c) :=
  (Stretch.src_at (U0 m c)).trans (congrArg (Cert.Glue.src) (at0_arg1 m c))

theorem at1_v6 : U1 m c (Proc.devRef .tc main_v6) = Cert.Glue.dst (in1 m c) :=
  (Stretch.dst_at (U0 m c)).trans (congrArg (Cert.Glue.dst) (at0_arg1 m c))

theorem at1_v12 : U1 m c (Proc.devRef .tc main_v12) = Cert.Glue.degPos (Cert.Glue.dst (in1 m c)) :=
  (Stretch.degPos_at (U0 m c)).trans (congrArg (fun e => Cert.Glue.degPos (Cert.Glue.dst e)) (at0_arg1 m c))

theorem at1_v13 : U1 m c (Proc.devRef .tc main_v13) = Cert.Glue.degRsqrt (Cert.Glue.dst (in1 m c)) :=
  (Stretch.degRsqrt_at (U0 m c)).trans (congrArg (fun e => Cert.Glue.degRsqrt (Cert.Glue.dst e)) (at0_arg1 m c))

theorem at1_cst_2 : U1 m c (Proc.devRef .tc main_cst_2) = constant (F := Ideal) S_ .f32 0x00000000#32 := Stretch.zero_at (U0 m c)

theorem at1_arg0 : U1 m c (Proc.devRef .tc main_arg0) = in0 m c :=
  (Stretch.keepA_arg0 (U0 m c)).trans (at0_arg0 m c)

theorem at1_arg2 : U1 m c (Proc.devRef .tc main_arg2) = in2 m c :=
  (Stretch.keepA_arg2 (U0 m c)).trans (at0_arg2 m c)

theorem at1_arg3 : U1 m c (Proc.devRef .tc main_arg3) = in3 m c :=
  (Stretch.keepA_arg3 (U0 m c)).trans (at0_arg3 m c)

theorem at1_arg4 : U1 m c (Proc.devRef .tc main_arg4) = in4 m c :=
  (Stretch.keepA_arg4 (U0 m c)).trans (at0_arg4 m c)

theorem at1_arg5 : U1 m c (Proc.devRef .tc main_arg5) = in5 m c :=
  (Stretch.keepA_arg5 (U0 m c)).trans (at0_arg5 m c)

theorem at1_arg6 : U1 m c (Proc.devRef .tc main_arg6) = in6 m c :=
  (Stretch.keepA_arg6 (U0 m c)).trans (at0_arg6 m c)

theorem at1_arg7 : U1 m c (Proc.devRef .tc main_arg7) = in7 m c :=
  (Stretch.keepA_arg7 (U0 m c)).trans (at0_arg7 m c)

/-! ## After the second stretch: the node weights -/

theorem at2_v14 : U2 m c (Proc.devRef .tc main_v14) = Cert.Glue.weight (Cert.Glue.dst (in1 m c)) := by
  refine (Stretch.weight_at (U1 m c)).trans ?_
  rw [at1_v12 m c, at1_v13 m c, at1_cst_2 m c]
  rfl

theorem at2_v3 : U2 m c (Proc.devRef .tc main_v3) = Cert.Glue.src (in1 m c) :=
  (Stretch.keepB_v3 (U1 m c)).trans (at1_v3 m c)

theorem at2_v6 : U2 m c (Proc.devRef .tc main_v6) = Cert.Glue.dst (in1 m c) :=
  (Stretch.keepB_v6 (U1 m c)).trans (at1_v6 m c)

theorem at2_arg0 : U2 m c (Proc.devRef .tc main_arg0) = in0 m c :=
  (Stretch.keepB_arg0 (U1 m c)).trans (at1_arg0 m c)

theorem at2_arg2 : U2 m c (Proc.devRef .tc main_arg2) = in2 m c :=
  (Stretch.keepB_arg2 (U1 m c)).trans (at1_arg2 m c)

theorem at2_arg3 : U2 m c (Proc.devRef .tc main_arg3) = in3 m c :=
  (Stretch.keepB_arg3 (U1 m c)).trans (at1_arg3 m c)

theorem at2_arg4 : U2 m c (Proc.devRef .tc main_arg4) = in4 m c :=
  (Stretch.keepB_arg4 (U1 m c)).trans (at1_arg4 m c)

theorem at2_arg5 : U2 m c (Proc.devRef .tc main_arg5) = in5 m c :=
  (Stretch.keepB_arg5 (U1 m c)).trans (at1_arg5 m c)

theorem at2_arg6 : U2 m c (Proc.devRef .tc main_arg6) = in6 m c :=
  (Stretch.keepB_arg6 (U1 m c)).trans (at1_arg6 m c)

theorem at2_arg7 : U2 m c (Proc.devRef .tc main_arg7) = in7 m c :=
  (Stretch.keepB_arg7 (U1 m c)).trans (at1_arg7 m c)

/-! ## After the third stretch: the edge coefficients -/

theorem at3_v29 : U3 m c (Proc.devRef .tc main_v29) = Cert.Glue.coeff (in1 m c) := by
  refine (Stretch.coeff_at (U2 m c)).trans ?_
  rw [at2_v14 m c, at2_v3 m c, at2_v6 m c]
  rfl

theorem at3_v3 : U3 m c (Proc.devRef .tc main_v3) = Cert.Glue.src (in1 m c) :=
  (Stretch.keepC_v3 (U2 m c)).trans (at2_v3 m c)

theorem at3_v6 : U3 m c (Proc.devRef .tc main_v6) = Cert.Glue.dst (in1 m c) :=
  (Stretch.keepC_v6 (U2 m c)).trans (at2_v6 m c)

theorem at3_arg0 : U3 m c (Proc.devRef .tc main_arg0) = in0 m c :=
  (Stretch.keepC_arg0 (U2 m c)).trans (at2_arg0 m c)

theorem at3_arg2 : U3 m c (Proc.devRef .tc main_arg2) = in2 m c :=
  (Stretch.keepC_arg2 (U2 m c)).trans (at2_arg2 m c)

theorem at3_arg3 : U3 m c (Proc.devRef .tc main_arg3) = in3 m c :=
  (Stretch.keepC_arg3 (U2 m c)).trans (at2_arg3 m c)

theorem at3_arg4 : U3 m c (Proc.devRef .tc main_arg4) = in4 m c :=
  (Stretch.keepC_arg4 (U2 m c)).trans (at2_arg4 m c)

theorem at3_arg5 : U3 m c (Proc.devRef .tc main_arg5) = in5 m c :=
  (Stretch.keepC_arg5 (U2 m c)).trans (at2_arg5 m c)

theorem at3_arg6 : U3 m c (Proc.devRef .tc main_arg6) = in6 m c :=
  (Stretch.keepC_arg6 (U2 m c)).trans (at2_arg6 m c)

theorem at3_arg7 : U3 m c (Proc.devRef .tc main_arg7) = in7 m c :=
  (Stretch.keepC_arg7 (U2 m c)).trans (at2_arg7 m c)

/-! ## After the fourth stretch: the hidden layer before its clamp -/

theorem at4_v46 : U4 m c (Proc.devRef .tc main_v46) = Cert.Glue.bias128 (Cert.Glue.agg128 (Cert.Glue.lin128 (in0 m c) (in2 m c)) (Cert.Glue.src (in1 m c)) (Cert.Glue.dst (in1 m c)) (Cert.Glue.coeff (in1 m c))) (in3 m c) := by
  refine (Stretch.preact_at (U3 m c)).trans ?_
  rw [at3_arg0 m c, at3_arg2 m c, at3_v3 m c, at3_v6 m c, at3_v29 m c, at3_arg3 m c]

theorem at4_v3 : U4 m c (Proc.devRef .tc main_v3) = Cert.Glue.src (in1 m c) :=
  (Stretch.keepL1_v3 (U3 m c)).trans (at3_v3 m c)

theorem at4_v6 : U4 m c (Proc.devRef .tc main_v6) = Cert.Glue.dst (in1 m c) :=
  (Stretch.keepL1_v6 (U3 m c)).trans (at3_v6 m c)

theorem at4_v29 : U4 m c (Proc.devRef .tc main_v29) = Cert.Glue.coeff (in1 m c) :=
  (Stretch.keepL1_v29 (U3 m c)).trans (at3_v29 m c)

theorem at4_arg4 : U4 m c (Proc.devRef .tc main_arg4) = in4 m c :=
  (Stretch.keepL1_arg4 (U3 m c)).trans (at3_arg4 m c)

theorem at4_arg5 : U4 m c (Proc.devRef .tc main_arg5) = in5 m c :=
  (Stretch.keepL1_arg5 (U3 m c)).trans (at3_arg5 m c)

theorem at4_arg6 : U4 m c (Proc.devRef .tc main_arg6) = in6 m c :=
  (Stretch.keepL1_arg6 (U3 m c)).trans (at3_arg6 m c)

theorem at4_arg7 : U4 m c (Proc.devRef .tc main_arg7) = in7 m c :=
  (Stretch.keepL1_arg7 (U3 m c)).trans (at3_arg7 m c)

/-! ## After the fifth stretch: the hidden layer -/

theorem at5_v47 : U5 m c (Proc.devRef .tc main_v47) = Cert.Glue.hidden (in0 m c) (in1 m c) (in2 m c) (in3 m c) := by
  refine (Stretch.relu_at (U4 m c)).trans ?_
  rw [at4_v46 m c]
  rfl

theorem at5_v3 : U5 m c (Proc.devRef .tc main_v3) = Cert.Glue.src (in1 m c) :=
  (Stretch.keepRe_v3 (U4 m c)).trans (at4_v3 m c)

theorem at5_v6 : U5 m c (Proc.devRef .tc main_v6) = Cert.Glue.dst (in1 m c) :=
  (Stretch.keepRe_v6 (U4 m c)).trans (at4_v6 m c)

theorem at5_v29 : U5 m c (Proc.devRef .tc main_v29) = Cert.Glue.coeff (in1 m c) :=
  (Stretch.keepRe_v29 (U4 m c)).trans (at4_v29 m c)

theorem at5_arg4 : U5 m c (Proc.devRef .tc main_arg4) = in4 m c :=
  (Stretch.keepRe_arg4 (U4 m c)).trans (at4_arg4 m c)

theorem at5_arg5 : U5 m c (Proc.devRef .tc main_arg5) = in5 m c :=
  (Stretch.keepRe_arg5 (U4 m c)).trans (at4_arg5 m c)

theorem at5_arg6 : U5 m c (Proc.devRef .tc main_arg6) = in6 m c :=
  (Stretch.keepRe_arg6 (U4 m c)).trans (at4_arg6 m c)

theorem at5_arg7 : U5 m c (Proc.devRef .tc main_arg7) = in7 m c :=
  (Stretch.keepRe_arg7 (U4 m c)).trans (at4_arg7 m c)

/-! ## After the sixth stretch: the first result -/

theorem at6_v64 : U6 m c (Proc.devRef .tc main_v64) = Cert.Glue.head (in0 m c) (in1 m c) (in2 m c) (in3 m c) (in4 m c) (in5 m c) := by
  refine (Stretch.mu_at (U5 m c)).trans ?_
  rw [at5_v47 m c, at5_arg4 m c, at5_v3 m c, at5_v6 m c, at5_v29 m c, at5_arg5 m c]
  rfl

theorem at6_v47 : U6 m c (Proc.devRef .tc main_v47) = Cert.Glue.hidden (in0 m c) (in1 m c) (in2 m c) (in3 m c) :=
  (Stretch.keepMu_v47 (U5 m c)).trans (at5_v47 m c)

theorem at6_v3 : U6 m c (Proc.devRef .tc main_v3) = Cert.Glue.src (in1 m c) :=
  (Stretch.keepMu_v3 (U5 m c)).trans (at5_v3 m c)

theorem at6_v6 : U6 m c (Proc.devRef .tc main_v6) = Cert.Glue.dst (in1 m c) :=
  (Stretch.keepMu_v6 (U5 m c)).trans (at5_v6 m c)

theorem at6_v29 : U6 m c (Proc.devRef .tc main_v29) = Cert.Glue.coeff (in1 m c) :=
  (Stretch.keepMu_v29 (U5 m c)).trans (at5_v29 m c)

theorem at6_arg6 : U6 m c (Proc.devRef .tc main_arg6) = in6 m c :=
  (Stretch.keepMu_arg6 (U5 m c)).trans (at5_arg6 m c)

theorem at6_arg7 : U6 m c (Proc.devRef .tc main_arg7) = in7 m c :=
  (Stretch.keepMu_arg7 (U5 m c)).trans (at5_arg7 m c)

/-! ## After the seventh stretch: the second result -/

theorem at7_v81 : U7 m c (Proc.devRef .tc main_v81) = Cert.Glue.head (in0 m c) (in1 m c) (in2 m c) (in3 m c) (in6 m c) (in7 m c) := by
  refine (Stretch.lv_at (U6 m c)).trans ?_
  rw [at6_v47 m c, at6_arg6 m c, at6_v3 m c, at6_v6 m c, at6_v29 m c, at6_arg7 m c]
  rfl

theorem at7_v64 : U7 m c (Proc.devRef .tc main_v64) = Cert.Glue.head (in0 m c) (in1 m c) (in2 m c) (in3 m c) (in4 m c) (in5 m c) :=
  (Stretch.keepLv_v64 (U6 m c)).trans (at6_v64 m c)

end Cert.ReferenceIdeal.Walk

end
-- ==== Proof.lean ====
/-
  The certificate of a two-layer graph-convolution encoder: a Pallas program against its jnp reference.

  Both programs compute, from node features x, an edge list, and three weight matrices with their biases,

      hidden = max (A · (x · W1) + b1, 0),   result0 = A · (hidden · Wmu) + bmu,   result1 = A · (hidden · Wlv) + blv,

  where A · h adds, for every edge (and every node's loop to itself), the source's row of h scaled by the edge's
  coefficient into the target's row. The kernel computes each product x · W and each "+ b" (with the clamp) in a
  region of ten row blocks, and everything else on the host, exactly as the reference does; on the extended
  reals its change of float format before a product is the identity, a product of a strip of rows is that strip
  of the whole product, and a bias laid out as a row and spread over the rows is the bias added to every row.
  So both programs end with the same two functions of the arguments, and no finiteness is used.

  The three frames: the two kernels' are the generated ones; the reference's is its run with the results dropped.
  The idealization rewrote nothing, so `preserves` is trivial.
-/
import proofs.«116998_j46694884442219_1_alg».proof.Defs
import proofs.«116998_j46694884442219_1_alg».proof.Proof.Gen.Kernel
import proofs.«116998_j46694884442219_1_alg».proof.Proof.Gen.Kernel.Skeleton
import proofs.«116998_j46694884442219_1_alg».proof.Proof.Gen.Kernel.Launch
import proofs.«116998_j46694884442219_1_alg».proof.Proof.Gen.Kernel.Points
import proofs.«116998_j46694884442219_1_alg».proof.Proof.Gen.Kernel.Frame
import proofs.«116998_j46694884442219_1_alg».proof.Proof.Gen.KernelIdeal
import proofs.«116998_j46694884442219_1_alg».proof.Proof.Gen.KernelIdeal.Skeleton
import proofs.«116998_j46694884442219_1_alg».proof.Proof.Gen.KernelIdeal.Launch
import proofs.«116998_j46694884442219_1_alg».proof.Proof.Gen.KernelIdeal.Points
import proofs.«116998_j46694884442219_1_alg».proof.Proof.Gen.KernelIdeal.Frame
import proofs.«116998_j46694884442219_1_alg».proof.Proof.Gen.ReferenceIdeal
import proofs.«116998_j46694884442219_1_alg».proof.Proof.Gen.Pre_finite_inputs
import proofs.«116998_j46694884442219_1_alg».proof.Proof.KernelRun
import proofs.«116998_j46694884442219_1_alg».proof.Proof.KernelWalk
import proofs.«116998_j46694884442219_1_alg».proof.Proof.RefRun
import proofs.«116998_j46694884442219_1_alg».proof.Proof.RefKept
import proofs.«116998_j46694884442219_1_alg».proof.Proof.RefWalk
import Idealize.ShloMosaic.Adequacy
import Idealize.ShloMosaic.Init

set_option maxRecDepth 16384

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, read at the argument arrays. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.Hand.kept_arg0 m c), (h c Cert.ReferenceIdeal.main_arg1).trans (Cert.ReferenceIdeal.Hand.kept_arg1 m c),
     (h c Cert.ReferenceIdeal.main_arg2).trans (Cert.ReferenceIdeal.Hand.kept_arg2 m c), (h c Cert.ReferenceIdeal.main_arg3).trans (Cert.ReferenceIdeal.Hand.kept_arg3 m c),
     (h c Cert.ReferenceIdeal.main_arg4).trans (Cert.ReferenceIdeal.Hand.kept_arg4 m c), (h c Cert.ReferenceIdeal.main_arg5).trans (Cert.ReferenceIdeal.Hand.kept_arg5 m c),
     (h c Cert.ReferenceIdeal.main_arg6).trans (Cert.ReferenceIdeal.Hand.kept_arg6 m c), (h c Cert.ReferenceIdeal.main_arg7).trans (Cert.ReferenceIdeal.Hand.kept_arg7 m c)⟩)
    (Cert.ReferenceIdeal.Hand.run (F := Ideal) m ρ)

/-- From memories agreeing on the arguments both idealized programs end with the two output layers of the
    encoder over the same hidden layer. -/
theorem algebraic : Cert.algebraic_KernelIdeal_ReferenceIdeal := by
  intro m ρ m' ρ' _ hagree
  refine ⟨fun c => Cert.Glue.head (Cert.KernelIdeal.Walk.in0 m c) (Cert.KernelIdeal.Walk.in1 m c) (Cert.KernelIdeal.Walk.in2 m c) (Cert.KernelIdeal.Walk.in3 m c) (Cert.KernelIdeal.Walk.in4 m c) (Cert.KernelIdeal.Walk.in5 m c),
    fun c => Cert.Glue.head (Cert.KernelIdeal.Walk.in0 m c) (Cert.KernelIdeal.Walk.in1 m c) (Cert.KernelIdeal.Walk.in2 m c) (Cert.KernelIdeal.Walk.in3 m c) (Cert.KernelIdeal.Walk.in6 m c) (Cert.KernelIdeal.Walk.in7 m c), ?_, ?_⟩
  · exact (θ_run Cert.KernelIdeal.defs _ _).mono (fun _ h c =>
      ⟨(h c).1.trans (Cert.KernelIdeal.Walk.at12_v59 m ρ c), (h c).2.1.trans (Cert.KernelIdeal.Walk.at12_v74 m ρ c), (h c).2.2⟩)
      (Cert.KernelIdeal.Named.run (F := Ideal) m ρ)
  · refine (θ_run Cert.ReferenceIdeal.defs _ _).mono (fun _ h c => ?_) (Cert.ReferenceIdeal.Hand.run (F := Ideal) m' ρ')
    have e0 : Cert.ReferenceIdeal.Walk.in0 m' c = Cert.KernelIdeal.Walk.in0 m c := (hagree c).1
    have e1 : Cert.ReferenceIdeal.Walk.in1 m' c = Cert.KernelIdeal.Walk.in1 m c := (hagree c).2.1
    have e2 : Cert.ReferenceIdeal.Walk.in2 m' c = Cert.KernelIdeal.Walk.in2 m c := (hagree c).2.2.1
    have e3 : Cert.ReferenceIdeal.Walk.in3 m' c = Cert.KernelIdeal.Walk.in3 m c := (hagree c).2.2.2.1
    have e4 : Cert.ReferenceIdeal.Walk.in4 m' c = Cert.KernelIdeal.Walk.in4 m c := (hagree c).2.2.2.2.1
    have e5 : Cert.ReferenceIdeal.Walk.in5 m' c = Cert.KernelIdeal.Walk.in5 m c := (hagree c).2.2.2.2.2.1
    have e6 : Cert.ReferenceIdeal.Walk.in6 m' c = Cert.KernelIdeal.Walk.in6 m c := (hagree c).2.2.2.2.2.2.1
    have e7 : Cert.ReferenceIdeal.Walk.in7 m' c = Cert.KernelIdeal.Walk.in7 m c := (hagree c).2.2.2.2.2.2.2
    refine ⟨?_, ?_, (h c Cert.ReferenceIdeal.main_arg0).trans (Cert.ReferenceIdeal.Hand.kept_arg0 m' c), (h c Cert.ReferenceIdeal.main_arg1).trans (Cert.ReferenceIdeal.Hand.kept_arg1 m' c),
      (h c Cert.ReferenceIdeal.main_arg2).trans (Cert.ReferenceIdeal.Hand.kept_arg2 m' c), (h c Cert.ReferenceIdeal.main_arg3).trans (Cert.ReferenceIdeal.Hand.kept_arg3 m' c),
      (h c Cert.ReferenceIdeal.main_arg4).trans (Cert.ReferenceIdeal.Hand.kept_arg4 m' c), (h c Cert.ReferenceIdeal.main_arg5).trans (Cert.ReferenceIdeal.Hand.kept_arg5 m' c),
      (h c Cert.ReferenceIdeal.main_arg6).trans (Cert.ReferenceIdeal.Hand.kept_arg6 m' c), (h c Cert.ReferenceIdeal.main_arg7).trans (Cert.ReferenceIdeal.Hand.kept_arg7 m' c)⟩
    · refine (h c Cert.ReferenceIdeal.main_v64).trans ((congrFun (Cert.ReferenceIdeal.Walk.after_ops_eq m' c) _).trans ((Cert.ReferenceIdeal.Walk.at7_v64 m' c).trans ?_))
      rw [e0, e1, e2, e3, e4, e5]
    · refine (h c Cert.ReferenceIdeal.main_v81).trans ((congrFun (Cert.ReferenceIdeal.Walk.after_ops_eq m' c) _).trans ((Cert.ReferenceIdeal.Walk.at7_v81 m' c).trans ?_))
      rw [e0, e1, e2, e3, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
